-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1x1x1024 : Shape := ⟨3, ![1, 1, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1x1x1024 : S_.BroadcastsInDim S1x1x1024 (![] : Fin 0 → Fin S1x1x1024.rank)
  reducesTo_S1x1x1024_S_d0_1_2 : S1x1x1024.ReducesTo [0, 1, 2] S_

variable [Facts]

def fn_part1 {F : FTy → Type} [FloatOps F] (main_v13 : IVec S_ 1) (main_v16 : IVec S1x1x1024 1) : IVec S_ 1 :=
  let main_c_5 : IVec S_ 1 := constantI S_ 1 1#1
  let main_v17 : IVec S_ 1 := (fun x v => Host.reduce IntOp.andi x v reducesTo_S1x1x1024_S_d0_1_2 h_S_) main_v16 main_c_5
  let main_v18 : IVec S_ 1 := andi main_v13 main_v17
  main_v18

def fn {F : FTy → Type} [FloatOps F] (main_arg0 : FVec F S8x2048x1024 .f32) (main_arg1 : FVec F S8x2048x1024 .f32) (main_arg2 : FVec F S1x1x1024 .f32) (main_arg3 : FVec F S1x1x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S1x1x1024 .f32 := Host.absf main_arg2
  let main_cst_2 : FVec F S_ .f32 := constant S_ .f32 0x7F800000#32
  let main_v10 : FVec F S1x1x1024 .f32 := broadcastInDim S1x1x1024 ![] bcast_S_S1x1x1024 main_cst_2
  let main_v11 : IVec S1x1x1024 1 := cmpf .olt main_v9 main_v10
  let main_c_3 : IVec S_ 1 := constantI S_ 1 1#1
  let main_v12 : IVec S_ 1 := (fun x v => Host.reduce IntOp.andi x v reducesTo_S1x1x1024_S_d0_1_2 h_S_) main_v11 main_c_3
  let main_v13 : IVec S_ 1 := andi main_v8 main_v12
  let main_v14 : FVec F S1x1x1024 .f32 := Host.absf main_arg3
  let main_cst_4 : FVec F S_ .f32 := constant S_ .f32 0x7F800000#32
  let main_v15 : FVec F S1x1x1024 .f32 := broadcastInDim S1x1x1024 ![] bcast_S_S1x1x1024 main_cst_4
  let main_v16 : IVec S1x1x1024 1 := cmpf .olt main_v14 main_v15
  fn_part1 (F := F) main_v13 main_v16
-- ==== Kernel.lean ====
abbrev S8x2048x1024 : Shape := ⟨3, ![8, 2048, 1024]⟩
abbrev S1x1x1024 : Shape := ⟨3, ![1, 1, 1024]⟩
abbrev S1x1024 : Shape := ⟨2, ![1, 1024]⟩
abbrev S8x2048x2048 : Shape := ⟨3, ![8, 2048, 2048]⟩
abbrev S1x512x1024 : Shape := ⟨3, ![1, 512, 1024]⟩
abbrev S1x512x2048 : Shape := ⟨3, ![1, 512, 2048]⟩
abbrev S512x1 : Shape := ⟨2, ![512, 1]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩

abbrev nBuf : Space → Nat
  | .hbm => 8
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1x1x1024, .f32⟩
  | .hbm, ⟨3, _⟩ => ⟨S1x1x1024, .f32⟩
  | .hbm, ⟨4, _⟩ => ⟨S1x1024, .f32⟩
  | .hbm, ⟨5, _⟩ => ⟨S1x1024, .f32⟩
  | .hbm, ⟨6, _⟩ => ⟨S8x2048x2048, .f32⟩
  | .hbm, ⟨7, _⟩ => ⟨S8x2048x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x1024, .f32⟩
  | .local _ .vmem, ⟨6, _⟩ => ⟨S1x512x2048, .f32⟩
  | .local _ .vmem, ⟨7, _⟩ => ⟨S1x512x2048, .f32⟩
  | .local _ .vmem, ⟨8, _⟩ => ⟨S512x1, .f32⟩
  | .local _ .vmem, ⟨9, _⟩ => ⟨S512x1, .f32⟩
  | .local _ .vmem, ⟨10, _⟩ => ⟨S512x1024, .f32⟩
  | .local _ .vmem, ⟨11, _⟩ => ⟨S512x1024, .bf16⟩
  | .local _ .vmem, ⟨12, _⟩ => ⟨S1x512x1024, .f32⟩
  | .local _ .vmem, ⟨13, _⟩ => ⟨S1x512x1024, .f32⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x1024, .f32⟩
  | .local _ .vmem, ⟨18, _⟩ => ⟨S1x512x2048, .f32⟩
  | .local _ .vmem, ⟨19, _⟩ => ⟨S1x512x2048, .f32⟩
  | .local _ .vmem, ⟨20, _⟩ => ⟨S512x1, .f32⟩
  | .local _ .vmem, ⟨21, _⟩ => ⟨S512x1, .f32⟩
  | .local _ .vmem, ⟨22, _⟩ => ⟨S512x1024, .f32⟩
  | .local _ .vmem, ⟨23, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc1_scratch3 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v43 : BitVec 1 := Scalar.cmpi .eq arg2 c3_i32
  let v44 : BitVec 32 := Scalar.extui v43
  let c0_i32_22 : BitVec 32 := 0#32
  let v45 : BitVec 1 := Scalar.cmpi .ne v44 c0_i32_22
  v45

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v43 : BitVec 1 := Scalar.cmpi .eq arg2 c3_i32
  let v44 : BitVec 32 := Scalar.extui v43
  let c0_i32_22 : BitVec 32 := 0#32
  let v45 : BitVec 1 := Scalar.cmpi .ne v44 c0_i32_22
  v45

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S1x1x1024_S1x1024 : S1x1x1024.ShapeCasts S1x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  transposes_S512x1024_p1_0_S1024x512 : S512x1024.Transposes [1, 0] S1024x512
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  inb_S1x512x2048_S1x512x1024_0_0_0 : ∀ a, (![0, 0, 0] : Fin 3 → Nat) a + S1x512x1024.size a ≤ S1x512x2048.size a
  shapeCasts_S512x1024_S1x512x1024 : S512x1024.ShapeCasts S1x512x1024
  inb_S1x512x2048_S1x512x1024_0_0_1024 : ∀ a, (![0, 0, 1024] : Fin 3 → Nat) a + S1x512x1024.size a ≤ S1x512x2048.size a
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x2048x1024.size a
  hwx0_2 : ∀ i : grid0.Coords, EltTy.bits .f32 = 32 ∨ (Rect.block (s := S8x2048x1024) S1x512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x2048x2048.size a
  hwx0_4 : ∀ i : grid0.Coords, EltTy.bits .f32 = 32 ∨ (Rect.block (s := S8x2048x2048) S1x512x2048.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x1024.size a
  hwx1_0 : ∀ i : grid1.Coords, EltTy.bits .f32 = 32 ∨ (Rect.block (s := S8x2048x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S8x2048x1024.size a
  hwx1_2 : ∀ i : grid1.Coords, EltTy.bits .f32 = 32 ∨ (Rect.block (s := S8x2048x1024) S1x512x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x2048.size a ≤ S8x2048x2048.size a
  hwx1_4 : ∀ i : grid1.Coords, EltTy.bits .f32 = 32 ∨ (Rect.block (s := S8x2048x2048) S1x512x2048.size (cc1_transform_4 i) (hinb1_4 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1x1x1024 : Shape := ⟨3, ![1, 1, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1x1x1024, .f32⟩
  | .hbm, ⟨3, _⟩ => ⟨S1x1x1024, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S8x1x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x1x2048, .f32⟩
  | .hbm, ⟨35, _⟩ => ⟨S8x2048x2048, .f32⟩
  | .hbm, ⟨36, _⟩ => ⟨S8x2048x2048, .f32⟩
  | .hbm, ⟨37, _⟩ => ⟨S8x2048x1024, .f32⟩
  | .hbm, ⟨38, _⟩ => ⟨S8x2048x1024, .f32⟩
  | .hbm, ⟨39, _⟩ => ⟨S8x2048x2048, .f32⟩
  | .hbm, ⟨40, _⟩ => ⟨S8x2048x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  bcast_S1x1x1024_S8x2048x1024_0_1_2 : S1x1x1024.BroadcastsInDim S8x2048x1024 (![0, 1, 2] : Fin 3 → Fin S8x2048x1024.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  reducesTo_S8x2048x2048_S8x2048_d1 : S8x2048x2048.ReducesTo [1] S8x2048
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  concatenates_S8x2048x1024_S8x2048x1024_S8x2048x2048_d2 : Shape.Concatenates [S8x2048x1024, S8x2048x1024] S8x2048x2048 2
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]
  dot_S8x2048x2048_S8x2048x1024_S8x2048x1024_1_1_2_2_0_0_wf : DotDims.WF S8x2048x2048 S8x2048x1024 S8x2048x1024 [1] [1] [2] [2] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf
def dot_S8x2048x2048_S8x2048x1024_S8x2048x1024_1_1_2_2_0_0 : DotDims S8x2048x2048 S8x2048x1024 S8x2048x1024 where
  lhsContracting := [1]
  rhsContracting := [1]
  lhsNonContracting := [2]
  rhsNonContracting := [2]
  lhsBatch := [0]
  rhsBatch := [0]
  wf := dot_S8x2048x2048_S8x2048x1024_S8x2048x1024_1_1_2_2_0_0_wf

class Facts : Prop extends Facts₀ where

variable [Facts]
-- ==== Proof.K_Shared0.lean ====
/-
  Launch 0: what the runs of the body share.  The body branches twice on the innermost grid coordinate (the key
  tile): the first key tile resets the four carried buffers, the last one writes the result block.  Over the
  8 × 4 × 4 grid, read as 128 points in row-major order, the first branch is taken at the points ≡ 0 (mod 4) and
  the second at the points ≡ 3 (mod 4); the result window is written back exactly at the latter.
-/
import proofs.«165623_j12077448036716_2_alg».proof.Proof.Gen.Kernel.Launch
import proofs.«165623_j12077448036716_2_alg».proof.Proof.Gen.Kernel.Skeleton
import proofs.«165623_j12077448036716_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch: the key-tile coordinate is 0. -/
abbrev condF0 (i : grid0.Coords) : Prop := (Scalar.cmpi .ne (Scalar.extui (Scalar.cmpi .eq (BitVec.ofNat 32 (i 2).val) 0#32)) 0#32) = 1#1
/-- It holds at the first key tile of each row tile. -/
theorem hcondF0 : ∀ t : Fin cfg0.N, condF0 (grid0.coords t) ↔ t.val % 4 = 0 :=
  (by decide +kernel : ∀ t : Fin grid0.N, condF0 (grid0.coords t) ↔ t.val % 4 = 0)
/-- The body's second branch: the key-tile coordinate is 3. -/
abbrev condL0 (i : grid0.Coords) : Prop := k0_cond2 i = 1#1
/-- It holds at the last key tile of each row tile. -/
theorem hcondL0 : ∀ t : Fin cfg0.N, condL0 (grid0.coords t) ↔ t.val % 4 = 3 :=
  (by decide +kernel : ∀ t : Fin grid0.N, condL0 (grid0.coords t) ↔ t.val % 4 = 3)

/-- The four input windows are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
/-- Away from the last key tile the result window is idle and is not written back. -/
theorem idle0_4 : ∀ t : Fin cfg0.N, ¬condL0 (grid0.coords t) → cfg0.idle 4 (grid0.coords t) = true := by decide +kernel
theorem noFlush0_4 : ∀ t : Fin cfg0.N, ¬condL0 (grid0.coords t) → (cfg0.win 4).flush t = false := by decide +kernel
/-- At the last key tile it is live. -/
theorem live0_4 : ∀ t : Fin cfg0.N, condL0 (grid0.coords t) → cfg0.idle 4 (grid0.coords t) = false := by decide +kernel

/-- One staging buffer of the result window, through which its contents are stated. -/
abbrev VO0 : View sig .tc .vmem S1x512x2048 .f32 := (Memref.whole cc0_stg4_0 : Memref sig .tc .vmem S1x512x2048 .f32).view
/-- Each window's current staging memref at point `t`, as the pipeline passes it, and its wholeness. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x2048 .f32 := win0_4.stage (cfg0.slots t 4)
abbrev hs0_4 (t : Fin cfg0.N) : (ms0_4 t).IsWhole := hstage0_4 ((cfg0.slots t 4).cast nbuf0_4)
/-- The four buffers the kernel carries between key tiles: whole scoped buffers of its own. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1024 .f32 := Memref.whole cc0_scratch2
abbrev scM0_3 : Memref sig .tc .vmem S512x1024 .bf16 := Memref.whole cc0_scratch3

end Cert.Kernel.Hand

end
-- ==== Proof.K_Run0A.lean ====
/-
  Launch 0: the body run once at the first key tile (the carried buffers reset, then updated), on any whole staging memrefs.
  From the four input blocks at their contents and the result block handed back untouched,
  the body runs to its return leaving each buffer it stored into with a list of written pieces; the pieces are found by the run.
-/
import proofs.«165623_j12077448036716_2_alg».proof.Proof.K_Shared0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF0 i) (hcL : ¬condL0 i)
    (x0 : Vec F S1x512x1024 .f32) (x1 : Vec F S1x1024 .f32) (x2 : Vec F S1x512x1024 .f32) (x3 : Vec F S1x1024 .f32) :
    Σ' (LS0 : List (View.Piece (Elt F) S512x1 .f32)) (LS1 : List (View.Piece (Elt F) S512x1 .f32)), Σ' (LS2 : List (View.Piece (Elt F) S512x1024 .f32)), { LS3 : List (View.Piece (Elt F) S512x1024 .bf16) //
      ∀ (xi4 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__bidir_kernel i arg3 harg3 arg4 harg4 arg5 harg5 arg6 harg6 arg7 harg7 arg8 harg8 arg9 harg9 arg10 harg10 arg11 harg11) K } := by
  refine ⟨?_, ?_, ?_, ?_, fun xi4 E K => ?run⟩
  case run =>
    simp only [cc0__bidir_kernel_eq_skeleton]; unfold cc0__bidir_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.Kernel.Hand

end
-- ==== Proof.K_Run0B.lean ====
/-
  Launch 0: the body run once at a middle key tile (the carried buffers updated), on any whole staging memrefs.
  From the four input blocks at their contents, the carried buffers at what the tile before left, and the result block handed back untouched,
  the body runs to its return leaving each buffer it stored into with a list of written pieces; the pieces are found by the run.
-/
import proofs.«165623_j12077448036716_2_alg».proof.Proof.K_Run0A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : ¬condL0 i)
    (x0 : Vec F S1x512x1024 .f32) (x1 : Vec F S1x1024 .f32) (x2 : Vec F S1x512x1024 .f32) (x3 : Vec F S1x1024 .f32) (xs0 : Vec F S512x1 .f32) (xs1 : Vec F S512x1 .f32) (xs2 : Vec F S512x1024 .f32) (xs3 : Vec F S512x1024 .bf16) :
    Σ' (LS0 : List (View.Piece (Elt F) S512x1 .f32)) (LS1 : List (View.Piece (Elt F) S512x1 .f32)), { LS2 : List (View.Piece (Elt F) S512x1024 .f32) //
      ∀ (xi4 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc0__bidir_kernel i arg3 harg3 arg4 harg4 arg5 harg5 arg6 harg6 arg7 harg7 arg8 harg8 arg9 harg9 arg10 harg10 arg11 harg11) K } := by
  refine ⟨?_, ?_, ?_, fun xi4 E K => ?run⟩
  case run =>
    simp only [cc0__bidir_kernel_eq_skeleton]; unfold cc0__bidir_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2; obtain rfl := harg11.eq_unread hfs3
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; isplitr; · ipureintro; exact harg11.read_unread _
    iexact HS3

end Cert.Kernel.Hand

end
-- ==== Proof.K_Run0C.lean ====
/-
  Launch 0: the body run once at the last key tile (the carried buffers updated, the result block written), on any whole staging memrefs.
  From the four input blocks at their contents, the carried buffers at what the tile before left, and the result block at anything,
  the body runs to its return leaving each buffer it stored into with a list of written pieces; the pieces are found by the run.
-/
import proofs.«165623_j12077448036716_2_alg».proof.Proof.K_Run0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : condL0 i)
    (x0 : Vec F S1x512x1024 .f32) (x1 : Vec F S1x1024 .f32) (x2 : Vec F S1x512x1024 .f32) (x3 : Vec F S1x1024 .f32) (xs0 : Vec F S512x1 .f32) (xs1 : Vec F S512x1 .f32) (xs2 : Vec F S512x1024 .f32) (xs3 : Vec F S512x1024 .bf16) :
    Σ' (L4 : List (View.Piece (Elt F) S1x512x2048 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc0__bidir_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__bidir_kernel_eq_skeleton]; unfold cc0__bidir_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2; obtain rfl := harg11.eq_unread hfs3
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    isplitl [HS2]; · iexists _; iexact HS2
    iexists _; isplitr; · ipureintro; exact harg11.read_unread _
    iexact HS3

end Cert.Kernel.Hand

end
-- ==== Proof.K_Frame0.lean ====
/-
  Launch 0: the frame of its region.  What the four carried buffers hold after each grid point is defined by
  recursion along the 128 points: at the first key tile of a row tile the first-case run's pieces, otherwise the
  middle- or last-case run's pieces over what the point before left.  The invariant between two points is the
  carried buffers at those contents beside the other scoped buffers at anything; the result window's buffer is
  stated at the last key tile only (elsewhere it is handed back untouched and not written back).
-/
import proofs.«165623_j12077448036716_2_alg».proof.Proof.K_Run0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- The class invariant with the kernel's four carried buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f)) ∗ (∃ r, prngReg c r)) := by
  unfold Pipeline.ΦA; rw [scopedRest0_eq]; simp only [scM0_0, scM0_1, scM0_2, scM0_3, owns_whole]; try rfl

theorem scover0_A_0 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF0 i) (hcL : ¬condL0 i) (x0 : Vec F S1x512x1024 .f32) (x1 : Vec F S1x1024 .f32) (x2 : Vec F S1x512x1024 .f32) (x3 : Vec F S1x1024 .f32) (y : S512x1.Idx) : ∃ pc ∈ (kernelRun0_A c i arg3 harg3 arg4 harg4 arg5 harg5 arg6 harg6 arg7 harg7 arg8 harg8 arg9 harg9 arg10 harg10 arg11 harg11 hcF hcL x0 x1 x2 x3).1, y ∈ pc.1.set :=
  View.cover_of_tiledL (kernelRun0_A c i arg3 harg3 arg4 harg4 arg5 harg5 arg6 harg6 arg7 harg7 arg8 harg8 arg9 harg9 arg10 harg10 arg11 harg11 hcF hcL x0 x1 x2 x3).1 S512x1.size (by sl_kernel_rfl) y
theorem scover0_A_1 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF0 i) (hcL : ¬condL0 i) (x0 : Vec F S1x512x1024 .f32) (x1 : Vec F S1x1024 .f32) (x2 : Vec F S1x512x1024 .f32) (x3 : Vec F S1x1024 .f32) (y : S512x1.Idx) : ∃ pc ∈ (kernelRun0_A c i arg3 harg3 arg4 harg4 arg5 harg5 arg6 harg6 arg7 harg7 arg8 harg8 arg9 harg9 arg10 harg10 arg11 harg11 hcF hcL x0 x1 x2 x3).2.1, y ∈ pc.1.set :=
  View.cover_of_tiledL (kernelRun0_A c i arg3 harg3 arg4 harg4 arg5 harg5 arg6 harg6 arg7 harg7 arg8 harg8 arg9 harg9 arg10 harg10 arg11 harg11 hcF hcL x0 x1 x2 x3).2.1 S512x1.size (by sl_kernel_rfl) y
theorem scover0_A_2 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF0 i) (hcL : ¬condL0 i) (x0 : Vec F S1x512x1024 .f32) (x1 : Vec F S1x1024 .f32) (x2 : Vec F S1x512x1024 .f32) (x3 : Vec F S1x1024 .f32) (y : S512x1024.Idx) : ∃ pc ∈ (kernelRun0_A c i arg3 harg3 arg4 harg4 arg5 harg5 arg6 harg6 arg7 harg7 arg8 harg8 arg9 harg9 arg10 harg10 arg11 harg11 hcF hcL x0 x1 x2 x3).2.2.1, y ∈ pc.1.set :=
  View.cover_of_tiledL (kernelRun0_A c i arg3 harg3 arg4 harg4 arg5 harg5 arg6 harg6 arg7 harg7 arg8 harg8 arg9 harg9 arg10 harg10 arg11 harg11 hcF hcL x0 x1 x2 x3).2.2.1 S512x1024.size (by sl_kernel_rfl) y
theorem scover0_A_3 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF0 i) (hcL : ¬condL0 i) (x0 : Vec F S1x512x1024 .f32) (x1 : Vec F S1x1024 .f32) (x2 : Vec F S1x512x1024 .f32) (x3 : Vec F S1x1024 .f32) (y : S512x1024.Idx) : ∃ pc ∈ (kernelRun0_A c i arg3 harg3 arg4 harg4 arg5 harg5 arg6 harg6 arg7 harg7 arg8 harg8 arg9 harg9 arg10 harg10 arg11 harg11 hcF hcL x0 x1 x2 x3).2.2.2.1, y ∈ pc.1.set :=
  View.cover_of_tiledL (kernelRun0_A c i arg3 harg3 arg4 harg4 arg5 harg5 arg6 harg6 arg7 harg7 arg8 harg8 arg9 harg9 arg10 harg10 arg11 harg11 hcF hcL x0 x1 x2 x3).2.2.2.1 S512x1024.size (by sl_kernel_rfl) y
theorem scover0_B_0 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : ¬condL0 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1.Idx) : ∃ pc ∈ (kernelRun0_B c i arg3 harg3 arg4 harg4 arg5 harg5 arg6 harg6 arg7 harg7 arg8 harg8 arg9 harg9 arg10 harg10 arg11 harg11 hcF hcL x0 x1 x2 x3 xs.1 xs.2.1 xs.2.2.1 xs.2.2.2).1, y ∈ pc.1.set :=
  View.cover_of_tiledL (kernelRun0_B c i arg3 harg3 arg4 harg4 arg5 harg5 arg6 harg6 arg7 harg7 arg8 harg8 arg9 harg9 arg10 harg10 arg11 harg11 hcF hcL x0 x1 x2 x3 xs.1 xs.2.1 xs.2.2.1 xs.2.2.2).1 S512x1.size (by sl_kernel_rfl) y
theorem scover0_B_1 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : ¬condL0 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1.Idx) : ∃ pc ∈ (kernelRun0_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1, y ∈ pc.1.set :=
  View.cover_of_tiledL (kernelRun0_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1 S512x1.size (by sl_kernel_rfl) y
theorem scover0_B_2 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : ¬condL0 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1024.Idx) : ∃ pc ∈ (kernelRun0_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1, y ∈ pc.1.set :=
  View.cover_of_tiledL (kernelRun0_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1 S512x1024.size (by sl_kernel_rfl) y
theorem scover0_C_0 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : condL0 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1.Idx) : ∃ pc ∈ (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1, y ∈ pc.1.set :=
  View.cover_of_tiledL (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1 S512x1.size (by sl_kernel_rfl) y
theorem scover0_C_1 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : condL0 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1.Idx) : ∃ pc ∈ (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1, y ∈ pc.1.set :=
  View.cover_of_tiledL (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1 S512x1.size (by sl_kernel_rfl) y
theorem scover0_C_2 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : condL0 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1024.Idx) : ∃ pc ∈ (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.2.1, y ∈ pc.1.set :=
  View.cover_of_tiledL (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.2.1 S512x1024.size (by sl_kernel_rfl) y
/-- The two halves written at the last key tile tile the result block. -/
theorem cover0_C_4 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : condL0 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S1x512x2048.Idx) : ∃ pc ∈ (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).1, y ∈ pc.1.set :=
  View.cover_of_tiledL (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).1 S1x512x1024.size (by sl_kernel_rfl) y

/-- What the first case leaves in the four carried buffers: its pieces read back. -/
def sout0_A (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF0 i) (hcL : ¬condL0 i) (x0 : Vec F S1x512x1024 .f32) (x1 : Vec F S1x1024 .f32) (x2 : Vec F S1x512x1024 .f32) (x3 : Vec F S1x1024 .f32) : Vec F S512x1 .f32 × Vec F S512x1 .f32 × Vec F S512x1024 .f32 × Vec F S512x1024 .bf16 :=
  (scM0_0.view.read (Elt F) (scM0_0.view.writes (Elt F) scM0_0.view.junk (kernelRun0_A c i arg3 harg3 arg4 harg4 arg5 harg5 arg6 harg6 arg7 harg7 arg8 harg8 arg9 harg9 arg10 harg10 arg11 harg11 hcF hcL x0 x1 x2 x3).1), scM0_1.view.read (Elt F) (scM0_1.view.writes (Elt F) scM0_1.view.junk (kernelRun0_A c i arg3 harg3 arg4 harg4 arg5 harg5 arg6 harg6 arg7 harg7 arg8 harg8 arg9 harg9 arg10 harg10 arg11 harg11 hcF hcL x0 x1 x2 x3).2.1), scM0_2.view.read (Elt F) (scM0_2.view.writes (Elt F) scM0_2.view.junk (kernelRun0_A c i arg3 harg3 arg4 harg4 arg5 harg5 arg6 harg6 arg7 harg7 arg8 harg8 arg9 harg9 arg10 harg10 arg11 harg11 hcF hcL x0 x1 x2 x3).2.2.1), scM0_3.view.read (Elt F) (scM0_3.view.writes (Elt F) scM0_3.view.junk (kernelRun0_A c i arg3 harg3 arg4 harg4 arg5 harg5 arg6 harg6 arg7 harg7 arg8 harg8 arg9 harg9 arg10 harg10 arg11 harg11 hcF hcL x0 x1 x2 x3).2.2.2.1))
/-- What a middle case leaves in them, over what the point before left (the cached query tile is only read). -/
def sout0_B (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : ¬condL0 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) : Vec F S512x1 .f32 × Vec F S512x1 .f32 × Vec F S512x1024 .f32 × Vec F S512x1024 .bf16 :=
  (scM0_0.view.read (Elt F) (scM0_0.view.writes (Elt F) scM0_0.view.junk (kernelRun0_B c i arg3 harg3 arg4 harg4 arg5 harg5 arg6 harg6 arg7 harg7 arg8 harg8 arg9 harg9 arg10 harg10 arg11 harg11 hcF hcL x0 x1 x2 x3 xs.1 xs.2.1 xs.2.2.1 xs.2.2.2).1), scM0_1.view.read (Elt F) (scM0_1.view.writes (Elt F) scM0_1.view.junk (kernelRun0_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1), scM0_2.view.read (Elt F) (scM0_2.view.writes (Elt F) scM0_2.view.junk (kernelRun0_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1), xs.2.2.2)
/-- What the last case leaves in them, -/
def sout0_C (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : condL0 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) : Vec F S512x1 .f32 × Vec F S512x1 .f32 × Vec F S512x1024 .f32 × Vec F S512x1024 .bf16 :=
  (scM0_0.view.read (Elt F) (scM0_0.view.writes (Elt F) scM0_0.view.junk (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1), scM0_1.view.read (Elt F) (scM0_1.view.writes (Elt F) scM0_1.view.junk (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1), scM0_2.view.read (Elt F) (scM0_2.view.writes (Elt F) scM0_2.view.junk (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.2.1), xs.2.2.2)
/-- and in the result block. -/
def out0_C (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : condL0 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) : Vec F S1x512x2048 .f32 :=
  VO0.read (Elt F) (VO0.writes (Elt F) VO0.junk (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).1)

/-! ## Point by point -/

/-- After the body at position `n`: the result window's buffer (stated at the last key tile; a placeholder nothing
    consults elsewhere) and the four carried buffers. -/
def outsAt0 (c : Dev nD) : (n : ℕ) → n < cfg0.N → Vec F S1x512x2048 .f32 × (Vec F S512x1 .f32 × Vec F S512x1 .f32 × Vec F S512x1024 .f32 × Vec F S512x1024 .bf16)
  | 0, hn => (VO0.read (Elt F) VO0.junk, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcondF0 ⟨0, hn⟩).mpr (Nat.zero_mod _)) (fun h => (fun h => by (try dsimp only at h); omega) ((hcondL0 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      (VO0.read (Elt F) VO0.junk, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcondF0 ⟨n + 1, hn⟩).mpr h0) (fun h => (fun h => by (try dsimp only at h); omega) ((hcondL0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h3 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcondF0 ⟨n + 1, hn⟩).mp h)) ((hcondL0 ⟨n + 1, hn⟩).mpr h3) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
          sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcondF0 ⟨n + 1, hn⟩).mp h)) ((hcondL0 ⟨n + 1, hn⟩).mpr h3) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (VO0.read (Elt F) VO0.junk, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcondF0 ⟨n + 1, hn⟩).mp h)) (fun h => h3 ((hcondL0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 4 = 0) :
    outsAt0 V c t.val t.isLt = (VO0.read (Elt F) VO0.junk, sout0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcondF0 t).mpr h0) (fun h => (fun h => by (try dsimp only at h); omega) ((hcondL0 t).mp h)) (iblk0 V c 0 t) (iblk0 V c 1 t) (iblk0 V c 2 t) (iblk0 V c 3 t)) := by
  obtain ⟨n, hn⟩ := t
  cases n with
  | zero => exact rfl
  | succ n => exact (dif_pos h0).trans rfl

theorem outsAt0_B (c : Dev nD) (t : Fin cfg0.N) (h0 : ¬t.val % 4 = 0) (h3 : ¬t.val % 4 = 3) :
    outsAt0 V c t.val t.isLt = (VO0.read (Elt F) VO0.junk, sout0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcondF0 t).mp h)) (fun h => h3 ((hcondL0 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

theorem outsAt0_C (c : Dev nD) (t : Fin cfg0.N) (h0 : ¬t.val % 4 = 0) (h3 : t.val % 4 = 3) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcondF0 t).mp h)) ((hcondL0 t).mpr h3) (iblk0 V c 0 t) (iblk0 V c 1 t) (iblk0 V c 2 t) (iblk0 V c 3 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcondF0 t).mp h)) ((hcondL0 t).mpr h3) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-- The invariant before position `n`: before the first point the class's (every scoped buffer at anything);
    afterwards the carried buffers at what the point before left, the other scoped buffers at anything, and the
    generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2.1) ∗ owns (c : Thread nD τ) scM0_3 fullShare ((outsAt0 V c n hn).2.2.2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f)) ∗ (∃ r, prngReg c r))

theorem PhiS_zero0 (c : Dev nD) (n : ℕ) (h : n ≤ cfg0.N) (hz : n = 0) : PhiS0 V c n h = Pipeline.ΦA spec0 c := by
  subst hz; rfl

theorem PhiS_succ0 (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2.1) ∗ owns (c : Thread nD τ) scM0_3 fullShare ((outsAt0 V c n hn).2.2.2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f)) ∗ (∃ r, prngReg c r)) := rfl

theorem PhiS_pos0 (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2.1) ∗ owns (c : Thread nD τ) scM0_3 fullShare ((outsAt0 V c (n - 1) (by omega)).2.2.2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f)) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc0 (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' memrefs hold their blocks; the point's position among the key tiles says which
    case runs; the invariant hands over the carried buffers and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS_succ0]
  have hN : t.val < 128 := lt_of_lt_of_eq t.isLt (show cfg0.N = 128 from N_0)
  rw [show (dat0 V c).leavesExact 0 t = owns (c : Thread nD τ) (ms0_0 t) fullShare ((dat0 V c).after 0 t) from by
      unfold Dat.leavesExact; rw [live0_0 t], after0_0]
  rw [show (dat0 V c).leavesExact 1 t = owns (c : Thread nD τ) (ms0_1 t) fullShare ((dat0 V c).after 1 t) from by
      unfold Dat.leavesExact; rw [live0_1 t], after0_1]
  rw [show (dat0 V c).leavesExact 2 t = owns (c : Thread nD τ) (ms0_2 t) fullShare ((dat0 V c).after 2 t) from by
      unfold Dat.leavesExact; rw [live0_2 t], after0_2]
  rw [show (dat0 V c).leavesExact 3 t = owns (c : Thread nD τ) (ms0_3 t) fullShare ((dat0 V c).after 3 t) from by
      unfold Dat.leavesExact; rw [live0_3 t], after0_3]
  by_cases h0 : t.val % 4 = 0
  · have h3 : ¬t.val % 4 = 3 := by omega
    rw [Dat.leavesExact_idle (dat0 V c) 4 t (idle0_4 t (fun h => h3 ((hcondL0 t).mp h))) (noFlush0_4 t (fun h => h3 ((hcondL0 t).mp h)))]
    rw [outsAt0_A V c t h0]
    unfold sout0_A; (try dsimp only)
    by_cases hz : t.val = 0
    · rw [PhiS_castSucc0 V c t, PhiS_zero0 V c _ _ hz, PhiA0_eq]
      iintro ⟨⟨⟨HS0, HS1, HS2, HS3, HR4, HR5, HR6, HR7, HR8, HR9, HR10, HR11, HR12, HR13, HR14, HR15⟩, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcondF0 t).mpr h0) (fun h => h3 ((hcondL0 t).mp h)) (iblk0 V c 0 t) (iblk0 V c 1 t) (iblk0 V c 2 t) (iblk0 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HS0 HS1 HS2 HS3 HR4 HR5 HR6 HR7 HR8 HR9 HR10 HR11 HR12 HR13 HR14 HR15 Hg]
      · isplitl [HS0 HS1 HS2 HS3 HR4 HR5 HR6 HR7 HR8 HR9 HR10 HR11 HR12 HR13 HR14 HR15]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _)
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          iexact HR15
        iexact Hg
      isplitl [Ho]; · iexact Ho
      isplitl [H0]; · iexact H0
      isplitl [H1]; · iexact H1
      isplitl [H2]; · iexact H2
      isplitl [H3]; · iexact H3
      iexists _; iexact H4
    · rw [PhiS_castSucc0 V c t, PhiS_pos0 V c _ _ hz]
      iintro ⟨⟨⟨HS0, HS1, HS2, HS3, HR4, HR5, HR6, HR7, HR8, HR9, HR10, HR11, HR12, HR13, HR14, HR15⟩, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcondF0 t).mpr h0) (fun h => h3 ((hcondL0 t).mp h)) (iblk0 V c 0 t) (iblk0 V c 1 t) (iblk0 V c 2 t) (iblk0 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [HS0 HS1 HS2 HS3 HR4 HR5 HR6 HR7 HR8 HR9 HR10 HR11 HR12 HR13 HR14 HR15 Hg]
      · isplitl [HS0 HS1 HS2 HS3 HR4 HR5 HR6 HR7 HR8 HR9 HR10 HR11 HR12 HR13 HR14 HR15]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _)
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          iexact HR15
        iexact Hg
      isplitl [Ho]; · iexact Ho
      isplitl [H0]; · iexact H0
      isplitl [H1]; · iexact H1
      isplitl [H2]; · iexact H2
      isplitl [H3]; · iexact H3
      iexists _; iexact H4
  · by_cases h3 : t.val % 4 = 3
    · rw [show (dat0 V c).leavesExact 4 t = owns (c : Thread nD τ) (ms0_4 t) fullShare ((dat0 V c).after 4 t) from by
          unfold Dat.leavesExact; rw [live0_4 t ((hcondL0 t).mpr h3)], after0_4]
      rw [outsAt0_C V c t h0 h3]
      unfold out0_C sout0_C; (try dsimp only)
      by_cases hz : t.val = 0
      · exfalso; omega
      · rw [PhiS_castSucc0 V c t, PhiS_pos0 V c _ _ hz]
        iintro ⟨⟨⟨HS0, HS1, HS2, HS3, HR4, HR5, HR6, HR7, HR8, HR9, HR10, HR11, HR12, HR13, HR14, HR15⟩, Hg⟩, Ho, ⟨%d0, H0⟩, ⟨%d1, H1⟩, ⟨%d2, H2⟩, ⟨%d3, H3⟩, ⟨%d4, H4⟩⟩
        iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcondF0 t).mp h)) ((hcondL0 t).mpr h3) (iblk0 V c 0 t) (iblk0 V c 1 t) (iblk0 V c 2 t) (iblk0 V c 3 t) _ _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        iintro ⟨H0, H1, H2, H3, ⟨%e4, H4⟩, ⟨%es0, HS0⟩, ⟨%es1, HS1⟩, ⟨%es2, HS2⟩, HS3⟩
        isplitl [HS0 HS1 HS2 HS3 HR4 HR5 HR6 HR7 HR8 HR9 HR10 HR11 HR12 HR13 HR14 HR15 Hg]
        · isplitl [HS0 HS1 HS2 HS3 HR4 HR5 HR6 HR7 HR8 HR9 HR10 HR11 HR12 HR13 HR14 HR15]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _)
            isplitl [HS3]; · iexact HS3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            iexact HR15
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _ _ _ _ _ _ _)
    · rw [Dat.leavesExact_idle (dat0 V c) 4 t (idle0_4 t (fun h => h3 ((hcondL0 t).mp h))) (noFlush0_4 t (fun h => h3 ((hcondL0 t).mp h)))]
      rw [outsAt0_B V c t h0 h3]
      unfold sout0_B; (try dsimp only)
      by_cases hz : t.val = 0
      · exfalso; omega
      · rw [PhiS_castSucc0 V c t, PhiS_pos0 V c _ _ hz]
        iintro ⟨⟨⟨HS0, HS1, HS2, HS3, HR4, HR5, HR6, HR7, HR8, HR9, HR10, HR11, HR12, HR13, HR14, HR15⟩, Hg⟩, Ho, ⟨%d0, H0⟩, ⟨%d1, H1⟩, ⟨%d2, H2⟩, ⟨%d3, H3⟩, ⟨%d4, H4⟩⟩
        iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcondF0 t).mp h)) (fun h => h3 ((hcondL0 t).mp h)) (iblk0 V c 0 t) (iblk0 V c 1 t) (iblk0 V c 2 t) (iblk0 V c 3 t) _ _ _ _).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, HS3⟩
        isplitl [HS0 HS1 HS2 HS3 HR4 HR5 HR6 HR7 HR8 HR9 HR10 HR11 HR12 HR13 HR14 HR15 Hg]
        · isplitl [HS0 HS1 HS2 HS3 HR4 HR5 HR6 HR7 HR8 HR9 HR10 HR11 HR12 HR13 HR14 HR15]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _)
            isplitl [HS3]; · iexact HS3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            iexact HR15
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS_zero0 V c 0 _ rfl]
  try exact Idealize.SL.BI.Entails.refl _

/-- After the last point the invariant gives the class's back: the carried buffers' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS_pos0 V c _ _ (by rw [Fin.val_last]; have : cfg0.N = 128 := N_0; omega), PhiA0_eq]
  iintro ⟨⟨HS0, HS1, HS2, HS3, HR4, HR5, HR6, HR7, HR8, HR9, HR10, HR11, HR12, HR13, HR14, HR15⟩, Hg⟩
  isplitl [HS0 HS1 HS2 HS3 HR4 HR5 HR6 HR7 HR8 HR9 HR10 HR11 HR12 HR13 HR14 HR15]
  · isplitl [HS0]; · iexists _; iexact HS0
    isplitl [HS1]; · iexists _; iexact HS1
    isplitl [HS2]; · iexists _; iexact HS2
    isplitl [HS3]; · iexists _; iexact HS3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    iexact HR15
  iexact Hg

end Cert.Kernel.Hand

end
-- ==== Proof.K_Shared1.lean ====
/-
  Launch 1: what the runs of the body share.  The body branches twice on the innermost grid coordinate (the key
  tile): the first key tile resets the four carried buffers, the last one writes the result block.  Over the
  8 × 4 × 4 grid, read as 128 points in row-major order, the first branch is taken at the points ≡ 0 (mod 4) and
  the second at the points ≡ 3 (mod 4); the result window is written back exactly at the latter.
-/
import proofs.«165623_j12077448036716_2_alg».proof.Proof.Gen.Kernel.Launch
import proofs.«165623_j12077448036716_2_alg».proof.Proof.Gen.Kernel.Skeleton
import proofs.«165623_j12077448036716_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch: the key-tile coordinate is 0. -/
abbrev condF1 (i : grid1.Coords) : Prop := (Scalar.cmpi .ne (Scalar.extui (Scalar.cmpi .eq (BitVec.ofNat 32 (i 2).val) 0#32)) 0#32) = 1#1
/-- It holds at the first key tile of each row tile. -/
theorem hcondF1 : ∀ t : Fin cfg1.N, condF1 (grid1.coords t) ↔ t.val % 4 = 0 :=
  (by decide +kernel : ∀ t : Fin grid1.N, condF1 (grid1.coords t) ↔ t.val % 4 = 0)
/-- The body's second branch: the key-tile coordinate is 3. -/
abbrev condL1 (i : grid1.Coords) : Prop := k1_cond2 i = 1#1
/-- It holds at the last key tile of each row tile. -/
theorem hcondL1 : ∀ t : Fin cfg1.N, condL1 (grid1.coords t) ↔ t.val % 4 = 3 :=
  (by decide +kernel : ∀ t : Fin grid1.N, condL1 (grid1.coords t) ↔ t.val % 4 = 3)

/-- The four input windows are never idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
/-- Away from the last key tile the result window is idle and is not written back. -/
theorem idle1_4 : ∀ t : Fin cfg1.N, ¬condL1 (grid1.coords t) → cfg1.idle 4 (grid1.coords t) = true := by decide +kernel
theorem noFlush1_4 : ∀ t : Fin cfg1.N, ¬condL1 (grid1.coords t) → (cfg1.win 4).flush t = false := by decide +kernel
/-- At the last key tile it is live. -/
theorem live1_4 : ∀ t : Fin cfg1.N, condL1 (grid1.coords t) → cfg1.idle 4 (grid1.coords t) = false := by decide +kernel

/-- One staging buffer of the result window, through which its contents are stated. -/
abbrev VO1 : View sig .tc .vmem S1x512x2048 .f32 := (Memref.whole cc1_stg4_0 : Memref sig .tc .vmem S1x512x2048 .f32).view
/-- Each window's current staging memref at point `t`, as the pipeline passes it, and its wholeness. -/
abbrev ms1_0 (t : Fin cfg1.N) : Memref sig .tc .vmem S1x512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x2048 .f32 := win1_4.stage (cfg1.slots t 4)
abbrev hs1_4 (t : Fin cfg1.N) : (ms1_4 t).IsWhole := hstage1_4 ((cfg1.slots t 4).cast nbuf1_4)
/-- The four buffers the kernel carries between key tiles: whole scoped buffers of its own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev scM1_3 : Memref sig .tc .vmem S512x1024 .bf16 := Memref.whole cc1_scratch3

end Cert.Kernel.Hand

end
-- ==== Proof.K_Run1A.lean ====
/-
  Launch 1: the body run once at the first key tile (the carried buffers reset, then updated), on any whole staging memrefs.
  From the four input blocks at their contents and the result block handed back untouched,
  the body runs to its return leaving each buffer it stored into with a list of written pieces; the pieces are found by the run.
-/
import proofs.«165623_j12077448036716_2_alg».proof.Proof.K_Shared1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF1 i) (hcL : ¬condL1 i)
    (x0 : Vec F S1x512x1024 .f32) (x1 : Vec F S1x1024 .f32) (x2 : Vec F S1x512x1024 .f32) (x3 : Vec F S1x1024 .f32) :
    Σ' (LS0 : List (View.Piece (Elt F) S512x1 .f32)) (LS1 : List (View.Piece (Elt F) S512x1 .f32)), Σ' (LS2 : List (View.Piece (Elt F) S512x1024 .f32)), { LS3 : List (View.Piece (Elt F) S512x1024 .bf16) //
      ∀ (xi4 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__bidir_kernel i arg3 harg3 arg4 harg4 arg5 harg5 arg6 harg6 arg7 harg7 arg8 harg8 arg9 harg9 arg10 harg10 arg11 harg11) K } := by
  refine ⟨?_, ?_, ?_, ?_, fun xi4 E K => ?run⟩
  case run =>
    simp only [cc1__bidir_kernel_eq_skeleton]; unfold cc1__bidir_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.Kernel.Hand

end
-- ==== Proof.K_Run1B.lean ====
/-
  Launch 1: the body run once at a middle key tile (the carried buffers updated), on any whole staging memrefs.
  From the four input blocks at their contents, the carried buffers at what the tile before left, and the result block handed back untouched,
  the body runs to its return leaving each buffer it stored into with a list of written pieces; the pieces are found by the run.
-/
import proofs.«165623_j12077448036716_2_alg».proof.Proof.K_Run1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : ¬condL1 i)
    (x0 : Vec F S1x512x1024 .f32) (x1 : Vec F S1x1024 .f32) (x2 : Vec F S1x512x1024 .f32) (x3 : Vec F S1x1024 .f32) (xs0 : Vec F S512x1 .f32) (xs1 : Vec F S512x1 .f32) (xs2 : Vec F S512x1024 .f32) (xs3 : Vec F S512x1024 .bf16) :
    Σ' (LS0 : List (View.Piece (Elt F) S512x1 .f32)) (LS1 : List (View.Piece (Elt F) S512x1 .f32)), { LS2 : List (View.Piece (Elt F) S512x1024 .f32) //
      ∀ (xi4 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__bidir_kernel i arg3 harg3 arg4 harg4 arg5 harg5 arg6 harg6 arg7 harg7 arg8 harg8 arg9 harg9 arg10 harg10 arg11 harg11) K } := by
  refine ⟨?_, ?_, ?_, fun xi4 E K => ?run⟩
  case run =>
    simp only [cc1__bidir_kernel_eq_skeleton]; unfold cc1__bidir_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2; obtain rfl := harg11.eq_unread hfs3
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; isplitr; · ipureintro; exact harg11.read_unread _
    iexact HS3

end Cert.Kernel.Hand

end
-- ==== Proof.K_Run1C.lean ====
/-
  Launch 1: the body run once at the last key tile (the carried buffers updated, the result block written), on any whole staging memrefs.
  From the four input blocks at their contents, the carried buffers at what the tile before left, and the result block at anything,
  the body runs to its return leaving each buffer it stored into with a list of written pieces; the pieces are found by the run.
-/
import proofs.«165623_j12077448036716_2_alg».proof.Proof.K_Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : condL1 i)
    (x0 : Vec F S1x512x1024 .f32) (x1 : Vec F S1x1024 .f32) (x2 : Vec F S1x512x1024 .f32) (x3 : Vec F S1x1024 .f32) (xs0 : Vec F S512x1 .f32) (xs1 : Vec F S512x1 .f32) (xs2 : Vec F S512x1024 .f32) (xs3 : Vec F S512x1024 .bf16) :
    Σ' (L4 : List (View.Piece (Elt F) S1x512x2048 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__bidir_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__bidir_kernel_eq_skeleton]; unfold cc1__bidir_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2; obtain rfl := harg11.eq_unread hfs3
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    isplitl [HS2]; · iexists _; iexact HS2
    iexists _; isplitr; · ipureintro; exact harg11.read_unread _
    iexact HS3

end Cert.Kernel.Hand

end
-- ==== Proof.K_Frame1.lean ====
/-
  Launch 1: the frame of its region.  What the four carried buffers hold after each grid point is defined by
  recursion along the 128 points: at the first key tile of a row tile the first-case run's pieces, otherwise the
  middle- or last-case run's pieces over what the point before left.  The invariant between two points is the
  carried buffers at those contents beside the other scoped buffers at anything; the result window's buffer is
  stated at the last key tile only (elsewhere it is handed back untouched and not written back).
-/
import proofs.«165623_j12077448036716_2_alg».proof.Proof.K_Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The class invariant with the kernel's four carried buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

theorem scover1_A_0 (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF1 i) (hcL : ¬condL1 i) (x0 : Vec F S1x512x1024 .f32) (x1 : Vec F S1x1024 .f32) (x2 : Vec F S1x512x1024 .f32) (x3 : Vec F S1x1024 .f32) (y : S512x1.Idx) : ∃ pc ∈ (kernelRun1_A c i arg3 harg3 arg4 harg4 arg5 harg5 arg6 harg6 arg7 harg7 arg8 harg8 arg9 harg9 arg10 harg10 arg11 harg11 hcF hcL x0 x1 x2 x3).1, y ∈ pc.1.set :=
  View.cover_of_tiledL (kernelRun1_A c i arg3 harg3 arg4 harg4 arg5 harg5 arg6 harg6 arg7 harg7 arg8 harg8 arg9 harg9 arg10 harg10 arg11 harg11 hcF hcL x0 x1 x2 x3).1 S512x1.size (by sl_kernel_rfl) y
theorem scover1_A_1 (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF1 i) (hcL : ¬condL1 i) (x0 : Vec F S1x512x1024 .f32) (x1 : Vec F S1x1024 .f32) (x2 : Vec F S1x512x1024 .f32) (x3 : Vec F S1x1024 .f32) (y : S512x1.Idx) : ∃ pc ∈ (kernelRun1_A c i arg3 harg3 arg4 harg4 arg5 harg5 arg6 harg6 arg7 harg7 arg8 harg8 arg9 harg9 arg10 harg10 arg11 harg11 hcF hcL x0 x1 x2 x3).2.1, y ∈ pc.1.set :=
  View.cover_of_tiledL (kernelRun1_A c i arg3 harg3 arg4 harg4 arg5 harg5 arg6 harg6 arg7 harg7 arg8 harg8 arg9 harg9 arg10 harg10 arg11 harg11 hcF hcL x0 x1 x2 x3).2.1 S512x1.size (by sl_kernel_rfl) y
theorem scover1_A_2 (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF1 i) (hcL : ¬condL1 i) (x0 : Vec F S1x512x1024 .f32) (x1 : Vec F S1x1024 .f32) (x2 : Vec F S1x512x1024 .f32) (x3 : Vec F S1x1024 .f32) (y : S512x1024.Idx) : ∃ pc ∈ (kernelRun1_A c i arg3 harg3 arg4 harg4 arg5 harg5 arg6 harg6 arg7 harg7 arg8 harg8 arg9 harg9 arg10 harg10 arg11 harg11 hcF hcL x0 x1 x2 x3).2.2.1, y ∈ pc.1.set :=
  View.cover_of_tiledL (kernelRun1_A c i arg3 harg3 arg4 harg4 arg5 harg5 arg6 harg6 arg7 harg7 arg8 harg8 arg9 harg9 arg10 harg10 arg11 harg11 hcF hcL x0 x1 x2 x3).2.2.1 S512x1024.size (by sl_kernel_rfl) y
theorem scover1_A_3 (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF1 i) (hcL : ¬condL1 i) (x0 : Vec F S1x512x1024 .f32) (x1 : Vec F S1x1024 .f32) (x2 : Vec F S1x512x1024 .f32) (x3 : Vec F S1x1024 .f32) (y : S512x1024.Idx) : ∃ pc ∈ (kernelRun1_A c i arg3 harg3 arg4 harg4 arg5 harg5 arg6 harg6 arg7 harg7 arg8 harg8 arg9 harg9 arg10 harg10 arg11 harg11 hcF hcL x0 x1 x2 x3).2.2.2.1, y ∈ pc.1.set :=
  View.cover_of_tiledL (kernelRun1_A c i arg3 harg3 arg4 harg4 arg5 harg5 arg6 harg6 arg7 harg7 arg8 harg8 arg9 harg9 arg10 harg10 arg11 harg11 hcF hcL x0 x1 x2 x3).2.2.2.1 S512x1024.size (by sl_kernel_rfl) y
theorem scover1_B_0 (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : ¬condL1 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1.Idx) : ∃ pc ∈ (kernelRun1_B c i arg3 harg3 arg4 harg4 arg5 harg5 arg6 harg6 arg7 harg7 arg8 harg8 arg9 harg9 arg10 harg10 arg11 harg11 hcF hcL x0 x1 x2 x3 xs.1 xs.2.1 xs.2.2.1 xs.2.2.2).1, y ∈ pc.1.set :=
  View.cover_of_tiledL (kernelRun1_B c i arg3 harg3 arg4 harg4 arg5 harg5 arg6 harg6 arg7 harg7 arg8 harg8 arg9 harg9 arg10 harg10 arg11 harg11 hcF hcL x0 x1 x2 x3 xs.1 xs.2.1 xs.2.2.1 xs.2.2.2).1 S512x1.size (by sl_kernel_rfl) y
theorem scover1_B_1 (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : ¬condL1 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1.Idx) : ∃ pc ∈ (kernelRun1_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1, y ∈ pc.1.set :=
  View.cover_of_tiledL (kernelRun1_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1 S512x1.size (by sl_kernel_rfl) y
theorem scover1_B_2 (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : ¬condL1 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1024.Idx) : ∃ pc ∈ (kernelRun1_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1, y ∈ pc.1.set :=
  View.cover_of_tiledL (kernelRun1_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1 S512x1024.size (by sl_kernel_rfl) y
theorem scover1_C_0 (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : condL1 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1.Idx) : ∃ pc ∈ (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1, y ∈ pc.1.set :=
  View.cover_of_tiledL (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1 S512x1.size (by sl_kernel_rfl) y
theorem scover1_C_1 (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : condL1 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1.Idx) : ∃ pc ∈ (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1, y ∈ pc.1.set :=
  View.cover_of_tiledL (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1 S512x1.size (by sl_kernel_rfl) y
theorem scover1_C_2 (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : condL1 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1024.Idx) : ∃ pc ∈ (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.2.1, y ∈ pc.1.set :=
  View.cover_of_tiledL (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.2.1 S512x1024.size (by sl_kernel_rfl) y
/-- The two halves written at the last key tile tile the result block. -/
theorem cover1_C_4 (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : condL1 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S1x512x2048.Idx) : ∃ pc ∈ (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).1, y ∈ pc.1.set :=
  View.cover_of_tiledL (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).1 S1x512x1024.size (by sl_kernel_rfl) y

/-- What the first case leaves in the four carried buffers: its pieces read back. -/
def sout1_A (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF1 i) (hcL : ¬condL1 i) (x0 : Vec F S1x512x1024 .f32) (x1 : Vec F S1x1024 .f32) (x2 : Vec F S1x512x1024 .f32) (x3 : Vec F S1x1024 .f32) : Vec F S512x1 .f32 × Vec F S512x1 .f32 × Vec F S512x1024 .f32 × Vec F S512x1024 .bf16 :=
  (scM1_0.view.read (Elt F) (scM1_0.view.writes (Elt F) scM1_0.view.junk (kernelRun1_A c i arg3 harg3 arg4 harg4 arg5 harg5 arg6 harg6 arg7 harg7 arg8 harg8 arg9 harg9 arg10 harg10 arg11 harg11 hcF hcL x0 x1 x2 x3).1), scM1_1.view.read (Elt F) (scM1_1.view.writes (Elt F) scM1_1.view.junk (kernelRun1_A c i arg3 harg3 arg4 harg4 arg5 harg5 arg6 harg6 arg7 harg7 arg8 harg8 arg9 harg9 arg10 harg10 arg11 harg11 hcF hcL x0 x1 x2 x3).2.1), scM1_2.view.read (Elt F) (scM1_2.view.writes (Elt F) scM1_2.view.junk (kernelRun1_A c i arg3 harg3 arg4 harg4 arg5 harg5 arg6 harg6 arg7 harg7 arg8 harg8 arg9 harg9 arg10 harg10 arg11 harg11 hcF hcL x0 x1 x2 x3).2.2.1), scM1_3.view.read (Elt F) (scM1_3.view.writes (Elt F) scM1_3.view.junk (kernelRun1_A c i arg3 harg3 arg4 harg4 arg5 harg5 arg6 harg6 arg7 harg7 arg8 harg8 arg9 harg9 arg10 harg10 arg11 harg11 hcF hcL x0 x1 x2 x3).2.2.2.1))
/-- What a middle case leaves in them, over what the point before left (the cached query tile is only read). -/
def sout1_B (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : ¬condL1 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) : Vec F S512x1 .f32 × Vec F S512x1 .f32 × Vec F S512x1024 .f32 × Vec F S512x1024 .bf16 :=
  (scM1_0.view.read (Elt F) (scM1_0.view.writes (Elt F) scM1_0.view.junk (kernelRun1_B c i arg3 harg3 arg4 harg4 arg5 harg5 arg6 harg6 arg7 harg7 arg8 harg8 arg9 harg9 arg10 harg10 arg11 harg11 hcF hcL x0 x1 x2 x3 xs.1 xs.2.1 xs.2.2.1 xs.2.2.2).1), scM1_1.view.read (Elt F) (scM1_1.view.writes (Elt F) scM1_1.view.junk (kernelRun1_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1), scM1_2.view.read (Elt F) (scM1_2.view.writes (Elt F) scM1_2.view.junk (kernelRun1_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1), xs.2.2.2)
/-- What the last case leaves in them, -/
def sout1_C (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : condL1 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) : Vec F S512x1 .f32 × Vec F S512x1 .f32 × Vec F S512x1024 .f32 × Vec F S512x1024 .bf16 :=
  (scM1_0.view.read (Elt F) (scM1_0.view.writes (Elt F) scM1_0.view.junk (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1), scM1_1.view.read (Elt F) (scM1_1.view.writes (Elt F) scM1_1.view.junk (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1), scM1_2.view.read (Elt F) (scM1_2.view.writes (Elt F) scM1_2.view.junk (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.2.1), xs.2.2.2)
/-- and in the result block. -/
def out1_C (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : condL1 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) : Vec F S1x512x2048 .f32 :=
  VO1.read (Elt F) (VO1.writes (Elt F) VO1.junk (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).1)

/-! ## Point by point -/

/-- After the body at position `n`: the result window's buffer (stated at the last key tile; a placeholder nothing
    consults elsewhere) and the four carried buffers. -/
def outsAt1 (c : Dev nD) : (n : ℕ) → n < cfg1.N → Vec F S1x512x2048 .f32 × (Vec F S512x1 .f32 × Vec F S512x1 .f32 × Vec F S512x1024 .f32 × Vec F S512x1024 .bf16)
  | 0, hn => (VO1.read (Elt F) VO1.junk, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) scM1_3 (Memref.isWhole_whole _) ((hcondF1 ⟨0, hn⟩).mpr (Nat.zero_mod _)) (fun h => (fun h => by (try dsimp only at h); omega) ((hcondL1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      (VO1.read (Elt F) VO1.junk, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) ((hcondF1 ⟨n + 1, hn⟩).mpr h0) (fun h => (fun h => by (try dsimp only at h); omega) ((hcondL1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h3 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (fun h => h0 ((hcondF1 ⟨n + 1, hn⟩).mp h)) ((hcondL1 ⟨n + 1, hn⟩).mpr h3) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
          sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (fun h => h0 ((hcondF1 ⟨n + 1, hn⟩).mp h)) ((hcondL1 ⟨n + 1, hn⟩).mpr h3) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (VO1.read (Elt F) VO1.junk, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (fun h => h0 ((hcondF1 ⟨n + 1, hn⟩).mp h)) (fun h => h3 ((hcondL1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 4 = 0) :
    outsAt1 V c t.val t.isLt = (VO1.read (Elt F) VO1.junk, sout1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcondF1 t).mpr h0) (fun h => (fun h => by (try dsimp only at h); omega) ((hcondL1 t).mp h)) (iblk1 V c 0 t) (iblk1 V c 1 t) (iblk1 V c 2 t) (iblk1 V c 3 t)) := by
  obtain ⟨n, hn⟩ := t
  cases n with
  | zero => exact rfl
  | succ n => exact (dif_pos h0).trans rfl

theorem outsAt1_B (c : Dev nD) (t : Fin cfg1.N) (h0 : ¬t.val % 4 = 0) (h3 : ¬t.val % 4 = 3) :
    outsAt1 V c t.val t.isLt = (VO1.read (Elt F) VO1.junk, sout1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcondF1 t).mp h)) (fun h => h3 ((hcondL1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

theorem outsAt1_C (c : Dev nD) (t : Fin cfg1.N) (h0 : ¬t.val % 4 = 0) (h3 : t.val % 4 = 3) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcondF1 t).mp h)) ((hcondL1 t).mpr h3) (iblk1 V c 0 t) (iblk1 V c 1 t) (iblk1 V c 2 t) (iblk1 V c 3 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcondF1 t).mp h)) ((hcondL1 t).mpr h3) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-- The invariant before position `n`: before the first point the class's (every scoped buffer at anything);
    afterwards the carried buffers at what the point before left, the other scoped buffers at anything, and the
    generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r))

theorem PhiS_zero1 (c : Dev nD) (n : ℕ) (h : n ≤ cfg1.N) (hz : n = 0) : PhiS1 V c n h = Pipeline.ΦA spec1 c := by
  subst hz; rfl

theorem PhiS_succ1 (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r)) := rfl

theorem PhiS_pos1 (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2.1) ∗ owns (c : Thread nD τ) scM1_3 fullShare ((outsAt1 V c (n - 1) (by omega)).2.2.2.2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc1 (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; the point's position among the key tiles says which
    case runs; the invariant hands over the carried buffers and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS_succ1]
  have hN : t.val < 128 := lt_of_lt_of_eq t.isLt (show cfg1.N = 128 from N_1)
  rw [show (dat1 V c).leavesExact 0 t = owns (c : Thread nD τ) (ms1_0 t) fullShare ((dat1 V c).after 0 t) from by
      unfold Dat.leavesExact; rw [live1_0 t], after1_0]
  rw [show (dat1 V c).leavesExact 1 t = owns (c : Thread nD τ) (ms1_1 t) fullShare ((dat1 V c).after 1 t) from by
      unfold Dat.leavesExact; rw [live1_1 t], after1_1]
  rw [show (dat1 V c).leavesExact 2 t = owns (c : Thread nD τ) (ms1_2 t) fullShare ((dat1 V c).after 2 t) from by
      unfold Dat.leavesExact; rw [live1_2 t], after1_2]
  rw [show (dat1 V c).leavesExact 3 t = owns (c : Thread nD τ) (ms1_3 t) fullShare ((dat1 V c).after 3 t) from by
      unfold Dat.leavesExact; rw [live1_3 t], after1_3]
  by_cases h0 : t.val % 4 = 0
  · have h3 : ¬t.val % 4 = 3 := by omega
    rw [Dat.leavesExact_idle (dat1 V c) 4 t (idle1_4 t (fun h => h3 ((hcondL1 t).mp h))) (noFlush1_4 t (fun h => h3 ((hcondL1 t).mp h)))]
    rw [outsAt1_A V c t h0]
    unfold sout1_A; (try dsimp only)
    by_cases hz : t.val = 0
    · rw [PhiS_castSucc1 V c t, PhiS_zero1 V c _ _ hz, PhiA1_eq]
      iintro ⟨⟨⟨HR0, HR1, HR2, HR3, HR4, HR5, HR6, HR7, HR8, HR9, HR10, HR11, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcondF1 t).mpr h0) (fun h => h3 ((hcondL1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HR0 HR1 HR2 HR3 HR4 HR5 HR6 HR7 HR8 HR9 HR10 HR11 HS0 HS1 HS2 HS3 Hg]
      · isplitl [HR0 HR1 HR2 HR3 HR4 HR5 HR6 HR7 HR8 HR9 HR10 HR11 HS0 HS1 HS2 HS3]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc1 V c t, PhiS_pos1 V c _ _ hz]
      iintro ⟨⟨⟨HR0, HR1, HR2, HR3, HR4, HR5, HR6, HR7, HR8, HR9, HR10, HR11, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcondF1 t).mpr h0) (fun h => h3 ((hcondL1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [HR0 HR1 HR2 HR3 HR4 HR5 HR6 HR7 HR8 HR9 HR10 HR11 HS0 HS1 HS2 HS3 Hg]
      · isplitl [HR0 HR1 HR2 HR3 HR4 HR5 HR6 HR7 HR8 HR9 HR10 HR11 HS0 HS1 HS2 HS3]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · by_cases h3 : t.val % 4 = 3
    · rw [show (dat1 V c).leavesExact 4 t = owns (c : Thread nD τ) (ms1_4 t) fullShare ((dat1 V c).after 4 t) from by
          unfold Dat.leavesExact; rw [live1_4 t ((hcondL1 t).mpr h3)], after1_4]
      rw [outsAt1_C V c t h0 h3]
      unfold out1_C sout1_C; (try dsimp only)
      by_cases hz : t.val = 0
      · exfalso; omega
      · rw [PhiS_castSucc1 V c t, PhiS_pos1 V c _ _ hz]
        iintro ⟨⟨⟨HR0, HR1, HR2, HR3, HR4, HR5, HR6, HR7, HR8, HR9, HR10, HR11, HS0, HS1, HS2, HS3⟩, Hg⟩, Ho, ⟨%d0, H0⟩, ⟨%d1, H1⟩, ⟨%d2, H2⟩, ⟨%d3, H3⟩, ⟨%d4, H4⟩⟩
        iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcondF1 t).mp h)) ((hcondL1 t).mpr h3) (iblk1 V c 0 t) (iblk1 V c 1 t) (iblk1 V c 2 t) (iblk1 V c 3 t) _ _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        iintro ⟨H0, H1, H2, H3, ⟨%e4, H4⟩, ⟨%es0, HS0⟩, ⟨%es1, HS1⟩, ⟨%es2, HS2⟩, HS3⟩
        isplitl [HR0 HR1 HR2 HR3 HR4 HR5 HR6 HR7 HR8 HR9 HR10 HR11 HS0 HS1 HS2 HS3 Hg]
        · isplitl [HR0 HR1 HR2 HR3 HR4 HR5 HR6 HR7 HR8 HR9 HR10 HR11 HS0 HS1 HS2 HS3]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_C_2 c _ _ _ _ _ _ _ _ _ _ _ _ _ _ _ _ _ _ _ _ _ _ _ _ _ _)
            iexact HS3
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _ _ _ _ _ _)
    · rw [Dat.leavesExact_idle (dat1 V c) 4 t (idle1_4 t (fun h => h3 ((hcondL1 t).mp h))) (noFlush1_4 t (fun h => h3 ((hcondL1 t).mp h)))]
      rw [outsAt1_B V c t h0 h3]
      unfold sout1_B; (try dsimp only)
      by_cases hz : t.val = 0
      · exfalso; omega
      · rw [PhiS_castSucc1 V c t, PhiS_pos1 V c _ _ hz]
        iintro ⟨⟨⟨HR0, HR1, HR2, HR3, HR4, HR5, HR6, HR7, HR8, HR9, HR10, HR11, HS0, HS1, HS2, HS3⟩, Hg⟩, Ho, ⟨%d0, H0⟩, ⟨%d1, H1⟩, ⟨%d2, H2⟩, ⟨%d3, H3⟩, ⟨%d4, H4⟩⟩
        iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcondF1 t).mp h)) (fun h => h3 ((hcondL1 t).mp h)) (iblk1 V c 0 t) (iblk1 V c 1 t) (iblk1 V c 2 t) (iblk1 V c 3 t) _ _ _ _).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, HS3⟩
        isplitl [HR0 HR1 HR2 HR3 HR4 HR5 HR6 HR7 HR8 HR9 HR10 HR11 HS0 HS1 HS2 HS3 Hg]
        · isplitl [HR0 HR1 HR2 HR3 HR4 HR5 HR6 HR7 HR8 HR9 HR10 HR11 HS0 HS1 HS2 HS3]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_B_2 c _ _ _ _ _ _ _ _ _ _ _ _ _ _ _ _ _ _ _ _ _ _ _ _ _ _)
            iexact HS3
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS_zero1 V c 0 _ rfl]
  try exact Idealize.SL.BI.Entails.refl _

/-- After the last point the invariant gives the class's back: the carried buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS_pos1 V c _ _ (by rw [Fin.val_last]; have : cfg1.N = 128 := N_1; omega), PhiA1_eq]
  iintro ⟨⟨HR0, HR1, HR2, HR3, HR4, HR5, HR6, HR7, HR8, HR9, HR10, HR11, HS0, HS1, HS2, HS3⟩, Hg⟩
  isplitl [HR0 HR1 HR2 HR3 HR4 HR5 HR6 HR7 HR8 HR9 HR10 HR11 HS0 HS1 HS2 HS3]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HS0]; · iexists _; iexact HS0
    isplitl [HS1]; · iexists _; iexact HS1
    isplitl [HS2]; · iexists _; iexact HS2
    iexists _; iexact HS3
  iexact Hg

end Cert.Kernel.Hand

end
-- ==== Proof.K_Run.lean ====
/-
  The whole program as a chain of three segments — the two reshapes of the weight rows, then the two launches —
  and its run: from any memory with zero counters every weakly fair execution terminates, nothing faulting, and every
  unscoped buffer ends at the contents named here: the arguments as launched, the first result at what the first
  launch's write-backs leave, the second result at what the second launch's leave.
-/
import proofs.«165623_j12077448036716_2_alg».proof.Proof.K_Frame0
import proofs.«165623_j12077448036716_2_alg».proof.Proof.K_Frame1
import proofs.«165623_j12077448036716_2_alg».proof.Proof.Gen.Kernel.Regions
import Idealize.ShloMosaic.Lib.Pipeline.Regions
import Idealize.ShloMosaic.Lib.Pipeline.FrameSuffix
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch, -/
abbrev W0 : Dev nD → Valuation τ sig (Elt F) := fun c b => (s₀ m ρ).mem ((c : Dev nD), b)
/-- after the two reshapes (the first launch's entry), -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- at the first launch's exit: its arrays at what the pipeline leaves, every other buffer as entered, -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- and at the second launch's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The reshapes write only the two reshaped rows. -/
theorem W1_of (c : Dev nD) (r : Ref sig .tc) (h : r ∉ hostOps0_W) : W1 m ρ c (Proc.devRef .tc r) = m ((c : Thread nD τ).loc r) :=
  (StableHlo.after_of_writes_sub hostOps0 _ hostOps0_writes h).trans rfl

/-! ### The arguments end as launched, the results at the launches' write-backs -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 2).trans (((dat1 (V2 m ρ) c).arrAt_in 2 rfl _).trans (A_eq1 (V2 m ρ) c 2))
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_of m ρ c main_arg0 (by decide)
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := (W2_arr m ρ c 2).trans (((dat0 (V1 m ρ) c).arrAt_in 2 rfl _).trans (A_eq0 (V1 m ρ) c 2))
    _ = m ((c : Thread nD τ).loc main_arg1) := W1_of m ρ c main_arg1 (by decide)
theorem W3_main_arg2 (c : Dev nD) : W3 m ρ c (Proc.devRef .tc main_arg2) = m ((c : Thread nD τ).loc main_arg2) :=
  (W3_of_ne m ρ c main_arg2 (by decide)).trans ((W2_of_ne m ρ c main_arg2 (by decide)).trans (W1_of m ρ c main_arg2 (by decide)))
theorem W3_main_arg3 (c : Dev nD) : W3 m ρ c (Proc.devRef .tc main_arg3) = m ((c : Thread nD τ).loc main_arg3) :=
  (W3_of_ne m ρ c main_arg3 (by decide)).trans ((W2_of_ne m ρ c main_arg3 (by decide)).trans (W1_of m ρ c main_arg3 (by decide)))
theorem W3_main_v2 (c : Dev nD) : W3 m ρ c (Proc.devRef .tc main_v2) = (dat0 (V1 m ρ) c).arrAt 4 cfg0.N :=
  (W3_of_ne m ρ c main_v2 (by decide)).trans (W2_arr m ρ c 4)
theorem W3_main_v3 (c : Dev nD) : W3 m ρ c (Proc.devRef .tc main_v3) = (dat1 (V2 m ρ) c).arrAt 4 cfg1.N :=
  W3_arr m ρ c 4

/-! ## The proof data family and the thread state -/

abbrev adm : (p : Fin 2) → (pcfgs (F := F) p).Adm := fun p => (cfgs p).toPCfg_adm
/-- Both pipelines' proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- The reshapes as a segment over the unscoped buffers. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The launches as segments -/

set_option backward.isDefEq.respectTransparency.types false in
/-- Launch 0 as a segment: entered from every unscoped buffer at the contents before it, left at those after it. Its
    arrays are split out of the unscoped buffers and put back at the exit contents; the generator register goes into the
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered from every unscoped buffer at the contents before it, left at those after it. Its
    arrays are split out of the unscoped buffers and put back at the exit contents; the generator register goes into the
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg0 m ρ), .region (reg0 m ρ), .region (reg1 m ρ) ]
theorem main_run (c : Dev nD) : main (F := F) c = Pipeline.Seg.run (segs m ρ) := (main_chain c).trans (by chain_rfl)

set_option backward.isDefEq.respectTransparency.types false in
/-- THE RUN: every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Hand

end
-- ==== Proof.KI_Shared0.lean ====
/-
  Launch 0: what the runs of the body share.  The body branches twice on the innermost grid coordinate (the key
  tile): the first key tile resets the four carried buffers, the last one writes the result block.  Over the
  8 × 4 × 4 grid, read as 128 points in row-major order, the first branch is taken at the points ≡ 0 (mod 4) and
  the second at the points ≡ 3 (mod 4); the result window is written back exactly at the latter.
-/
import proofs.«165623_j12077448036716_2_alg».proof.Proof.Gen.KernelIdeal.Launch
import proofs.«165623_j12077448036716_2_alg».proof.Proof.Gen.KernelIdeal.Skeleton
import proofs.«165623_j12077448036716_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch: the key-tile coordinate is 0. -/
abbrev condF0 (i : grid0.Coords) : Prop := (Scalar.cmpi .ne (Scalar.extui (Scalar.cmpi .eq (BitVec.ofNat 32 (i 2).val) 0#32)) 0#32) = 1#1
/-- It holds at the first key tile of each row tile. -/
theorem hcondF0 : ∀ t : Fin cfg0.N, condF0 (grid0.coords t) ↔ t.val % 4 = 0 :=
  (by decide +kernel : ∀ t : Fin grid0.N, condF0 (grid0.coords t) ↔ t.val % 4 = 0)
/-- The body's second branch: the key-tile coordinate is 3. -/
abbrev condL0 (i : grid0.Coords) : Prop := k0_cond2 i = 1#1
/-- It holds at the last key tile of each row tile. -/
theorem hcondL0 : ∀ t : Fin cfg0.N, condL0 (grid0.coords t) ↔ t.val % 4 = 3 :=
  (by decide +kernel : ∀ t : Fin grid0.N, condL0 (grid0.coords t) ↔ t.val % 4 = 3)

/-- The four input windows are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
/-- Away from the last key tile the result window is idle and is not written back. -/
theorem idle0_4 : ∀ t : Fin cfg0.N, ¬condL0 (grid0.coords t) → cfg0.idle 4 (grid0.coords t) = true := by decide +kernel
theorem noFlush0_4 : ∀ t : Fin cfg0.N, ¬condL0 (grid0.coords t) → (cfg0.win 4).flush t = false := by decide +kernel
/-- At the last key tile it is live. -/
theorem live0_4 : ∀ t : Fin cfg0.N, condL0 (grid0.coords t) → cfg0.idle 4 (grid0.coords t) = false := by decide +kernel

/-- One staging buffer of the result window, through which its contents are stated. -/
abbrev VO0 : View sig .tc .vmem S1x512x2048 .f32 := (Memref.whole cc0_stg4_0 : Memref sig .tc .vmem S1x512x2048 .f32).view
/-- Each window's current staging memref at point `t`, as the pipeline passes it, and its wholeness. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x2048 .f32 := win0_4.stage (cfg0.slots t 4)
abbrev hs0_4 (t : Fin cfg0.N) : (ms0_4 t).IsWhole := hstage0_4 ((cfg0.slots t 4).cast nbuf0_4)
/-- The four buffers the kernel carries between key tiles: whole scoped buffers of its own. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1024 .f32 := Memref.whole cc0_scratch2
abbrev scM0_3 : Memref sig .tc .vmem S512x1024 .bf16 := Memref.whole cc0_scratch3

end Cert.KernelIdeal.Hand

end
-- ==== Proof.KI_Run0A.lean ====
/-
  Launch 0: the body run once at the first key tile (the carried buffers reset, then updated), on any whole staging memrefs.
  From the four input blocks at their contents and the result block handed back untouched,
  the body runs to its return leaving each buffer it stored into with a list of written pieces; the pieces are found by the run.
-/
import proofs.«165623_j12077448036716_2_alg».proof.Proof.KI_Shared0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF0 i) (hcL : ¬condL0 i)
    (x0 : Vec F S1x512x1024 .f32) (x1 : Vec F S1x1024 .f32) (x2 : Vec F S1x512x1024 .f32) (x3 : Vec F S1x1024 .f32) :
    Σ' (LS0 : List (View.Piece (Elt F) S512x1 .f32)) (LS1 : List (View.Piece (Elt F) S512x1 .f32)), Σ' (LS2 : List (View.Piece (Elt F) S512x1024 .f32)), { LS3 : List (View.Piece (Elt F) S512x1024 .bf16) //
      ∀ (xi4 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__bidir_kernel i arg3 harg3 arg4 harg4 arg5 harg5 arg6 harg6 arg7 harg7 arg8 harg8 arg9 harg9 arg10 harg10 arg11 harg11) K } := by
  refine ⟨?_, ?_, ?_, ?_, fun xi4 E K => ?run⟩
  case run =>
    simp only [cc0__bidir_kernel_eq_skeleton]; unfold cc0__bidir_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.KI_Run0B.lean ====
/-
  Launch 0: the body run once at a middle key tile (the carried buffers updated), on any whole staging memrefs.
  From the four input blocks at their contents, the carried buffers at what the tile before left, and the result block handed back untouched,
  the body runs to its return leaving each buffer it stored into with a list of written pieces; the pieces are found by the run.
-/
import proofs.«165623_j12077448036716_2_alg».proof.Proof.KI_Run0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : ¬condL0 i)
    (x0 : Vec F S1x512x1024 .f32) (x1 : Vec F S1x1024 .f32) (x2 : Vec F S1x512x1024 .f32) (x3 : Vec F S1x1024 .f32) (xs0 : Vec F S512x1 .f32) (xs1 : Vec F S512x1 .f32) (xs2 : Vec F S512x1024 .f32) (xs3 : Vec F S512x1024 .bf16) :
    Σ' (LS0 : List (View.Piece (Elt F) S512x1 .f32)) (LS1 : List (View.Piece (Elt F) S512x1 .f32)), { LS2 : List (View.Piece (Elt F) S512x1024 .f32) //
      ∀ (xi4 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc0__bidir_kernel i arg3 harg3 arg4 harg4 arg5 harg5 arg6 harg6 arg7 harg7 arg8 harg8 arg9 harg9 arg10 harg10 arg11 harg11) K } := by
  refine ⟨?_, ?_, ?_, fun xi4 E K => ?run⟩
  case run =>
    simp only [cc0__bidir_kernel_eq_skeleton]; unfold cc0__bidir_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2; obtain rfl := harg11.eq_unread hfs3
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; isplitr; · ipureintro; exact harg11.read_unread _
    iexact HS3

end Cert.KernelIdeal.Hand

end
-- ==== Proof.KI_Run0C.lean ====
/-
  Launch 0: the body run once at the last key tile (the carried buffers updated, the result block written), on any whole staging memrefs.
  From the four input blocks at their contents, the carried buffers at what the tile before left, and the result block at anything,
  the body runs to its return leaving each buffer it stored into with a list of written pieces; the pieces are found by the run.
-/
import proofs.«165623_j12077448036716_2_alg».proof.Proof.KI_Run0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : condL0 i)
    (x0 : Vec F S1x512x1024 .f32) (x1 : Vec F S1x1024 .f32) (x2 : Vec F S1x512x1024 .f32) (x3 : Vec F S1x1024 .f32) (xs0 : Vec F S512x1 .f32) (xs1 : Vec F S512x1 .f32) (xs2 : Vec F S512x1024 .f32) (xs3 : Vec F S512x1024 .bf16) :
    Σ' (L4 : List (View.Piece (Elt F) S1x512x2048 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc0__bidir_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__bidir_kernel_eq_skeleton]; unfold cc0__bidir_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2; obtain rfl := harg11.eq_unread hfs3
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    isplitl [HS2]; · iexists _; iexact HS2
    iexists _; isplitr; · ipureintro; exact harg11.read_unread _
    iexact HS3

end Cert.KernelIdeal.Hand

end
-- ==== Proof.KI_Frame0.lean ====
/-
  Launch 0: the frame of its region.  What the four carried buffers hold after each grid point is defined by
  recursion along the 128 points: at the first key tile of a row tile the first-case run's pieces, otherwise the
  middle- or last-case run's pieces over what the point before left.  The invariant between two points is the
  carried buffers at those contents beside the other scoped buffers at anything; the result window's buffer is
  stated at the last key tile only (elsewhere it is handed back untouched and not written back).
-/
import proofs.«165623_j12077448036716_2_alg».proof.Proof.KI_Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- The class invariant with the kernel's four carried buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f)) ∗ (∃ r, prngReg c r)) := by
  unfold Pipeline.ΦA; rw [scopedRest0_eq]; simp only [scM0_0, scM0_1, scM0_2, scM0_3, owns_whole]; try rfl

theorem scover0_A_0 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF0 i) (hcL : ¬condL0 i) (x0 : Vec F S1x512x1024 .f32) (x1 : Vec F S1x1024 .f32) (x2 : Vec F S1x512x1024 .f32) (x3 : Vec F S1x1024 .f32) (y : S512x1.Idx) : ∃ pc ∈ (kernelRun0_A c i arg3 harg3 arg4 harg4 arg5 harg5 arg6 harg6 arg7 harg7 arg8 harg8 arg9 harg9 arg10 harg10 arg11 harg11 hcF hcL x0 x1 x2 x3).1, y ∈ pc.1.set :=
  View.cover_of_tiledL (kernelRun0_A c i arg3 harg3 arg4 harg4 arg5 harg5 arg6 harg6 arg7 harg7 arg8 harg8 arg9 harg9 arg10 harg10 arg11 harg11 hcF hcL x0 x1 x2 x3).1 S512x1.size (by sl_kernel_rfl) y
theorem scover0_A_1 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF0 i) (hcL : ¬condL0 i) (x0 : Vec F S1x512x1024 .f32) (x1 : Vec F S1x1024 .f32) (x2 : Vec F S1x512x1024 .f32) (x3 : Vec F S1x1024 .f32) (y : S512x1.Idx) : ∃ pc ∈ (kernelRun0_A c i arg3 harg3 arg4 harg4 arg5 harg5 arg6 harg6 arg7 harg7 arg8 harg8 arg9 harg9 arg10 harg10 arg11 harg11 hcF hcL x0 x1 x2 x3).2.1, y ∈ pc.1.set :=
  View.cover_of_tiledL (kernelRun0_A c i arg3 harg3 arg4 harg4 arg5 harg5 arg6 harg6 arg7 harg7 arg8 harg8 arg9 harg9 arg10 harg10 arg11 harg11 hcF hcL x0 x1 x2 x3).2.1 S512x1.size (by sl_kernel_rfl) y
theorem scover0_A_2 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF0 i) (hcL : ¬condL0 i) (x0 : Vec F S1x512x1024 .f32) (x1 : Vec F S1x1024 .f32) (x2 : Vec F S1x512x1024 .f32) (x3 : Vec F S1x1024 .f32) (y : S512x1024.Idx) : ∃ pc ∈ (kernelRun0_A c i arg3 harg3 arg4 harg4 arg5 harg5 arg6 harg6 arg7 harg7 arg8 harg8 arg9 harg9 arg10 harg10 arg11 harg11 hcF hcL x0 x1 x2 x3).2.2.1, y ∈ pc.1.set :=
  View.cover_of_tiledL (kernelRun0_A c i arg3 harg3 arg4 harg4 arg5 harg5 arg6 harg6 arg7 harg7 arg8 harg8 arg9 harg9 arg10 harg10 arg11 harg11 hcF hcL x0 x1 x2 x3).2.2.1 S512x1024.size (by sl_kernel_rfl) y
theorem scover0_A_3 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF0 i) (hcL : ¬condL0 i) (x0 : Vec F S1x512x1024 .f32) (x1 : Vec F S1x1024 .f32) (x2 : Vec F S1x512x1024 .f32) (x3 : Vec F S1x1024 .f32) (y : S512x1024.Idx) : ∃ pc ∈ (kernelRun0_A c i arg3 harg3 arg4 harg4 arg5 harg5 arg6 harg6 arg7 harg7 arg8 harg8 arg9 harg9 arg10 harg10 arg11 harg11 hcF hcL x0 x1 x2 x3).2.2.2.1, y ∈ pc.1.set :=
  View.cover_of_tiledL (kernelRun0_A c i arg3 harg3 arg4 harg4 arg5 harg5 arg6 harg6 arg7 harg7 arg8 harg8 arg9 harg9 arg10 harg10 arg11 harg11 hcF hcL x0 x1 x2 x3).2.2.2.1 S512x1024.size (by sl_kernel_rfl) y
theorem scover0_B_0 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : ¬condL0 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1.Idx) : ∃ pc ∈ (kernelRun0_B c i arg3 harg3 arg4 harg4 arg5 harg5 arg6 harg6 arg7 harg7 arg8 harg8 arg9 harg9 arg10 harg10 arg11 harg11 hcF hcL x0 x1 x2 x3 xs.1 xs.2.1 xs.2.2.1 xs.2.2.2).1, y ∈ pc.1.set :=
  View.cover_of_tiledL (kernelRun0_B c i arg3 harg3 arg4 harg4 arg5 harg5 arg6 harg6 arg7 harg7 arg8 harg8 arg9 harg9 arg10 harg10 arg11 harg11 hcF hcL x0 x1 x2 x3 xs.1 xs.2.1 xs.2.2.1 xs.2.2.2).1 S512x1.size (by sl_kernel_rfl) y
theorem scover0_B_1 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : ¬condL0 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1.Idx) : ∃ pc ∈ (kernelRun0_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1, y ∈ pc.1.set :=
  View.cover_of_tiledL (kernelRun0_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1 S512x1.size (by sl_kernel_rfl) y
theorem scover0_B_2 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : ¬condL0 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1024.Idx) : ∃ pc ∈ (kernelRun0_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1, y ∈ pc.1.set :=
  View.cover_of_tiledL (kernelRun0_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1 S512x1024.size (by sl_kernel_rfl) y
theorem scover0_C_0 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : condL0 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1.Idx) : ∃ pc ∈ (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1, y ∈ pc.1.set :=
  View.cover_of_tiledL (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1 S512x1.size (by sl_kernel_rfl) y
theorem scover0_C_1 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : condL0 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1.Idx) : ∃ pc ∈ (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1, y ∈ pc.1.set :=
  View.cover_of_tiledL (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1 S512x1.size (by sl_kernel_rfl) y
theorem scover0_C_2 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : condL0 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1024.Idx) : ∃ pc ∈ (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.2.1, y ∈ pc.1.set :=
  View.cover_of_tiledL (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.2.1 S512x1024.size (by sl_kernel_rfl) y
/-- The two halves written at the last key tile tile the result block. -/
theorem cover0_C_4 (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : condL0 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S1x512x2048.Idx) : ∃ pc ∈ (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).1, y ∈ pc.1.set :=
  View.cover_of_tiledL (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).1 S1x512x1024.size (by sl_kernel_rfl) y

/-- What the first case leaves in the four carried buffers: its pieces read back. -/
def sout0_A (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF0 i) (hcL : ¬condL0 i) (x0 : Vec F S1x512x1024 .f32) (x1 : Vec F S1x1024 .f32) (x2 : Vec F S1x512x1024 .f32) (x3 : Vec F S1x1024 .f32) : Vec F S512x1 .f32 × Vec F S512x1 .f32 × Vec F S512x1024 .f32 × Vec F S512x1024 .bf16 :=
  (scM0_0.view.read (Elt F) (scM0_0.view.writes (Elt F) scM0_0.view.junk (kernelRun0_A c i arg3 harg3 arg4 harg4 arg5 harg5 arg6 harg6 arg7 harg7 arg8 harg8 arg9 harg9 arg10 harg10 arg11 harg11 hcF hcL x0 x1 x2 x3).1), scM0_1.view.read (Elt F) (scM0_1.view.writes (Elt F) scM0_1.view.junk (kernelRun0_A c i arg3 harg3 arg4 harg4 arg5 harg5 arg6 harg6 arg7 harg7 arg8 harg8 arg9 harg9 arg10 harg10 arg11 harg11 hcF hcL x0 x1 x2 x3).2.1), scM0_2.view.read (Elt F) (scM0_2.view.writes (Elt F) scM0_2.view.junk (kernelRun0_A c i arg3 harg3 arg4 harg4 arg5 harg5 arg6 harg6 arg7 harg7 arg8 harg8 arg9 harg9 arg10 harg10 arg11 harg11 hcF hcL x0 x1 x2 x3).2.2.1), scM0_3.view.read (Elt F) (scM0_3.view.writes (Elt F) scM0_3.view.junk (kernelRun0_A c i arg3 harg3 arg4 harg4 arg5 harg5 arg6 harg6 arg7 harg7 arg8 harg8 arg9 harg9 arg10 harg10 arg11 harg11 hcF hcL x0 x1 x2 x3).2.2.2.1))
/-- What a middle case leaves in them, over what the point before left (the cached query tile is only read). -/
def sout0_B (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : ¬condL0 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) : Vec F S512x1 .f32 × Vec F S512x1 .f32 × Vec F S512x1024 .f32 × Vec F S512x1024 .bf16 :=
  (scM0_0.view.read (Elt F) (scM0_0.view.writes (Elt F) scM0_0.view.junk (kernelRun0_B c i arg3 harg3 arg4 harg4 arg5 harg5 arg6 harg6 arg7 harg7 arg8 harg8 arg9 harg9 arg10 harg10 arg11 harg11 hcF hcL x0 x1 x2 x3 xs.1 xs.2.1 xs.2.2.1 xs.2.2.2).1), scM0_1.view.read (Elt F) (scM0_1.view.writes (Elt F) scM0_1.view.junk (kernelRun0_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1), scM0_2.view.read (Elt F) (scM0_2.view.writes (Elt F) scM0_2.view.junk (kernelRun0_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1), xs.2.2.2)
/-- What the last case leaves in them, -/
def sout0_C (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : condL0 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) : Vec F S512x1 .f32 × Vec F S512x1 .f32 × Vec F S512x1024 .f32 × Vec F S512x1024 .bf16 :=
  (scM0_0.view.read (Elt F) (scM0_0.view.writes (Elt F) scM0_0.view.junk (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1), scM0_1.view.read (Elt F) (scM0_1.view.writes (Elt F) scM0_1.view.junk (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1), scM0_2.view.read (Elt F) (scM0_2.view.writes (Elt F) scM0_2.view.junk (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.2.1), xs.2.2.2)
/-- and in the result block. -/
def out0_C (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : condL0 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) : Vec F S1x512x2048 .f32 :=
  VO0.read (Elt F) (VO0.writes (Elt F) VO0.junk (kernelRun0_C c i arg3 harg3 arg4 harg4 arg5 harg5 arg6 harg6 arg7 harg7 arg8 harg8 arg9 harg9 arg10 harg10 arg11 harg11 hcF hcL x0 x1 x2 x3 xs.1 xs.2.1 xs.2.2.1 xs.2.2.2).1)

/-! ## Point by point -/

/-- After the body at position `n`: the result window's buffer (stated at the last key tile; a placeholder nothing
    consults elsewhere) and the four carried buffers. -/
def outsAt0 (c : Dev nD) : (n : ℕ) → n < cfg0.N → Vec F S1x512x2048 .f32 × (Vec F S512x1 .f32 × Vec F S512x1 .f32 × Vec F S512x1024 .f32 × Vec F S512x1024 .bf16)
  | 0, hn => (VO0.read (Elt F) VO0.junk, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcondF0 ⟨0, hn⟩).mpr (Nat.zero_mod _)) (fun h => (fun h => by (try dsimp only at h); omega) ((hcondL0 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      (VO0.read (Elt F) VO0.junk, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcondF0 ⟨n + 1, hn⟩).mpr h0) (fun h => (fun h => by (try dsimp only at h); omega) ((hcondL0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h3 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcondF0 ⟨n + 1, hn⟩).mp h)) ((hcondL0 ⟨n + 1, hn⟩).mpr h3) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
          sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcondF0 ⟨n + 1, hn⟩).mp h)) ((hcondL0 ⟨n + 1, hn⟩).mpr h3) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (VO0.read (Elt F) VO0.junk, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcondF0 ⟨n + 1, hn⟩).mp h)) (fun h => h3 ((hcondL0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 4 = 0) :
    outsAt0 V c t.val t.isLt = (VO0.read (Elt F) VO0.junk, sout0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcondF0 t).mpr h0) (fun h => (fun h => by (try dsimp only at h); omega) ((hcondL0 t).mp h)) (iblk0 V c 0 t) (iblk0 V c 1 t) (iblk0 V c 2 t) (iblk0 V c 3 t)) := by
  obtain ⟨n, hn⟩ := t
  cases n with
  | zero => exact rfl
  | succ n => exact (dif_pos h0).trans rfl

theorem outsAt0_B (c : Dev nD) (t : Fin cfg0.N) (h0 : ¬t.val % 4 = 0) (h3 : ¬t.val % 4 = 3) :
    outsAt0 V c t.val t.isLt = (VO0.read (Elt F) VO0.junk, sout0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcondF0 t).mp h)) (fun h => h3 ((hcondL0 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

theorem outsAt0_C (c : Dev nD) (t : Fin cfg0.N) (h0 : ¬t.val % 4 = 0) (h3 : t.val % 4 = 3) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcondF0 t).mp h)) ((hcondL0 t).mpr h3) (iblk0 V c 0 t) (iblk0 V c 1 t) (iblk0 V c 2 t) (iblk0 V c 3 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcondF0 t).mp h)) ((hcondL0 t).mpr h3) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-- The invariant before position `n`: before the first point the class's (every scoped buffer at anything);
    afterwards the carried buffers at what the point before left, the other scoped buffers at anything, and the
    generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2.1) ∗ owns (c : Thread nD τ) scM0_3 fullShare ((outsAt0 V c n hn).2.2.2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f)) ∗ (∃ r, prngReg c r))

theorem PhiS_zero0 (c : Dev nD) (n : ℕ) (h : n ≤ cfg0.N) (hz : n = 0) : PhiS0 V c n h = Pipeline.ΦA spec0 c := by
  subst hz; rfl

theorem PhiS_succ0 (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2.1) ∗ owns (c : Thread nD τ) scM0_3 fullShare ((outsAt0 V c n hn).2.2.2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f)) ∗ (∃ r, prngReg c r)) := rfl

theorem PhiS_pos0 (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2.1) ∗ owns (c : Thread nD τ) scM0_3 fullShare ((outsAt0 V c (n - 1) (by omega)).2.2.2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f)) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc0 (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' memrefs hold their blocks; the point's position among the key tiles says which
    case runs; the invariant hands over the carried buffers and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS_succ0]
  have hN : t.val < 128 := lt_of_lt_of_eq t.isLt (show cfg0.N = 128 from N_0)
  rw [show (dat0 V c).leavesExact 0 t = owns (c : Thread nD τ) (ms0_0 t) fullShare ((dat0 V c).after 0 t) from by
      unfold Dat.leavesExact; rw [live0_0 t], after0_0]
  rw [show (dat0 V c).leavesExact 1 t = owns (c : Thread nD τ) (ms0_1 t) fullShare ((dat0 V c).after 1 t) from by
      unfold Dat.leavesExact; rw [live0_1 t], after0_1]
  rw [show (dat0 V c).leavesExact 2 t = owns (c : Thread nD τ) (ms0_2 t) fullShare ((dat0 V c).after 2 t) from by
      unfold Dat.leavesExact; rw [live0_2 t], after0_2]
  rw [show (dat0 V c).leavesExact 3 t = owns (c : Thread nD τ) (ms0_3 t) fullShare ((dat0 V c).after 3 t) from by
      unfold Dat.leavesExact; rw [live0_3 t], after0_3]
  by_cases h0 : t.val % 4 = 0
  · have h3 : ¬t.val % 4 = 3 := by omega
    rw [Dat.leavesExact_idle (dat0 V c) 4 t (idle0_4 t (fun h => h3 ((hcondL0 t).mp h))) (noFlush0_4 t (fun h => h3 ((hcondL0 t).mp h)))]
    rw [outsAt0_A V c t h0]
    unfold sout0_A; (try dsimp only)
    by_cases hz : t.val = 0
    · rw [PhiS_castSucc0 V c t, PhiS_zero0 V c _ _ hz, PhiA0_eq]
      iintro ⟨⟨⟨HS0, HS1, HS2, HS3, HR4, HR5, HR6, HR7, HR8, HR9, HR10, HR11, HR12, HR13, HR14, HR15⟩, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcondF0 t).mpr h0) (fun h => h3 ((hcondL0 t).mp h)) (iblk0 V c 0 t) (iblk0 V c 1 t) (iblk0 V c 2 t) (iblk0 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HS0 HS1 HS2 HS3 HR4 HR5 HR6 HR7 HR8 HR9 HR10 HR11 HR12 HR13 HR14 HR15 Hg]
      · isplitl [HS0 HS1 HS2 HS3 HR4 HR5 HR6 HR7 HR8 HR9 HR10 HR11 HR12 HR13 HR14 HR15]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _)
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          iexact HR15
        iexact Hg
      isplitl [Ho]; · iexact Ho
      isplitl [H0]; · iexact H0
      isplitl [H1]; · iexact H1
      isplitl [H2]; · iexact H2
      isplitl [H3]; · iexact H3
      iexists _; iexact H4
    · rw [PhiS_castSucc0 V c t, PhiS_pos0 V c _ _ hz]
      iintro ⟨⟨⟨HS0, HS1, HS2, HS3, HR4, HR5, HR6, HR7, HR8, HR9, HR10, HR11, HR12, HR13, HR14, HR15⟩, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcondF0 t).mpr h0) (fun h => h3 ((hcondL0 t).mp h)) (iblk0 V c 0 t) (iblk0 V c 1 t) (iblk0 V c 2 t) (iblk0 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [HS0 HS1 HS2 HS3 HR4 HR5 HR6 HR7 HR8 HR9 HR10 HR11 HR12 HR13 HR14 HR15 Hg]
      · isplitl [HS0 HS1 HS2 HS3 HR4 HR5 HR6 HR7 HR8 HR9 HR10 HR11 HR12 HR13 HR14 HR15]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _)
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          iexact HR15
        iexact Hg
      isplitl [Ho]; · iexact Ho
      isplitl [H0]; · iexact H0
      isplitl [H1]; · iexact H1
      isplitl [H2]; · iexact H2
      isplitl [H3]; · iexact H3
      iexists _; iexact H4
  · by_cases h3 : t.val % 4 = 3
    · rw [show (dat0 V c).leavesExact 4 t = owns (c : Thread nD τ) (ms0_4 t) fullShare ((dat0 V c).after 4 t) from by
          unfold Dat.leavesExact; rw [live0_4 t ((hcondL0 t).mpr h3)], after0_4]
      rw [outsAt0_C V c t h0 h3]
      unfold out0_C sout0_C; (try dsimp only)
      by_cases hz : t.val = 0
      · exfalso; omega
      · rw [PhiS_castSucc0 V c t, PhiS_pos0 V c _ _ hz]
        iintro ⟨⟨⟨HS0, HS1, HS2, HS3, HR4, HR5, HR6, HR7, HR8, HR9, HR10, HR11, HR12, HR13, HR14, HR15⟩, Hg⟩, Ho, ⟨%d0, H0⟩, ⟨%d1, H1⟩, ⟨%d2, H2⟩, ⟨%d3, H3⟩, ⟨%d4, H4⟩⟩
        iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcondF0 t).mp h)) ((hcondL0 t).mpr h3) (iblk0 V c 0 t) (iblk0 V c 1 t) (iblk0 V c 2 t) (iblk0 V c 3 t) _ _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        iintro ⟨H0, H1, H2, H3, ⟨%e4, H4⟩, ⟨%es0, HS0⟩, ⟨%es1, HS1⟩, ⟨%es2, HS2⟩, HS3⟩
        isplitl [HS0 HS1 HS2 HS3 HR4 HR5 HR6 HR7 HR8 HR9 HR10 HR11 HR12 HR13 HR14 HR15 Hg]
        · isplitl [HS0 HS1 HS2 HS3 HR4 HR5 HR6 HR7 HR8 HR9 HR10 HR11 HR12 HR13 HR14 HR15]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _)
            isplitl [HS3]; · iexact HS3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            iexact HR15
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _ _ _ _ _ _ _)
    · rw [Dat.leavesExact_idle (dat0 V c) 4 t (idle0_4 t (fun h => h3 ((hcondL0 t).mp h))) (noFlush0_4 t (fun h => h3 ((hcondL0 t).mp h)))]
      rw [outsAt0_B V c t h0 h3]
      unfold sout0_B; (try dsimp only)
      by_cases hz : t.val = 0
      · exfalso; omega
      · rw [PhiS_castSucc0 V c t, PhiS_pos0 V c _ _ hz]
        iintro ⟨⟨⟨HS0, HS1, HS2, HS3, HR4, HR5, HR6, HR7, HR8, HR9, HR10, HR11, HR12, HR13, HR14, HR15⟩, Hg⟩, Ho, ⟨%d0, H0⟩, ⟨%d1, H1⟩, ⟨%d2, H2⟩, ⟨%d3, H3⟩, ⟨%d4, H4⟩⟩
        iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcondF0 t).mp h)) (fun h => h3 ((hcondL0 t).mp h)) (iblk0 V c 0 t) (iblk0 V c 1 t) (iblk0 V c 2 t) (iblk0 V c 3 t) _ _ _ _).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, HS3⟩
        isplitl [HS0 HS1 HS2 HS3 HR4 HR5 HR6 HR7 HR8 HR9 HR10 HR11 HR12 HR13 HR14 HR15 Hg]
        · isplitl [HS0 HS1 HS2 HS3 HR4 HR5 HR6 HR7 HR8 HR9 HR10 HR11 HR12 HR13 HR14 HR15]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _)
            isplitl [HS3]; · iexact HS3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            iexact HR15
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS_zero0 V c 0 _ rfl]
  try exact Idealize.SL.BI.Entails.refl _

/-- After the last point the invariant gives the class's back: the carried buffers' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS_pos0 V c _ _ (by rw [Fin.val_last]; have : cfg0.N = 128 := N_0; omega), PhiA0_eq]
  iintro ⟨⟨HS0, HS1, HS2, HS3, HR4, HR5, HR6, HR7, HR8, HR9, HR10, HR11, HR12, HR13, HR14, HR15⟩, Hg⟩
  isplitl [HS0 HS1 HS2 HS3 HR4 HR5 HR6 HR7 HR8 HR9 HR10 HR11 HR12 HR13 HR14 HR15]
  · isplitl [HS0]; · iexists _; iexact HS0
    isplitl [HS1]; · iexists _; iexact HS1
    isplitl [HS2]; · iexists _; iexact HS2
    isplitl [HS3]; · iexists _; iexact HS3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    iexact HR15
  iexact Hg

end Cert.KernelIdeal.Hand

end
-- ==== Proof.KI_Shared1.lean ====
/-
  Launch 1: what the runs of the body share.  The body branches twice on the innermost grid coordinate (the key
  tile): the first key tile resets the four carried buffers, the last one writes the result block.  Over the
  8 × 4 × 4 grid, read as 128 points in row-major order, the first branch is taken at the points ≡ 0 (mod 4) and
  the second at the points ≡ 3 (mod 4); the result window is written back exactly at the latter.
-/
import proofs.«165623_j12077448036716_2_alg».proof.Proof.Gen.KernelIdeal.Launch
import proofs.«165623_j12077448036716_2_alg».proof.Proof.Gen.KernelIdeal.Skeleton
import proofs.«165623_j12077448036716_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch: the key-tile coordinate is 0. -/
abbrev condF1 (i : grid1.Coords) : Prop := (Scalar.cmpi .ne (Scalar.extui (Scalar.cmpi .eq (BitVec.ofNat 32 (i 2).val) 0#32)) 0#32) = 1#1
/-- It holds at the first key tile of each row tile. -/
theorem hcondF1 : ∀ t : Fin cfg1.N, condF1 (grid1.coords t) ↔ t.val % 4 = 0 :=
  (by decide +kernel : ∀ t : Fin grid1.N, condF1 (grid1.coords t) ↔ t.val % 4 = 0)
/-- The body's second branch: the key-tile coordinate is 3. -/
abbrev condL1 (i : grid1.Coords) : Prop := k1_cond2 i = 1#1
/-- It holds at the last key tile of each row tile. -/
theorem hcondL1 : ∀ t : Fin cfg1.N, condL1 (grid1.coords t) ↔ t.val % 4 = 3 :=
  (by decide +kernel : ∀ t : Fin grid1.N, condL1 (grid1.coords t) ↔ t.val % 4 = 3)

/-- The four input windows are never idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
/-- Away from the last key tile the result window is idle and is not written back. -/
theorem idle1_4 : ∀ t : Fin cfg1.N, ¬condL1 (grid1.coords t) → cfg1.idle 4 (grid1.coords t) = true := by decide +kernel
theorem noFlush1_4 : ∀ t : Fin cfg1.N, ¬condL1 (grid1.coords t) → (cfg1.win 4).flush t = false := by decide +kernel
/-- At the last key tile it is live. -/
theorem live1_4 : ∀ t : Fin cfg1.N, condL1 (grid1.coords t) → cfg1.idle 4 (grid1.coords t) = false := by decide +kernel

/-- One staging buffer of the result window, through which its contents are stated. -/
abbrev VO1 : View sig .tc .vmem S1x512x2048 .f32 := (Memref.whole cc1_stg4_0 : Memref sig .tc .vmem S1x512x2048 .f32).view
/-- Each window's current staging memref at point `t`, as the pipeline passes it, and its wholeness. -/
abbrev ms1_0 (t : Fin cfg1.N) : Memref sig .tc .vmem S1x512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x2048 .f32 := win1_4.stage (cfg1.slots t 4)
abbrev hs1_4 (t : Fin cfg1.N) : (ms1_4 t).IsWhole := hstage1_4 ((cfg1.slots t 4).cast nbuf1_4)
/-- The four buffers the kernel carries between key tiles: whole scoped buffers of its own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev scM1_3 : Memref sig .tc .vmem S512x1024 .bf16 := Memref.whole cc1_scratch3

end Cert.KernelIdeal.Hand

end
-- ==== Proof.KI_Run1A.lean ====
/-
  Launch 1: the body run once at the first key tile (the carried buffers reset, then updated), on any whole staging memrefs.
  From the four input blocks at their contents and the result block handed back untouched,
  the body runs to its return leaving each buffer it stored into with a list of written pieces; the pieces are found by the run.
-/
import proofs.«165623_j12077448036716_2_alg».proof.Proof.KI_Shared1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF1 i) (hcL : ¬condL1 i)
    (x0 : Vec F S1x512x1024 .f32) (x1 : Vec F S1x1024 .f32) (x2 : Vec F S1x512x1024 .f32) (x3 : Vec F S1x1024 .f32) :
    Σ' (LS0 : List (View.Piece (Elt F) S512x1 .f32)) (LS1 : List (View.Piece (Elt F) S512x1 .f32)), Σ' (LS2 : List (View.Piece (Elt F) S512x1024 .f32)), { LS3 : List (View.Piece (Elt F) S512x1024 .bf16) //
      ∀ (xi4 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__bidir_kernel i arg3 harg3 arg4 harg4 arg5 harg5 arg6 harg6 arg7 harg7 arg8 harg8 arg9 harg9 arg10 harg10 arg11 harg11) K } := by
  refine ⟨?_, ?_, ?_, ?_, fun xi4 E K => ?run⟩
  case run =>
    simp only [cc1__bidir_kernel_eq_skeleton]; unfold cc1__bidir_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.KI_Run1B.lean ====
/-
  Launch 1: the body run once at a middle key tile (the carried buffers updated), on any whole staging memrefs.
  From the four input blocks at their contents, the carried buffers at what the tile before left, and the result block handed back untouched,
  the body runs to its return leaving each buffer it stored into with a list of written pieces; the pieces are found by the run.
-/
import proofs.«165623_j12077448036716_2_alg».proof.Proof.KI_Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : ¬condL1 i)
    (x0 : Vec F S1x512x1024 .f32) (x1 : Vec F S1x1024 .f32) (x2 : Vec F S1x512x1024 .f32) (x3 : Vec F S1x1024 .f32) (xs0 : Vec F S512x1 .f32) (xs1 : Vec F S512x1 .f32) (xs2 : Vec F S512x1024 .f32) (xs3 : Vec F S512x1024 .bf16) :
    Σ' (LS0 : List (View.Piece (Elt F) S512x1 .f32)) (LS1 : List (View.Piece (Elt F) S512x1 .f32)), { LS2 : List (View.Piece (Elt F) S512x1024 .f32) //
      ∀ (xi4 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__bidir_kernel i arg3 harg3 arg4 harg4 arg5 harg5 arg6 harg6 arg7 harg7 arg8 harg8 arg9 harg9 arg10 harg10 arg11 harg11) K } := by
  refine ⟨?_, ?_, ?_, fun xi4 E K => ?run⟩
  case run =>
    simp only [cc1__bidir_kernel_eq_skeleton]; unfold cc1__bidir_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2; obtain rfl := harg11.eq_unread hfs3
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; isplitr; · ipureintro; exact harg11.read_unread _
    iexact HS3

end Cert.KernelIdeal.Hand

end
-- ==== Proof.KI_Run1C.lean ====
/-
  Launch 1: the body run once at the last key tile (the carried buffers updated, the result block written), on any whole staging memrefs.
  From the four input blocks at their contents, the carried buffers at what the tile before left, and the result block at anything,
  the body runs to its return leaving each buffer it stored into with a list of written pieces; the pieces are found by the run.
-/
import proofs.«165623_j12077448036716_2_alg».proof.Proof.KI_Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : condL1 i)
    (x0 : Vec F S1x512x1024 .f32) (x1 : Vec F S1x1024 .f32) (x2 : Vec F S1x512x1024 .f32) (x3 : Vec F S1x1024 .f32) (xs0 : Vec F S512x1 .f32) (xs1 : Vec F S512x1 .f32) (xs2 : Vec F S512x1024 .f32) (xs3 : Vec F S512x1024 .bf16) :
    Σ' (L4 : List (View.Piece (Elt F) S1x512x2048 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__bidir_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__bidir_kernel_eq_skeleton]; unfold cc1__bidir_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2; obtain rfl := harg11.eq_unread hfs3
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    isplitl [HS2]; · iexists _; iexact HS2
    iexists _; isplitr; · ipureintro; exact harg11.read_unread _
    iexact HS3

end Cert.KernelIdeal.Hand

end
-- ==== Proof.KI_Frame1.lean ====
/-
  Launch 1: the frame of its region.  What the four carried buffers hold after each grid point is defined by
  recursion along the 128 points: at the first key tile of a row tile the first-case run's pieces, otherwise the
  middle- or last-case run's pieces over what the point before left.  The invariant between two points is the
  carried buffers at those contents beside the other scoped buffers at anything; the result window's buffer is
  stated at the last key tile only (elsewhere it is handed back untouched and not written back).
-/
import proofs.«165623_j12077448036716_2_alg».proof.Proof.KI_Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The class invariant with the kernel's four carried buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

theorem scover1_A_0 (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF1 i) (hcL : ¬condL1 i) (x0 : Vec F S1x512x1024 .f32) (x1 : Vec F S1x1024 .f32) (x2 : Vec F S1x512x1024 .f32) (x3 : Vec F S1x1024 .f32) (y : S512x1.Idx) : ∃ pc ∈ (kernelRun1_A c i arg3 harg3 arg4 harg4 arg5 harg5 arg6 harg6 arg7 harg7 arg8 harg8 arg9 harg9 arg10 harg10 arg11 harg11 hcF hcL x0 x1 x2 x3).1, y ∈ pc.1.set :=
  View.cover_of_tiledL (kernelRun1_A c i arg3 harg3 arg4 harg4 arg5 harg5 arg6 harg6 arg7 harg7 arg8 harg8 arg9 harg9 arg10 harg10 arg11 harg11 hcF hcL x0 x1 x2 x3).1 S512x1.size (by sl_kernel_rfl) y
theorem scover1_A_1 (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF1 i) (hcL : ¬condL1 i) (x0 : Vec F S1x512x1024 .f32) (x1 : Vec F S1x1024 .f32) (x2 : Vec F S1x512x1024 .f32) (x3 : Vec F S1x1024 .f32) (y : S512x1.Idx) : ∃ pc ∈ (kernelRun1_A c i arg3 harg3 arg4 harg4 arg5 harg5 arg6 harg6 arg7 harg7 arg8 harg8 arg9 harg9 arg10 harg10 arg11 harg11 hcF hcL x0 x1 x2 x3).2.1, y ∈ pc.1.set :=
  View.cover_of_tiledL (kernelRun1_A c i arg3 harg3 arg4 harg4 arg5 harg5 arg6 harg6 arg7 harg7 arg8 harg8 arg9 harg9 arg10 harg10 arg11 harg11 hcF hcL x0 x1 x2 x3).2.1 S512x1.size (by sl_kernel_rfl) y
theorem scover1_A_2 (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF1 i) (hcL : ¬condL1 i) (x0 : Vec F S1x512x1024 .f32) (x1 : Vec F S1x1024 .f32) (x2 : Vec F S1x512x1024 .f32) (x3 : Vec F S1x1024 .f32) (y : S512x1024.Idx) : ∃ pc ∈ (kernelRun1_A c i arg3 harg3 arg4 harg4 arg5 harg5 arg6 harg6 arg7 harg7 arg8 harg8 arg9 harg9 arg10 harg10 arg11 harg11 hcF hcL x0 x1 x2 x3).2.2.1, y ∈ pc.1.set :=
  View.cover_of_tiledL (kernelRun1_A c i arg3 harg3 arg4 harg4 arg5 harg5 arg6 harg6 arg7 harg7 arg8 harg8 arg9 harg9 arg10 harg10 arg11 harg11 hcF hcL x0 x1 x2 x3).2.2.1 S512x1024.size (by sl_kernel_rfl) y
theorem scover1_A_3 (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF1 i) (hcL : ¬condL1 i) (x0 : Vec F S1x512x1024 .f32) (x1 : Vec F S1x1024 .f32) (x2 : Vec F S1x512x1024 .f32) (x3 : Vec F S1x1024 .f32) (y : S512x1024.Idx) : ∃ pc ∈ (kernelRun1_A c i arg3 harg3 arg4 harg4 arg5 harg5 arg6 harg6 arg7 harg7 arg8 harg8 arg9 harg9 arg10 harg10 arg11 harg11 hcF hcL x0 x1 x2 x3).2.2.2.1, y ∈ pc.1.set :=
  View.cover_of_tiledL (kernelRun1_A c i arg3 harg3 arg4 harg4 arg5 harg5 arg6 harg6 arg7 harg7 arg8 harg8 arg9 harg9 arg10 harg10 arg11 harg11 hcF hcL x0 x1 x2 x3).2.2.2.1 S512x1024.size (by sl_kernel_rfl) y
theorem scover1_B_0 (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : ¬condL1 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1.Idx) : ∃ pc ∈ (kernelRun1_B c i arg3 harg3 arg4 harg4 arg5 harg5 arg6 harg6 arg7 harg7 arg8 harg8 arg9 harg9 arg10 harg10 arg11 harg11 hcF hcL x0 x1 x2 x3 xs.1 xs.2.1 xs.2.2.1 xs.2.2.2).1, y ∈ pc.1.set :=
  View.cover_of_tiledL (kernelRun1_B c i arg3 harg3 arg4 harg4 arg5 harg5 arg6 harg6 arg7 harg7 arg8 harg8 arg9 harg9 arg10 harg10 arg11 harg11 hcF hcL x0 x1 x2 x3 xs.1 xs.2.1 xs.2.2.1 xs.2.2.2).1 S512x1.size (by sl_kernel_rfl) y
theorem scover1_B_1 (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : ¬condL1 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1.Idx) : ∃ pc ∈ (kernelRun1_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1, y ∈ pc.1.set :=
  View.cover_of_tiledL (kernelRun1_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1 S512x1.size (by sl_kernel_rfl) y
theorem scover1_B_2 (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : ¬condL1 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1024.Idx) : ∃ pc ∈ (kernelRun1_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1, y ∈ pc.1.set :=
  View.cover_of_tiledL (kernelRun1_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1 S512x1024.size (by sl_kernel_rfl) y
theorem scover1_C_0 (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : condL1 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1.Idx) : ∃ pc ∈ (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1, y ∈ pc.1.set :=
  View.cover_of_tiledL (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1 S512x1.size (by sl_kernel_rfl) y
theorem scover1_C_1 (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : condL1 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1.Idx) : ∃ pc ∈ (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1, y ∈ pc.1.set :=
  View.cover_of_tiledL (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1 S512x1.size (by sl_kernel_rfl) y
theorem scover1_C_2 (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : condL1 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S512x1024.Idx) : ∃ pc ∈ (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.2.1, y ∈ pc.1.set :=
  View.cover_of_tiledL (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.2.1 S512x1024.size (by sl_kernel_rfl) y
/-- The two halves written at the last key tile tile the result block. -/
theorem cover1_C_4 (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : condL1 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) (y : S1x512x2048.Idx) : ∃ pc ∈ (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).1, y ∈ pc.1.set :=
  View.cover_of_tiledL (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).1 S1x512x1024.size (by sl_kernel_rfl) y

/-- What the first case leaves in the four carried buffers: its pieces read back. -/
def sout1_A (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF1 i) (hcL : ¬condL1 i) (x0 : Vec F S1x512x1024 .f32) (x1 : Vec F S1x1024 .f32) (x2 : Vec F S1x512x1024 .f32) (x3 : Vec F S1x1024 .f32) : Vec F S512x1 .f32 × Vec F S512x1 .f32 × Vec F S512x1024 .f32 × Vec F S512x1024 .bf16 :=
  (scM1_0.view.read (Elt F) (scM1_0.view.writes (Elt F) scM1_0.view.junk (kernelRun1_A c i arg3 harg3 arg4 harg4 arg5 harg5 arg6 harg6 arg7 harg7 arg8 harg8 arg9 harg9 arg10 harg10 arg11 harg11 hcF hcL x0 x1 x2 x3).1), scM1_1.view.read (Elt F) (scM1_1.view.writes (Elt F) scM1_1.view.junk (kernelRun1_A c i arg3 harg3 arg4 harg4 arg5 harg5 arg6 harg6 arg7 harg7 arg8 harg8 arg9 harg9 arg10 harg10 arg11 harg11 hcF hcL x0 x1 x2 x3).2.1), scM1_2.view.read (Elt F) (scM1_2.view.writes (Elt F) scM1_2.view.junk (kernelRun1_A c i arg3 harg3 arg4 harg4 arg5 harg5 arg6 harg6 arg7 harg7 arg8 harg8 arg9 harg9 arg10 harg10 arg11 harg11 hcF hcL x0 x1 x2 x3).2.2.1), scM1_3.view.read (Elt F) (scM1_3.view.writes (Elt F) scM1_3.view.junk (kernelRun1_A c i arg3 harg3 arg4 harg4 arg5 harg5 arg6 harg6 arg7 harg7 arg8 harg8 arg9 harg9 arg10 harg10 arg11 harg11 hcF hcL x0 x1 x2 x3).2.2.2.1))
/-- What a middle case leaves in them, over what the point before left (the cached query tile is only read). -/
def sout1_B (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : ¬condL1 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) : Vec F S512x1 .f32 × Vec F S512x1 .f32 × Vec F S512x1024 .f32 × Vec F S512x1024 .bf16 :=
  (scM1_0.view.read (Elt F) (scM1_0.view.writes (Elt F) scM1_0.view.junk (kernelRun1_B c i arg3 harg3 arg4 harg4 arg5 harg5 arg6 harg6 arg7 harg7 arg8 harg8 arg9 harg9 arg10 harg10 arg11 harg11 hcF hcL x0 x1 x2 x3 xs.1 xs.2.1 xs.2.2.1 xs.2.2.2).1), scM1_1.view.read (Elt F) (scM1_1.view.writes (Elt F) scM1_1.view.junk (kernelRun1_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1), scM1_2.view.read (Elt F) (scM1_2.view.writes (Elt F) scM1_2.view.junk (kernelRun1_B c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1), xs.2.2.2)
/-- What the last case leaves in them, -/
def sout1_C (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : condL1 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) : Vec F S512x1 .f32 × Vec F S512x1 .f32 × Vec F S512x1024 .f32 × Vec F S512x1024 .bf16 :=
  (scM1_0.view.read (Elt F) (scM1_0.view.writes (Elt F) scM1_0.view.junk (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.1), scM1_1.view.read (Elt F) (scM1_1.view.writes (Elt F) scM1_1.view.junk (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.1), scM1_2.view.read (Elt F) (scM1_2.view.writes (Elt F) scM1_2.view.junk (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).2.2.2.1), xs.2.2.2)
/-- and in the result block. -/
def out1_C (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : condL1 i) (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) : Vec F S1x512x2048 .f32 :=
  VO1.read (Elt F) (VO1.writes (Elt F) VO1.junk (kernelRun1_C c i arg3 harg3 arg4 harg4 arg5 harg5 arg6 harg6 arg7 harg7 arg8 harg8 arg9 harg9 arg10 harg10 arg11 harg11 hcF hcL x0 x1 x2 x3 xs.1 xs.2.1 xs.2.2.1 xs.2.2.2).1)

/-! ## Point by point -/

/-- After the body at position `n`: the result window's buffer (stated at the last key tile; a placeholder nothing
    consults elsewhere) and the four carried buffers. -/
def outsAt1 (c : Dev nD) : (n : ℕ) → n < cfg1.N → Vec F S1x512x2048 .f32 × (Vec F S512x1 .f32 × Vec F S512x1 .f32 × Vec F S512x1024 .f32 × Vec F S512x1024 .bf16)
  | 0, hn => (VO1.read (Elt F) VO1.junk, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) scM1_3 (Memref.isWhole_whole _) ((hcondF1 ⟨0, hn⟩).mpr (Nat.zero_mod _)) (fun h => (fun h => by (try dsimp only at h); omega) ((hcondL1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      (VO1.read (Elt F) VO1.junk, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) ((hcondF1 ⟨n + 1, hn⟩).mpr h0) (fun h => (fun h => by (try dsimp only at h); omega) ((hcondL1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h3 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (fun h => h0 ((hcondF1 ⟨n + 1, hn⟩).mp h)) ((hcondL1 ⟨n + 1, hn⟩).mpr h3) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
          sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (fun h => h0 ((hcondF1 ⟨n + 1, hn⟩).mp h)) ((hcondL1 ⟨n + 1, hn⟩).mpr h3) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (VO1.read (Elt F) VO1.junk, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (fun h => h0 ((hcondF1 ⟨n + 1, hn⟩).mp h)) (fun h => h3 ((hcondL1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 4 = 0) :
    outsAt1 V c t.val t.isLt = (VO1.read (Elt F) VO1.junk, sout1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcondF1 t).mpr h0) (fun h => (fun h => by (try dsimp only at h); omega) ((hcondL1 t).mp h)) (iblk1 V c 0 t) (iblk1 V c 1 t) (iblk1 V c 2 t) (iblk1 V c 3 t)) := by
  obtain ⟨n, hn⟩ := t
  cases n with
  | zero => exact rfl
  | succ n => exact (dif_pos h0).trans rfl

theorem outsAt1_B (c : Dev nD) (t : Fin cfg1.N) (h0 : ¬t.val % 4 = 0) (h3 : ¬t.val % 4 = 3) :
    outsAt1 V c t.val t.isLt = (VO1.read (Elt F) VO1.junk, sout1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcondF1 t).mp h)) (fun h => h3 ((hcondL1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

theorem outsAt1_C (c : Dev nD) (t : Fin cfg1.N) (h0 : ¬t.val % 4 = 0) (h3 : t.val % 4 = 3) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcondF1 t).mp h)) ((hcondL1 t).mpr h3) (iblk1 V c 0 t) (iblk1 V c 1 t) (iblk1 V c 2 t) (iblk1 V c 3 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcondF1 t).mp h)) ((hcondL1 t).mpr h3) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-- The invariant before position `n`: before the first point the class's (every scoped buffer at anything);
    afterwards the carried buffers at what the point before left, the other scoped buffers at anything, and the
    generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r))

theorem PhiS_zero1 (c : Dev nD) (n : ℕ) (h : n ≤ cfg1.N) (hz : n = 0) : PhiS1 V c n h = Pipeline.ΦA spec1 c := by
  subst hz; rfl

theorem PhiS_succ1 (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r)) := rfl

theorem PhiS_pos1 (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2.1) ∗ owns (c : Thread nD τ) scM1_3 fullShare ((outsAt1 V c (n - 1) (by omega)).2.2.2.2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc1 (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; the point's position among the key tiles says which
    case runs; the invariant hands over the carried buffers and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS_succ1]
  have hN : t.val < 128 := lt_of_lt_of_eq t.isLt (show cfg1.N = 128 from N_1)
  rw [show (dat1 V c).leavesExact 0 t = owns (c : Thread nD τ) (ms1_0 t) fullShare ((dat1 V c).after 0 t) from by
      unfold Dat.leavesExact; rw [live1_0 t], after1_0]
  rw [show (dat1 V c).leavesExact 1 t = owns (c : Thread nD τ) (ms1_1 t) fullShare ((dat1 V c).after 1 t) from by
      unfold Dat.leavesExact; rw [live1_1 t], after1_1]
  rw [show (dat1 V c).leavesExact 2 t = owns (c : Thread nD τ) (ms1_2 t) fullShare ((dat1 V c).after 2 t) from by
      unfold Dat.leavesExact; rw [live1_2 t], after1_2]
  rw [show (dat1 V c).leavesExact 3 t = owns (c : Thread nD τ) (ms1_3 t) fullShare ((dat1 V c).after 3 t) from by
      unfold Dat.leavesExact; rw [live1_3 t], after1_3]
  by_cases h0 : t.val % 4 = 0
  · have h3 : ¬t.val % 4 = 3 := by omega
    rw [Dat.leavesExact_idle (dat1 V c) 4 t (idle1_4 t (fun h => h3 ((hcondL1 t).mp h))) (noFlush1_4 t (fun h => h3 ((hcondL1 t).mp h)))]
    rw [outsAt1_A V c t h0]
    unfold sout1_A; (try dsimp only)
    by_cases hz : t.val = 0
    · rw [PhiS_castSucc1 V c t, PhiS_zero1 V c _ _ hz, PhiA1_eq]
      iintro ⟨⟨⟨HR0, HR1, HR2, HR3, HR4, HR5, HR6, HR7, HR8, HR9, HR10, HR11, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcondF1 t).mpr h0) (fun h => h3 ((hcondL1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HR0 HR1 HR2 HR3 HR4 HR5 HR6 HR7 HR8 HR9 HR10 HR11 HS0 HS1 HS2 HS3 Hg]
      · isplitl [HR0 HR1 HR2 HR3 HR4 HR5 HR6 HR7 HR8 HR9 HR10 HR11 HS0 HS1 HS2 HS3]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc1 V c t, PhiS_pos1 V c _ _ hz]
      iintro ⟨⟨⟨HR0, HR1, HR2, HR3, HR4, HR5, HR6, HR7, HR8, HR9, HR10, HR11, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcondF1 t).mpr h0) (fun h => h3 ((hcondL1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [HR0 HR1 HR2 HR3 HR4 HR5 HR6 HR7 HR8 HR9 HR10 HR11 HS0 HS1 HS2 HS3 Hg]
      · isplitl [HR0 HR1 HR2 HR3 HR4 HR5 HR6 HR7 HR8 HR9 HR10 HR11 HS0 HS1 HS2 HS3]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · by_cases h3 : t.val % 4 = 3
    · rw [show (dat1 V c).leavesExact 4 t = owns (c : Thread nD τ) (ms1_4 t) fullShare ((dat1 V c).after 4 t) from by
          unfold Dat.leavesExact; rw [live1_4 t ((hcondL1 t).mpr h3)], after1_4]
      rw [outsAt1_C V c t h0 h3]
      unfold out1_C sout1_C; (try dsimp only)
      by_cases hz : t.val = 0
      · exfalso; omega
      · rw [PhiS_castSucc1 V c t, PhiS_pos1 V c _ _ hz]
        iintro ⟨⟨⟨HR0, HR1, HR2, HR3, HR4, HR5, HR6, HR7, HR8, HR9, HR10, HR11, HS0, HS1, HS2, HS3⟩, Hg⟩, Ho, ⟨%d0, H0⟩, ⟨%d1, H1⟩, ⟨%d2, H2⟩, ⟨%d3, H3⟩, ⟨%d4, H4⟩⟩
        iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcondF1 t).mp h)) ((hcondL1 t).mpr h3) (iblk1 V c 0 t) (iblk1 V c 1 t) (iblk1 V c 2 t) (iblk1 V c 3 t) _ _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        iintro ⟨H0, H1, H2, H3, ⟨%e4, H4⟩, ⟨%es0, HS0⟩, ⟨%es1, HS1⟩, ⟨%es2, HS2⟩, HS3⟩
        isplitl [HR0 HR1 HR2 HR3 HR4 HR5 HR6 HR7 HR8 HR9 HR10 HR11 HS0 HS1 HS2 HS3 Hg]
        · isplitl [HR0 HR1 HR2 HR3 HR4 HR5 HR6 HR7 HR8 HR9 HR10 HR11 HS0 HS1 HS2 HS3]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_C_2 c _ _ _ _ _ _ _ _ _ _ _ _ _ _ _ _ _ _ _ _ _ _ _ _ _ _)
            iexact HS3
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _ _ _ _ _ _)
    · rw [Dat.leavesExact_idle (dat1 V c) 4 t (idle1_4 t (fun h => h3 ((hcondL1 t).mp h))) (noFlush1_4 t (fun h => h3 ((hcondL1 t).mp h)))]
      rw [outsAt1_B V c t h0 h3]
      unfold sout1_B; (try dsimp only)
      by_cases hz : t.val = 0
      · exfalso; omega
      · rw [PhiS_castSucc1 V c t, PhiS_pos1 V c _ _ hz]
        iintro ⟨⟨⟨HR0, HR1, HR2, HR3, HR4, HR5, HR6, HR7, HR8, HR9, HR10, HR11, HS0, HS1, HS2, HS3⟩, Hg⟩, Ho, ⟨%d0, H0⟩, ⟨%d1, H1⟩, ⟨%d2, H2⟩, ⟨%d3, H3⟩, ⟨%d4, H4⟩⟩
        iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcondF1 t).mp h)) (fun h => h3 ((hcondL1 t).mp h)) (iblk1 V c 0 t) (iblk1 V c 1 t) (iblk1 V c 2 t) (iblk1 V c 3 t) _ _ _ _).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, HS3⟩
        isplitl [HR0 HR1 HR2 HR3 HR4 HR5 HR6 HR7 HR8 HR9 HR10 HR11 HS0 HS1 HS2 HS3 Hg]
        · isplitl [HR0 HR1 HR2 HR3 HR4 HR5 HR6 HR7 HR8 HR9 HR10 HR11 HS0 HS1 HS2 HS3]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_B_2 c _ _ _ _ _ _ _ _ _ _ _ _ _ _ _ _ _ _ _ _ _ _ _ _ _ _)
            iexact HS3
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS_zero1 V c 0 _ rfl]
  try exact Idealize.SL.BI.Entails.refl _

/-- After the last point the invariant gives the class's back: the carried buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS_pos1 V c _ _ (by rw [Fin.val_last]; have : cfg1.N = 128 := N_1; omega), PhiA1_eq]
  iintro ⟨⟨HR0, HR1, HR2, HR3, HR4, HR5, HR6, HR7, HR8, HR9, HR10, HR11, HS0, HS1, HS2, HS3⟩, Hg⟩
  isplitl [HR0 HR1 HR2 HR3 HR4 HR5 HR6 HR7 HR8 HR9 HR10 HR11 HS0 HS1 HS2 HS3]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HS0]; · iexists _; iexact HS0
    isplitl [HS1]; · iexists _; iexact HS1
    isplitl [HS2]; · iexists _; iexact HS2
    iexists _; iexact HS3
  iexact Hg

end Cert.KernelIdeal.Hand

end
-- ==== Proof.KI_Run.lean ====
/-
  The whole program as a chain of three segments — the two reshapes of the weight rows, then the two launches —
  and its run: from any memory with zero counters every weakly fair execution terminates, nothing faulting, and every
  unscoped buffer ends at the contents named here: the arguments as launched, the first result at what the first
  launch's write-backs leave, the second result at what the second launch's leave.
-/
import proofs.«165623_j12077448036716_2_alg».proof.Proof.KI_Frame0
import proofs.«165623_j12077448036716_2_alg».proof.Proof.KI_Frame1
import proofs.«165623_j12077448036716_2_alg».proof.Proof.Gen.KernelIdeal.Regions
import Idealize.ShloMosaic.Lib.Pipeline.Regions
import Idealize.ShloMosaic.Lib.Pipeline.FrameSuffix
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch, -/
abbrev W0 : Dev nD → Valuation τ sig (Elt F) := fun c b => (s₀ m ρ).mem ((c : Dev nD), b)
/-- after the two reshapes (the first launch's entry), -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- at the first launch's exit: its arrays at what the pipeline leaves, every other buffer as entered, -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- and at the second launch's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The reshapes write only the two reshaped rows. -/
theorem W1_of (c : Dev nD) (r : Ref sig .tc) (h : r ∉ hostOps0_W) : W1 m ρ c (Proc.devRef .tc r) = m ((c : Thread nD τ).loc r) :=
  (StableHlo.after_of_writes_sub hostOps0 _ hostOps0_writes h).trans rfl

/-! ### The arguments end as launched, the results at the launches' write-backs -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 2).trans (((dat1 (V2 m ρ) c).arrAt_in 2 rfl _).trans (A_eq1 (V2 m ρ) c 2))
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_of m ρ c main_arg0 (by decide)
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := (W2_arr m ρ c 2).trans (((dat0 (V1 m ρ) c).arrAt_in 2 rfl _).trans (A_eq0 (V1 m ρ) c 2))
    _ = m ((c : Thread nD τ).loc main_arg1) := W1_of m ρ c main_arg1 (by decide)
theorem W3_main_arg2 (c : Dev nD) : W3 m ρ c (Proc.devRef .tc main_arg2) = m ((c : Thread nD τ).loc main_arg2) :=
  (W3_of_ne m ρ c main_arg2 (by decide)).trans ((W2_of_ne m ρ c main_arg2 (by decide)).trans (W1_of m ρ c main_arg2 (by decide)))
theorem W3_main_arg3 (c : Dev nD) : W3 m ρ c (Proc.devRef .tc main_arg3) = m ((c : Thread nD τ).loc main_arg3) :=
  (W3_of_ne m ρ c main_arg3 (by decide)).trans ((W2_of_ne m ρ c main_arg3 (by decide)).trans (W1_of m ρ c main_arg3 (by decide)))
theorem W3_main_v2 (c : Dev nD) : W3 m ρ c (Proc.devRef .tc main_v2) = (dat0 (V1 m ρ) c).arrAt 4 cfg0.N :=
  (W3_of_ne m ρ c main_v2 (by decide)).trans (W2_arr m ρ c 4)
theorem W3_main_v3 (c : Dev nD) : W3 m ρ c (Proc.devRef .tc main_v3) = (dat1 (V2 m ρ) c).arrAt 4 cfg1.N :=
  W3_arr m ρ c 4

/-! ## The proof data family and the thread state -/

abbrev adm : (p : Fin 2) → (pcfgs (F := F) p).Adm := fun p => (cfgs p).toPCfg_adm
/-- Both pipelines' proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- The reshapes as a segment over the unscoped buffers. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The launches as segments -/

set_option backward.isDefEq.respectTransparency.types false in
/-- Launch 0 as a segment: entered from every unscoped buffer at the contents before it, left at those after it. Its
    arrays are split out of the unscoped buffers and put back at the exit contents; the generator register goes into the
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered from every unscoped buffer at the contents before it, left at those after it. Its
    arrays are split out of the unscoped buffers and put back at the exit contents; the generator register goes into the
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg0 m ρ), .region (reg0 m ρ), .region (reg1 m ρ) ]
theorem main_run (c : Dev nD) : main (F := F) c = Pipeline.Seg.run (segs m ρ) := (main_chain c).trans (by chain_rfl)

set_option backward.isDefEq.respectTransparency.types false in
/-- THE RUN: every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Hand

end
-- ==== Proof.Spec.lean ====
/-
  The mathematics both programs compute, stated once over the extended reals, index by index, with no
  program in sight.  Inputs: two stacks of matrices `A B : 8 × 2048 × 1024` and two weight rows `u v : 1024`.
  The score of row `l` of `A` against row `r` of `B` (in batch `n`) is the weighted inner product
  `∑ d, (A n l d · u d) · (B n r d · v d)`.  The first result concatenates, along the last axis, `A` itself
  with the softmax over `r` of the scores applied to `B`; the second concatenates `B` with the softmax over `l`
  applied to `A`.  A softmax weight is `exp (score − row maximum)` divided by the sum of those exponentials.
-/
import Idealize.ShloMosaic.PureOps.Ideal
import Idealize.ShloMosaic.Lib.ValueIdx

noncomputable section

namespace Cert.Spec

open Idealize.ShloMosaic

/-- A stack of eight 2048 × 1024 matrices, and a weight row. -/
abbrev Arr : Type := Fin 8 → Fin 2048 → Fin 1024 → EReal
abbrev Row : Type := Fin 1024 → EReal

/-- The score of row `l` of `A` against row `r` of `B`: the inner product of the two weighted rows. -/
def score (A B : Arr) (u v : Row) (n : Fin 8) (l r : Fin 2048) : EReal :=
  ∑ d : Fin 1024, (A n l d * u d) * (B n r d * v d)

/-- The largest of finitely many extended reals (`⊥` for none). -/
def rowMax (f : Fin 2048 → EReal) : EReal := Finset.univ.fold max ⊥ f

/-- The softmax weights of a row of scores: `exp (s r − max s) / ∑ r', exp (s r' − max s)`. -/
def softmax (s : Fin 2048 → EReal) (r : Fin 2048) : EReal :=
  Ideal.div (Ideal.exp (s r - rowMax s)) (∑ r' : Fin 2048, Ideal.exp (s r' - rowMax s))

/-- The context of row `l` of `A`: the rows of `B` averaged by the softmax, over `r`, of `l`'s scores. -/
def ctxA (A B : Arr) (u v : Row) (n : Fin 8) (l : Fin 2048) (d : Fin 1024) : EReal :=
  ∑ r : Fin 2048, softmax (fun r' => score A B u v n l r') r * B n r d

/-- The context of row `r` of `B`: the rows of `A` averaged by the softmax, over `l`, of `r`'s scores. -/
def ctxB (A B : Arr) (u v : Row) (n : Fin 8) (r : Fin 2048) (d : Fin 1024) : EReal :=
  ∑ l : Fin 2048, softmax (fun l' => score A B u v n l' r) l * A n l d

/-- The first result: `A` beside its context, along the last axis. -/
def outA (A B : Arr) (u v : Row) (n : Fin 8) (l : Fin 2048) (j : Fin 2048) : EReal :=
  if h : j.val < 1024 then A n l ⟨j.val, h⟩ else ctxA A B u v n l ⟨j.val - 1024, by omega⟩

/-- The second result: `B` beside its context, along the last axis. -/
def outB (A B : Arr) (u v : Row) (n : Fin 8) (r : Fin 2048) (j : Fin 2048) : EReal :=
  if h : j.val < 1024 then B n r ⟨j.val, h⟩ else ctxB A B u v n r ⟨j.val - 1024, by omega⟩

/-! ## Arrays indexed by a shape's indices, read by coordinates -/

open Idealize.ShloMosaic.ValueIdx

/-- A rank-3 array of the operands' shape as a function of its three coordinates. -/
def arrOf (X : (⟨3, ![8, 2048, 1024]⟩ : Shape).Idx → EReal) : Arr := fun n l d => X (ix3 n l d)
/-- A `1 × 1 × 1024` weight array as a function of its one free coordinate. -/
def rowOf (X : (⟨3, ![1, 1, 1024]⟩ : Shape).Idx → EReal) : Row := fun d => X (ix3 0 0 d)
/-- A function of three coordinates as a rank-3 array of the results' shape. -/
def asOut (G : Fin 8 → Fin 2048 → Fin 2048 → EReal) : (⟨3, ![8, 2048, 2048]⟩ : Shape).Idx → EReal :=
  fun i => G (i 0) (i 1) (i 2)

end Cert.Spec

end
-- ==== Proof.LibFoldMax.lean ====
/-
  Maxima of finite families of extended reals, from `⊥`.

  A float maximum-reduction starts from the pattern of `-∞`, which denotes `⊥`, so over the extended reals it is
  `Finset.fold max ⊥`. Two facts a pooled layer needs: that pattern's value, and that adding a constant and then
  clamping at zero — both monotone — commutes with the maximum of a NONEMPTY family. No finiteness is needed: addition
  of extended reals is monotone in each argument, infinities included, and `⊥ + b = ⊥`. Nonemptiness is needed: over
  an empty family the left side is `max (⊥ + b) 0 = 0` and the right side is `⊥`.
-/
import Idealize.ShloMosaic.PureOps.Ideal

noncomputable section

open Idealize.ShloMosaic

namespace Cert.FoldMax

/-- The f32 pattern of minus infinity denotes the least extended real. -/
theorem neg_inf_f32 : Ideal.ofBits .f32 0xFF800000#32 = (⊥ : EReal) := by simp [Ideal.ofBits, Ideal.ieee]

/-- Bias-then-clamp commutes with the maximum of a nonempty family of extended reals (the maximum taken from `⊥`):
    `max (max_k h k + b) 0 = max_k (max (h k + b) 0)`.
    (≤) the running maximum is `⊥` or is below some `h k`; in the first case `⊥ + b = ⊥`, in the second
    `h k + b ≤ max (h k + b) 0`; and `0` is below any clamped term, of which there is at least one.
    (≥) each `h k` is below the maximum, and both maps are monotone. -/
theorem relu_bias_fold_max {ι : Type} (s : Finset ι) (hs : s.Nonempty) (h : ι → EReal) (b : EReal) :
    max (s.fold max ⊥ h + b) 0 = s.fold max ⊥ (fun k => max (h k + b) 0) := by
  apply le_antisymm
  · apply max_le
    · rcases (Finset.le_fold_max (s.fold max ⊥ h)).mp le_rfl with hb | ⟨k, hk, hle⟩
      · rw [le_bot_iff.mp hb, EReal.bot_add]; exact bot_le
      · exact (Finset.le_fold_max _).mpr (Or.inr ⟨k, hk, (add_le_add hle le_rfl).trans (le_max_left _ _)⟩)
    · obtain ⟨k, hk⟩ := hs
      exact (Finset.le_fold_max _).mpr (Or.inr ⟨k, hk, le_max_right _ _⟩)
  · refine (Finset.fold_max_le _).mpr ⟨bot_le, fun k hk => ?_⟩
    exact max_le_max (add_le_add ((Finset.le_fold_max _).mpr (Or.inr ⟨k, hk, le_rfl⟩)) le_rfl) le_rfl

end Cert.FoldMax

end
-- ==== Proof.RefSpec.lean ====
/-
  The reference program computes the specification of `Cert.Spec`, and its run says so.

  The reference is 37 host operations on whole arrays. Read one at a time at an index given by coordinates they are:
  each stack times its weight row, repeated over the two leading axes; the product of the two weighted stacks over
  their last axis, batch by batch — the score of row `l` of the first against row `r` of the second; the maximum of
  the scores along `r` (for the first result) or along `l` (for the second), taken from `⊥` and joined once more with
  `⊥`, which changes nothing; `exp (score − maximum)`; the sum of those from zero; their quotient, the softmax weight;
  the weights against the other stack, summed over `r` (resp. `l`): the context; and the two pieces joined along the
  last axis, the stack itself below column 1024 and its context from there on. Each step is an identity of extended
  reals that holds at the infinities too, so nothing here asks the inputs to be finite.

  The statements are over ANY contents `W` of the buffers before the operations: the two result buffers end at the
  specification's two arrays of the four argument buffers' contents, and the four argument buffers are left alone.
  The run of the program then has those values on every device, from the launch contents.
-/
import proofs.«165623_j12077448036716_2_alg».proof.Proof.RefRead
import proofs.«165623_j12077448036716_2_alg».proof.Proof.Spec
import proofs.«165623_j12077448036716_2_alg».proof.Proof.LibFoldMax

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP Idealize.ShloMosaic.ValueIdx
open Cert.Spec

/-! ## Maxima along one axis of a rank-three array -/

/-- The host's maximum along the LAST axis of an `[a, b, c]` array from an initial scalar, at `(p, q)`: the fold of
    `max` from the scalar over the `c` entries `x (p, q, ·)`. -/
theorem hostMax_last_apply {a b c : ℕ} {φ : FTy} (x : FVec Ideal ⟨3, ![a, b, c]⟩ φ) (init : (⟨0, ![]⟩ : Shape).Idx → Ideal φ)
    (h' : (⟨3, ![a, b, c]⟩ : Shape).ReducesTo [2] ⟨2, ![a, b]⟩) (h : (⟨3, ![a, b, c]⟩ : Shape).Reduces [2] ⟨2, ![a, b]⟩)
    (hS : 0 < (⟨0, ![]⟩ : Shape).numel) (p : Fin a) (q : Fin b) :
    Host.reduce (FloatOps.maximumf (F := Ideal) (φ := φ)) x init h' hS (ix2 p q)
      = (Finset.univ : Finset (Fin c)).fold max (init (Shape.Idx.first hS)) (fun k => x (ix3 p q k)) := by
  rw [Host.reduce_eq_fold_single _ x init h' h hS (ix2 p q)]
  show (Finset.univ : Finset (Fin c)).fold max (init (Shape.Idx.first hS)) (x ∘ h.lift (ix2 p q)) = _
  exact Finset.fold_congr fun k _ => congrArg x
    (funext fun ax => Fin.ext (by match ax with | ⟨0, _⟩ => rfl | ⟨1, _⟩ => rfl | ⟨2, _⟩ => rfl))

/-- The host's maximum along the MIDDLE axis of an `[a, b, c]` array from an initial scalar, at `(p, q)`: the fold of
    `max` from the scalar over the `b` entries `x (p, ·, q)`. -/
theorem hostMax_mid_apply {a b c : ℕ} {φ : FTy} (x : FVec Ideal ⟨3, ![a, b, c]⟩ φ) (init : (⟨0, ![]⟩ : Shape).Idx → Ideal φ)
    (h' : (⟨3, ![a, b, c]⟩ : Shape).ReducesTo [1] ⟨2, ![a, c]⟩) (h : (⟨3, ![a, b, c]⟩ : Shape).Reduces [1] ⟨2, ![a, c]⟩)
    (hS : 0 < (⟨0, ![]⟩ : Shape).numel) (p : Fin a) (q : Fin c) :
    Host.reduce (FloatOps.maximumf (F := Ideal) (φ := φ)) x init h' hS (ix2 p q)
      = (Finset.univ : Finset (Fin b)).fold max (init (Shape.Idx.first hS)) (fun k => x (ix3 p k q)) := by
  rw [Host.reduce_eq_fold_single _ x init h' h hS (ix2 p q)]
  show (Finset.univ : Finset (Fin b)).fold max (init (Shape.Idx.first hS)) (x ∘ h.lift (ix2 p q)) = _
  exact Finset.fold_congr fun k _ => congrArg x
    (funext fun ax => Fin.ext (by match ax with | ⟨0, _⟩ => rfl | ⟨1, _⟩ => rfl | ⟨2, _⟩ => rfl))

/-! ## The operand indices of the stages, at an index given by coordinates -/

section Indices
variable (n : Fin 8) (l r : Fin 2048) (d : Fin 1024) (k : Fin 2048)

theorem idx0_ix : idx_main_v0 (ix3 n l d) = ix3 (0 : Fin 1) (0 : Fin 1) d :=
  funext fun a => Fin.ext (by match a with | ⟨0, _⟩ => rfl | ⟨1, _⟩ => rfl | ⟨2, _⟩ => rfl)
theorem idx2_ix : idx_main_v2 (ix3 n l d) = ix3 (0 : Fin 1) (0 : Fin 1) d :=
  funext fun a => Fin.ext (by match a with | ⟨0, _⟩ => rfl | ⟨1, _⟩ => rfl | ⟨2, _⟩ => rfl)
theorem lidx4_ix : lidx_main_v4 (ix3 n l r) d = ix3 n l d :=
  funext fun a => Fin.ext (by match a with | ⟨0, _⟩ => rfl | ⟨1, _⟩ => rfl | ⟨2, _⟩ => rfl)
theorem ridx4_ix : ridx_main_v4 (ix3 n l r) d = ix3 n r d :=
  funext fun a => Fin.ext (by match a with | ⟨0, _⟩ => rfl | ⟨1, _⟩ => rfl | ⟨2, _⟩ => rfl)
theorem idx8_9_ix : idx_main_v8 (idx_main_v9 (ix3 n l r)) = ix2 n l :=
  funext fun a => Fin.ext (by match a with | ⟨0, _⟩ => rfl | ⟨1, _⟩ => rfl)
theorem idx12_ix : idx_main_v12 (ix2 n l) k = ix3 n l k :=
  funext fun a => Fin.ext (by match a with | ⟨0, _⟩ => rfl | ⟨1, _⟩ => rfl | ⟨2, _⟩ => rfl)
theorem idx13_14_ix : idx_main_v13 (idx_main_v14 (ix3 n l r)) = ix2 n l :=
  funext fun a => Fin.ext (by match a with | ⟨0, _⟩ => rfl | ⟨1, _⟩ => rfl)
theorem idx19_20_ix : idx_main_v19 (idx_main_v20 (ix3 n l r)) = ix2 n r :=
  funext fun a => Fin.ext (by match a with | ⟨0, _⟩ => rfl | ⟨1, _⟩ => rfl)
theorem idx23_ix : idx_main_v23 (ix2 n r) k = ix3 n k r :=
  funext fun a => Fin.ext (by match a with | ⟨0, _⟩ => rfl | ⟨1, _⟩ => rfl | ⟨2, _⟩ => rfl)
theorem idx24_25_ix : idx_main_v24 (idx_main_v25 (ix3 n l r)) = ix2 n r :=
  funext fun a => Fin.ext (by match a with | ⟨0, _⟩ => rfl | ⟨1, _⟩ => rfl)
theorem lidx27_ix : lidx_main_v27 (ix3 n l d) k = ix3 n l k :=
  funext fun a => Fin.ext (by match a with | ⟨0, _⟩ => rfl | ⟨1, _⟩ => rfl | ⟨2, _⟩ => rfl)
theorem ridx27_ix : ridx_main_v27 (ix3 n l d) k = ix3 n k d :=
  funext fun a => Fin.ext (by match a with | ⟨0, _⟩ => rfl | ⟨1, _⟩ => rfl | ⟨2, _⟩ => rfl)
theorem lidx28_ix : lidx_main_v28 (ix3 n r d) k = ix3 n k r :=
  funext fun a => Fin.ext (by match a with | ⟨0, _⟩ => rfl | ⟨1, _⟩ => rfl | ⟨2, _⟩ => rfl)
theorem ridx28_ix : ridx_main_v28 (ix3 n r d) k = ix3 n k d :=
  funext fun a => Fin.ext (by match a with | ⟨0, _⟩ => rfl | ⟨1, _⟩ => rfl | ⟨2, _⟩ => rfl)

end Indices

/-! ## The stages at coordinates -/

section Stages
variable (x0 x1 : S8x2048x1024.Idx → EReal) (x2 x3 : S1x1x1024.Idx → EReal)

/-- The product of the two weighted stacks over their last axis is the score. -/
theorem scores_at (n : Fin 8) (l r : Fin 2048) :
    val_main_v4 (F := Ideal) x0 x1 x2 x3 (ix3 n l r) = score (arrOf x0) (arrOf x1) (rowOf x2) (rowOf x3) n l r := by
  rw [val_main_v4_apply]
  unfold score
  refine Finset.sum_congr rfl fun d _ => ?_
  rw [lidx4_ix, ridx4_ix, val_main_v1_apply, val_main_v3_apply, val_main_v0_apply, val_main_v2_apply, idx0_ix, idx2_ix]
  rfl

/-- The maximum over the last axis, joined with `⊥`, is the largest score of the row. -/
theorem rowMax_at (n : Fin 8) (l : Fin 2048) :
    val_main_v7 (F := Ideal) x0 x1 x2 x3 (ix2 n l)
      = rowMax (fun r => score (arrOf x0) (arrOf x1) (rowOf x2) (rowOf x3) n l r) := by
  rw [val_main_v7_apply, val_main_v6_apply, val_main_cst_0_apply]
  unfold val_main_v5
  rw [hostMax_last_apply _ _ _ (by decide), val_main_cst_apply]
  simp only [Ideal.maximumf_def, Ideal.ofBits_def, Cert.FoldMax.neg_inf_f32, scores_at]
  exact max_eq_right bot_le

/-- The maximum over the middle axis, joined with `⊥`, is the largest score of the column. -/
theorem colMax_at (n : Fin 8) (r : Fin 2048) :
    val_main_v18 (F := Ideal) x0 x1 x2 x3 (ix2 n r)
      = rowMax (fun l => score (arrOf x0) (arrOf x1) (rowOf x2) (rowOf x3) n l r) := by
  rw [val_main_v18_apply, val_main_v17_apply, val_main_cst_3_apply]
  unfold val_main_v16
  rw [hostMax_mid_apply _ _ _ (by decide), val_main_cst_2_apply]
  simp only [Ideal.maximumf_def, Ideal.ofBits_def, Cert.FoldMax.neg_inf_f32, scores_at]
  exact max_eq_right bot_le

/-- The row weights' numerators: `exp (score − row maximum)`. -/
theorem rowExp_at (n : Fin 8) (l r : Fin 2048) :
    val_main_v11 (F := Ideal) x0 x1 x2 x3 (ix3 n l r)
      = Ideal.exp (score (arrOf x0) (arrOf x1) (rowOf x2) (rowOf x3) n l r
          - rowMax (fun r' => score (arrOf x0) (arrOf x1) (rowOf x2) (rowOf x3) n l r')) := by
  rw [val_main_v11_apply, val_main_v10_apply, val_main_v9_apply, val_main_v8_apply, idx8_9_ix, rowMax_at, scores_at]
  rfl

/-- The column weights' numerators: `exp (score − column maximum)`. -/
theorem colExp_at (n : Fin 8) (l r : Fin 2048) :
    val_main_v22 (F := Ideal) x0 x1 x2 x3 (ix3 n l r)
      = Ideal.exp (score (arrOf x0) (arrOf x1) (rowOf x2) (rowOf x3) n l r
          - rowMax (fun l' => score (arrOf x0) (arrOf x1) (rowOf x2) (rowOf x3) n l' r)) := by
  rw [val_main_v22_apply, val_main_v21_apply, val_main_v20_apply, val_main_v19_apply, idx19_20_ix, colMax_at, scores_at]
  rfl

/-- The row weights' denominator: the sum of the numerators over the row. -/
theorem rowSum_at (n : Fin 8) (l : Fin 2048) :
    val_main_v12 (F := Ideal) x0 x1 x2 x3 (ix2 n l)
      = ∑ r : Fin 2048, Ideal.exp (score (arrOf x0) (arrOf x1) (rowOf x2) (rowOf x3) n l r
          - rowMax (fun r' => score (arrOf x0) (arrOf x1) (rowOf x2) (rowOf x3) n l r')) := by
  rw [val_main_v12_apply, val_main_cst_1_apply]
  simp only [Ideal.ofBits_def, Ideal.ofBits_zero_f32, zero_add, idx12_ix, rowExp_at]

/-- The column weights' denominator: the sum of the numerators over the column. -/
theorem colSum_at (n : Fin 8) (r : Fin 2048) :
    val_main_v23 (F := Ideal) x0 x1 x2 x3 (ix2 n r)
      = ∑ l : Fin 2048, Ideal.exp (score (arrOf x0) (arrOf x1) (rowOf x2) (rowOf x3) n l r
          - rowMax (fun l' => score (arrOf x0) (arrOf x1) (rowOf x2) (rowOf x3) n l' r)) := by
  rw [val_main_v23_apply, val_main_cst_4_apply]
  simp only [Ideal.ofBits_def, Ideal.ofBits_zero_f32, zero_add, idx23_ix, colExp_at]

/-- The row weights are the softmax, over `r`, of the row's scores. -/
theorem rowWeights_at (n : Fin 8) (l r : Fin 2048) :
    val_main_v15 (F := Ideal) x0 x1 x2 x3 (ix3 n l r)
      = softmax (fun r' => score (arrOf x0) (arrOf x1) (rowOf x2) (rowOf x3) n l r') r := by
  rw [val_main_v15_apply, val_main_v14_apply, val_main_v13_apply, idx13_14_ix, rowSum_at, rowExp_at]
  rfl

/-- The column weights are the softmax, over `l`, of the column's scores. -/
theorem colWeights_at (n : Fin 8) (l r : Fin 2048) :
    val_main_v26 (F := Ideal) x0 x1 x2 x3 (ix3 n l r)
      = softmax (fun l' => score (arrOf x0) (arrOf x1) (rowOf x2) (rowOf x3) n l' r) l := by
  rw [val_main_v26_apply, val_main_v25_apply, val_main_v24_apply, idx24_25_ix, colSum_at, colExp_at]
  rfl

/-- The row weights applied to the second stack: the context of row `l` of the first. -/
theorem ctxA_at (n : Fin 8) (l : Fin 2048) (d : Fin 1024) :
    val_main_v27 (F := Ideal) x0 x1 x2 x3 (ix3 n l d) = ctxA (arrOf x0) (arrOf x1) (rowOf x2) (rowOf x3) n l d := by
  rw [val_main_v27_apply]
  unfold ctxA
  refine Finset.sum_congr rfl fun k _ => ?_
  rw [lidx27_ix, ridx27_ix, rowWeights_at]
  rfl

/-- The column weights applied to the first stack: the context of row `r` of the second. -/
theorem ctxB_at (n : Fin 8) (r : Fin 2048) (d : Fin 1024) :
    val_main_v28 (F := Ideal) x0 x1 x2 x3 (ix3 n r d) = ctxB (arrOf x0) (arrOf x1) (rowOf x2) (rowOf x3) n r d := by
  rw [val_main_v28_apply]
  unfold ctxB
  refine Finset.sum_congr rfl fun k _ => ?_
  rw [lidx28_ix, ridx28_ix, colWeights_at]
  rfl

end Stages

/-! ## Two stacks joined along the last axis -/

/-- Two `[8, 2048, 1024]` stacks joined along the last axis read, at `(n, l, j)`, the first stack at `j` when
    `j < 1024` and the second at `j − 1024` otherwise. -/
theorem concat_at (x y : S8x2048x1024.Idx → EReal) (n : Fin 8) (l : Fin 2048) (j : Fin 2048) :
    concatenate S8x2048x2048 2 [⟨S8x2048x1024, x⟩, ⟨S8x2048x1024, y⟩] concatenates_S8x2048x1024_S8x2048x1024_S8x2048x2048_d2 (ix3 n l j)
      = if h : j.val < 1024 then x (ix3 n l ⟨j.val, h⟩) else y (ix3 n l ⟨j.val - 1024, by omega⟩) := by
  by_cases h : j.val < 1024
  · rw [dif_pos h]
    exact concatenate_pair_apply_left 2 x y _ (ix3 n l j) rfl (ix3 n l ⟨j.val, h⟩)
      (fun b => by match b with | ⟨0, _⟩ => rfl | ⟨1, _⟩ => rfl | ⟨2, _⟩ => rfl)
  · rw [dif_neg h]
    exact concatenate_pair_apply_right 2 x y _ (ix3 n l j) rfl rfl (ix3 n l ⟨j.val - 1024, by omega⟩)
      (fun b hb => by match b with | ⟨0, _⟩ => rfl | ⟨1, _⟩ => rfl | ⟨2, _⟩ => exact absurd rfl hb)
      (by show (j.val - 1024) + 1024 = j.val; omega)

/-! ## What the operations leave in each buffer, over any contents of the buffers before them -/

section Fold
variable (W : Valuation τ sig (Elt Ideal))

theorem arg0_kept : StableHlo.after (ops (F := Ideal)) W (Proc.devRef .tc main_arg0) = W (Proc.devRef .tc main_arg0) := by
  after_results_simp
theorem arg1_kept : StableHlo.after (ops (F := Ideal)) W (Proc.devRef .tc main_arg1) = W (Proc.devRef .tc main_arg1) := by
  after_results_simp
theorem arg2_kept : StableHlo.after (ops (F := Ideal)) W (Proc.devRef .tc main_arg2) = W (Proc.devRef .tc main_arg2) := by
  after_results_simp
theorem arg3_kept : StableHlo.after (ops (F := Ideal)) W (Proc.devRef .tc main_arg3) = W (Proc.devRef .tc main_arg3) := by
  after_results_simp

set_option maxHeartbeats 2000000 in
/-- The first result buffer ends at the last stage of its operations, as a function of the four arguments. -/
theorem v29_stage :
    StableHlo.after (ops (F := Ideal)) W (Proc.devRef .tc main_v29) = val_main_v29 (F := Ideal) (W (Proc.devRef .tc main_arg0)) (W (Proc.devRef .tc main_arg1)) (W (Proc.devRef .tc main_arg2)) (W (Proc.devRef .tc main_arg3)) := by
  after_results_simp
  unfold val_main_v29
  refine congrArg₂ (fun a b => concatenate S8x2048x2048 2 [⟨S8x2048x1024, a⟩, ⟨S8x2048x1024, b⟩] concatenates_S8x2048x1024_S8x2048x1024_S8x2048x2048_d2) ?_ ?_
  · after_results_simp
  · after_results_simp
    rfl

set_option maxHeartbeats 2000000 in
/-- The second result buffer ends at the last stage of its operations, as a function of the four arguments. -/
theorem v30_stage :
    StableHlo.after (ops (F := Ideal)) W (Proc.devRef .tc main_v30) = val_main_v30 (F := Ideal) (W (Proc.devRef .tc main_arg0)) (W (Proc.devRef .tc main_arg1)) (W (Proc.devRef .tc main_arg2)) (W (Proc.devRef .tc main_arg3)) := by
  after_results_simp
  unfold val_main_v30
  refine congrArg₂ (fun a b => concatenate S8x2048x2048 2 [⟨S8x2048x1024, a⟩, ⟨S8x2048x1024, b⟩] concatenates_S8x2048x1024_S8x2048x1024_S8x2048x2048_d2) ?_ ?_
  · after_results_simp
  · after_results_simp
    rfl

/-- The first result: the first stack beside its context. -/
theorem outA_eq :
    StableHlo.after (ops (F := Ideal)) W (Proc.devRef .tc main_v29) = asOut (outA (arrOf (W (Proc.devRef .tc main_arg0))) (arrOf (W (Proc.devRef .tc main_arg1))) (rowOf (W (Proc.devRef .tc main_arg2))) (rowOf (W (Proc.devRef .tc main_arg3)))) := by
  rw [v29_stage]
  funext i
  obtain ⟨n, l, j, rfl⟩ : ∃ (n : Fin 8) (l : Fin 2048) (j : Fin 2048), i = ix3 n l j := ⟨i 0, i 1, i 2, eq_ix3 i⟩
  unfold val_main_v29
  refine (concat_at _ _ n l j).trans ?_
  show _ = outA _ _ _ _ n l j
  unfold outA
  by_cases h : j.val < 1024
  · rw [dif_pos h, dif_pos h]; rfl
  · rw [dif_neg h, dif_neg h, ctxA_at]

/-- The second result: the second stack beside its context. -/
theorem outB_eq :
    StableHlo.after (ops (F := Ideal)) W (Proc.devRef .tc main_v30) = asOut (outB (arrOf (W (Proc.devRef .tc main_arg0))) (arrOf (W (Proc.devRef .tc main_arg1))) (rowOf (W (Proc.devRef .tc main_arg2))) (rowOf (W (Proc.devRef .tc main_arg3)))) := by
  rw [v30_stage]
  funext i
  obtain ⟨n, l, j, rfl⟩ : ∃ (n : Fin 8) (l : Fin 2048) (j : Fin 2048), i = ix3 n l j := ⟨i 0, i 1, i 2, eq_ix3 i⟩
  unfold val_main_v30
  refine (concat_at _ _ n l j).trans ?_
  show _ = outB _ _ _ _ n l j
  unfold outB
  by_cases h : j.val < 1024
  · rw [dif_pos h, dif_pos h]; rfl
  · rw [dif_neg h, dif_neg h, ctxB_at]

end Fold

/-! ## The run of the reference -/

/-- On every device, from any memory with zero counters: every weakly fair execution of the reference terminates with
    the first result buffer at the first stack beside its context, the second at the second stack beside its
    context, both as functions of the four argument buffers' launch contents, and the four arguments unchanged. -/
theorem run_spec (m : (ℓ : Loc nD τ sig) → Buf (Elt Ideal) ℓ) (ρ : Dev nD → PrngReg) :
    θ_run Cert.ReferenceIdeal.defs (onTc (τ := τ) (main (F := Ideal))) ⟨m, fun _ => 0, ρ⟩ fun r => ∀ c : Dev nD,
      r.2.mem ((c.tc : Thread nD τ).loc main_v29) = asOut (outA (arrOf (m ((c.tc : Thread nD τ).loc main_arg0))) (arrOf (m ((c.tc : Thread nD τ).loc main_arg1))) (rowOf (m ((c.tc : Thread nD τ).loc main_arg2))) (rowOf (m ((c.tc : Thread nD τ).loc main_arg3))))
      ∧ r.2.mem ((c.tc : Thread nD τ).loc main_v30) = asOut (outB (arrOf (m ((c.tc : Thread nD τ).loc main_arg0))) (arrOf (m ((c.tc : Thread nD τ).loc main_arg1))) (rowOf (m ((c.tc : Thread nD τ).loc main_arg2))) (rowOf (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v29).trans (outA_eq (StableHlo.launchContents m c)),
       (h c main_v30).trans (outB_eq (StableHlo.launchContents m c)),
       (h c main_arg0).trans (arg0_kept (StableHlo.launchContents m c)),
       (h c main_arg1).trans (arg1_kept (StableHlo.launchContents m c)),
       (h c main_arg2).trans (arg2_kept (StableHlo.launchContents m c)),
       (h c main_arg3).trans (arg3_kept (StableHlo.launchContents m c))⟩)
    (run_after (F := Ideal) m ρ)

/-- The reference's frame: that run with the two results dropped — the four arguments end as they began. -/
theorem run_frame (m : (ℓ : Loc nD τ sig) → Buf (Elt Ideal) ℓ) (ρ : Dev nD → PrngReg) :
    θ_run Cert.ReferenceIdeal.defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => (h c).2.2) (run_spec m ρ)

end Cert.ReferenceIdeal.RefValue
end
-- ==== Proof.KI_Entry.lean ====
/-
  What each launch finds in its operand arrays, in terms of the program's arguments: the two stacks of matrices as
  launched (no host operation and no launch writes them), and the two weight rows as the reshapes of the
  `1 × 1 × 1024` arguments, entry `(0, d)` of a row being entry `(0, 0, d)` of its argument.
-/
import proofs.«165623_j12077448036716_2_alg».proof.Proof.KI_Run
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The first launch's entry -/

theorem V1_arg0 (c : Dev nD) : V1 m ρ c main_arg0 = m ((c : Thread nD τ).loc main_arg0) := W1_of m ρ c main_arg0 (by decide)
theorem V1_arg1 (c : Dev nD) : V1 m ρ c main_arg1 = m ((c : Thread nD τ).loc main_arg1) := W1_of m ρ c main_arg1 (by decide)
/-- The first weight row, reshaped. -/
theorem V1_v0 (c : Dev nD) : (V1 m ρ c main_v0 : S1x1024.Idx → Elt F .f32)
    = shapeCast S1x1024 (m ((c : Thread nD τ).loc main_arg2)) shapeCasts_S1x1x1024_S1x1024 := by
  show StableHlo.after hostOps0 (W0 m ρ c) (Proc.devRef .tc main_v0) = _
  after_results
  rfl
/-- The second weight row, reshaped. -/
theorem V1_v1 (c : Dev nD) : (V1 m ρ c main_v1 : S1x1024.Idx → Elt F .f32)
    = shapeCast S1x1024 (m ((c : Thread nD τ).loc main_arg3)) shapeCasts_S1x1x1024_S1x1024 := by
  show StableHlo.after hostOps0 (W0 m ρ c) (Proc.devRef .tc main_v1) = _
  after_results
  rfl
theorem V1_v0_apply (c : Dev nD) (e : Fin 1024) :
    (V1 m ρ c main_v0 : S1x1024.Idx → Elt F .f32) (ix2 (0 : Fin 1) e) = m ((c : Thread nD τ).loc main_arg2) (ix3 (0 : Fin 1) (0 : Fin 1) e) := by
  rw [V1_v0]; exact shapeCast_1ab_ab_apply _ _ (0 : Fin 1) e
theorem V1_v1_apply (c : Dev nD) (e : Fin 1024) :
    (V1 m ρ c main_v1 : S1x1024.Idx → Elt F .f32) (ix2 (0 : Fin 1) e) = m ((c : Thread nD τ).loc main_arg3) (ix3 (0 : Fin 1) (0 : Fin 1) e) := by
  rw [V1_v1]; exact shapeCast_1ab_ab_apply _ _ (0 : Fin 1) e

/-! ## The second launch's entry: the first launch changed only its own result -/

theorem V2_arg0 (c : Dev nD) : V2 m ρ c main_arg0 = m ((c : Thread nD τ).loc main_arg0) :=
  ((W2_arr m ρ c 0).trans (((dat0 (V1 m ρ) c).arrAt_in 0 rfl _).trans (A_eq0 (V1 m ρ) c 0))).trans (V1_arg0 m ρ c)
theorem V2_arg1 (c : Dev nD) : V2 m ρ c main_arg1 = m ((c : Thread nD τ).loc main_arg1) :=
  ((W2_arr m ρ c 2).trans (((dat0 (V1 m ρ) c).arrAt_in 2 rfl _).trans (A_eq0 (V1 m ρ) c 2))).trans (V1_arg1 m ρ c)
theorem V2_v0 (c : Dev nD) : V2 m ρ c main_v0 = V1 m ρ c main_v0 :=
  (W2_arr m ρ c 1).trans (((dat0 (V1 m ρ) c).arrAt_in 1 rfl _).trans (A_eq0 (V1 m ρ) c 1))
theorem V2_v1 (c : Dev nD) : V2 m ρ c main_v1 = V1 m ρ c main_v1 :=
  (W2_arr m ρ c 3).trans (((dat0 (V1 m ρ) c).arrAt_in 3 rfl _).trans (A_eq0 (V1 m ρ) c 3))

end Cert.KernelIdeal.Hand

end
-- ==== Proof.Step.lean ====
/-
  One grid point of the kernel as pure functions of what it loads.  The kernel keeps four buffers between the
  grid points of one row tile: the running row maximum, the running sum of exponentials, the running weighted sum
  of the other operand's rows, and the weighted, narrowed query tile.  At the first key tile they are reset from
  the query tile; at every key tile they are updated from that tile; at the last one the result block is the query
  tile beside the weighted sum divided by the sum of exponentials.  The arithmetic itself is the generated
  payload terms of the body's stores; here they are only composed.  Both launches run the same body.
-/
import proofs.«165623_j12077448036716_2_alg».proof.Proof.Gen.KernelIdeal.Skeleton

noncomputable section

namespace Cert.KernelIdeal.Hand

open Cert.KernelIdeal Cert.KernelIdeal.Gen Idealize.ShloMosaic

variable {F : FTy → Type} [FloatOps F]

/-- What the kernel carries from one key tile to the next. -/
structure St (F : FTy → Type) where
  /-- the running maximum of each row's scores -/
  mx : Vec F S512x1 .f32
  /-- the running sum of each row's exponentials, relative to the running maximum -/
  sm : Vec F S512x1 .f32
  /-- the running sum of the key rows weighted by those exponentials -/
  acc : Vec F S512x1024 .f32
  /-- the query tile, weighted -/
  qs : Vec F S512x1024 .bf16

/-! ## The first launch -/

/-- The carried buffers as the first key tile resets them: no maximum yet, empty sums, the weighted query tile. -/
def init0 (q : Vec F S1x512x1024 .f32) (wq : Vec F S1x1024 .f32) : St F :=
  ⟨k0_pay5, k0_pay6, k0_pay7, k0_pay8 q wq⟩

/-- One key tile folded into the carried buffers. -/
def upd0 (k : Vec F S1x512x1024 .f32) (wk : Vec F S1x1024 .f32) (s : St F) : St F where
  mx := k0_pay2 (k0_pay11 s.qs k wk s.mx)
  sm := k0_pay14 s.qs k wk s.mx s.sm
  acc := k0_pay1 (k0_pay12 s.qs k wk s.mx) (k0_pay15 s.qs k wk s.mx) s.acc
  qs := s.qs

/-- The left half of the result block: the query tile itself. -/
def lo0 (q : Vec F S1x512x1024 .f32) : Vec F S1x512x1024 .f32 := k0_pay3 q
/-- The right half of the result block: the weighted sum over the sum of exponentials. -/
def hi0 (s : St F) : Vec F S1x512x1024 .f32 := k0_pay4 s.acc s.sm

/-! ## The second launch -/

def init1 (q : Vec F S1x512x1024 .f32) (wq : Vec F S1x1024 .f32) : St F :=
  ⟨k1_pay5, k1_pay6, k1_pay7, k1_pay8 q wq⟩

def upd1 (k : Vec F S1x512x1024 .f32) (wk : Vec F S1x1024 .f32) (s : St F) : St F where
  mx := k1_pay2 (k1_pay11 s.qs k wk s.mx)
  sm := k1_pay14 s.qs k wk s.mx s.sm
  acc := k1_pay1 (k1_pay12 s.qs k wk s.mx) (k1_pay15 s.qs k wk s.mx) s.acc
  qs := s.qs

def lo1 (q : Vec F S1x512x1024 .f32) : Vec F S1x512x1024 .f32 := k1_pay3 q
def hi1 (s : St F) : Vec F S1x512x1024 .f32 := k1_pay4 s.acc s.sm

/-- The two launches run one body: their payload terms are the same terms. -/
theorem init1_eq (q : Vec F S1x512x1024 .f32) (wq : Vec F S1x1024 .f32) : init1 q wq = init0 q wq := rfl
theorem upd1_eq (k : Vec F S1x512x1024 .f32) (wk : Vec F S1x1024 .f32) (s : St F) : upd1 k wk s = upd0 k wk s := rfl
theorem lo1_eq (q : Vec F S1x512x1024 .f32) : lo1 q = lo0 q := rfl
theorem hi1_eq (s : St F) : hi1 s = hi0 s := rfl

end Cert.KernelIdeal.Hand

end
-- ==== Proof.KI_Pieces0.lean ====
/-
  Launch 0: what each run of the body leaves in the carried buffers and in the result block, as the step
  functions of `Step.lean`.

  At the first key tile of a row tile three of the four carried buffers are stored whole twice — reset, then updated —
  and the later store wins; the loads in between read the reset values back, and the fourth buffer (the weighted
  query tile) is stored once. So the four end at `upd0 k wk (init0 q wq)`. At a later key tile each of the first
  three is stored whole once, over what the tile before left, and the weighted query tile is only read:
  `upd0 k wk s`. At the last key tile the result block is stored as two halves side by side along the last axis:
  the columns below 1024 hold the query tile, the others the weighted sum over the sum of exponentials, both read
  from the buffers just updated.
-/
import proofs.«165623_j12077448036716_2_alg».proof.Proof.KI_Frame0
import proofs.«165623_j12077448036716_2_alg».proof.Proof.Step
import Idealize.ShloMosaic.Lib.Pipeline.Value
import Idealize.ShloMosaic.Lib.WritesUnit
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

/-- The four carried buffers as a tuple, and back. -/
def tup (s : St F) : Vec F S512x1 .f32 × Vec F S512x1 .f32 × Vec F S512x1024 .f32 × Vec F S512x1024 .bf16 :=
  (s.mx, s.sm, s.acc, s.qs)
def untup (xs : Vec F S512x1 .f32 × Vec F S512x1 .f32 × Vec F S512x1024 .f32 × Vec F S512x1024 .bf16) : St F :=
  ⟨xs.1, xs.2.1, xs.2.2.1, xs.2.2.2⟩

/-- The offsets of a store or load through a whole buffer are all zero. -/
theorem unitOff2_zero : (![0, 0] : Fin 2 → Nat) = fun _ => 0 := funext fun a => by fin_cases a <;> rfl
theorem unitOff3_zero : (![0, 0, 0] : Fin 3 → Nat) = fun _ => 0 := funext fun a => by fin_cases a <;> rfl

set_option maxHeartbeats 4000000 in
/-- The first key tile: reset, then one update. -/
theorem sout0_A_eq (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF0 i) (hcL : ¬condL0 i)
    (x0 : Vec F S1x512x1024 .f32) (x1 : Vec F S1x1024 .f32) (x2 : Vec F S1x512x1024 .f32) (x3 : Vec F S1x1024 .f32) :
    sout0_A c i arg3 harg3 arg4 harg4 arg5 harg5 arg6 harg6 arg7 harg7 arg8 harg8 arg9 harg9 arg10 harg10 arg11 harg11 hcF hcL x0 x1 x2 x3 = tup (upd0 x2 x3 (init0 x0 x1)) := by
  unfold sout0_A
  refine Prod.ext ?_ (Prod.ext ?_ (Prod.ext ?_ ?_))
  · dsimp only
    rw [View.read_writes_eq_canon _ _ _ (scover0_A_0 c i arg3 harg3 arg4 harg4 arg5 harg5 arg6 harg6 arg7 harg7 arg8 harg8 arg9 harg9 arg10 harg10 arg11 harg11 hcF hcL x0 x1 x2 x3)]
    unfold kernelRun0_A
    dsimp only
    sl_unfold_words
    rw [View.canon_cons_unit_zero (S := S512x1) unitOff2_zero]
    simp only [View.readAt_eq_ld, harg3.read_unread, harg4.read_unread, harg5.read_unread, harg6.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
    rfl
  · dsimp only
    rw [View.read_writes_eq_canon _ _ _ (scover0_A_1 c i arg3 harg3 arg4 harg4 arg5 harg5 arg6 harg6 arg7 harg7 arg8 harg8 arg9 harg9 arg10 harg10 arg11 harg11 hcF hcL x0 x1 x2 x3)]
    unfold kernelRun0_A
    dsimp only
    sl_unfold_words
    rw [View.canon_cons_unit_zero (S := S512x1) unitOff2_zero]
    simp only [View.readAt_eq_ld, harg3.read_unread, harg4.read_unread, harg5.read_unread, harg6.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
    rfl
  · dsimp only
    rw [View.read_writes_eq_canon _ _ _ (scover0_A_2 c i arg3 harg3 arg4 harg4 arg5 harg5 arg6 harg6 arg7 harg7 arg8 harg8 arg9 harg9 arg10 harg10 arg11 harg11 hcF hcL x0 x1 x2 x3)]
    unfold kernelRun0_A
    dsimp only
    sl_unfold_words
    rw [View.canon_cons_unit_zero (S := S512x1024) unitOff2_zero]
    simp only [View.readAt_eq_ld, harg3.read_unread, harg4.read_unread, harg5.read_unread, harg6.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
    rfl
  · dsimp only
    rw [View.read_writes_eq_canon _ _ _ (scover0_A_3 c i arg3 harg3 arg4 harg4 arg5 harg5 arg6 harg6 arg7 harg7 arg8 harg8 arg9 harg9 arg10 harg10 arg11 harg11 hcF hcL x0 x1 x2 x3)]
    unfold kernelRun0_A
    dsimp only
    sl_unfold_words
    rw [View.canon_unit_zero (S := S512x1024) unitOff2_zero]
    simp only [View.readAt_eq_ld, harg3.read_unread, harg4.read_unread, harg5.read_unread, harg6.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
    rfl

set_option maxHeartbeats 4000000 in
/-- A middle key tile: one update of what the tile before left. -/
theorem sout0_B_eq (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : ¬condL0 i)
    (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) :
    sout0_B c i arg3 harg3 arg4 harg4 arg5 harg5 arg6 harg6 arg7 harg7 arg8 harg8 arg9 harg9 arg10 harg10 arg11 harg11 hcF hcL x0 x1 x2 x3 xs = tup (upd0 x2 x3 (untup xs)) := by
  unfold sout0_B
  refine Prod.ext ?_ (Prod.ext ?_ (Prod.ext ?_ ?_))
  · dsimp only
    rw [View.read_writes_eq_canon _ _ _ (scover0_B_0 c i arg3 harg3 arg4 harg4 arg5 harg5 arg6 harg6 arg7 harg7 arg8 harg8 arg9 harg9 arg10 harg10 arg11 harg11 hcF hcL x0 x1 x2 x3 xs)]
    unfold kernelRun0_B
    dsimp only
    sl_unfold_words
    rw [View.canon_unit_zero (S := S512x1) unitOff2_zero]
    simp only [View.readAt_eq_ld, harg3.read_unread, harg4.read_unread, harg5.read_unread, harg6.read_unread, harg8.read_unread, harg9.read_unread, harg10.read_unread, harg11.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
    rfl
  · dsimp only
    rw [View.read_writes_eq_canon _ _ _ (scover0_B_1 c i arg3 harg3 arg4 harg4 arg5 harg5 arg6 harg6 arg7 harg7 arg8 harg8 arg9 harg9 arg10 harg10 arg11 harg11 hcF hcL x0 x1 x2 x3 xs)]
    unfold kernelRun0_B
    dsimp only
    sl_unfold_words
    rw [View.canon_unit_zero (S := S512x1) unitOff2_zero]
    simp only [View.readAt_eq_ld, harg3.read_unread, harg4.read_unread, harg5.read_unread, harg6.read_unread, harg8.read_unread, harg9.read_unread, harg10.read_unread, harg11.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
    rfl
  · dsimp only
    rw [View.read_writes_eq_canon _ _ _ (scover0_B_2 c i arg3 harg3 arg4 harg4 arg5 harg5 arg6 harg6 arg7 harg7 arg8 harg8 arg9 harg9 arg10 harg10 arg11 harg11 hcF hcL x0 x1 x2 x3 xs)]
    unfold kernelRun0_B
    dsimp only
    sl_unfold_words
    rw [View.canon_unit_zero (S := S512x1024) unitOff2_zero]
    simp only [View.readAt_eq_ld, harg3.read_unread, harg4.read_unread, harg5.read_unread, harg6.read_unread, harg8.read_unread, harg9.read_unread, harg10.read_unread, harg11.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
    rfl
  · rfl

set_option maxHeartbeats 4000000 in
/-- The last key tile: the same update. -/
theorem sout0_C_eq (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : condL0 i)
    (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) :
    sout0_C c i arg3 harg3 arg4 harg4 arg5 harg5 arg6 harg6 arg7 harg7 arg8 harg8 arg9 harg9 arg10 harg10 arg11 harg11 hcF hcL x0 x1 x2 x3 xs = tup (upd0 x2 x3 (untup xs)) := by
  unfold sout0_C
  refine Prod.ext ?_ (Prod.ext ?_ (Prod.ext ?_ ?_))
  · dsimp only
    rw [View.read_writes_eq_canon _ _ _ (scover0_C_0 c i arg3 harg3 arg4 harg4 arg5 harg5 arg6 harg6 arg7 harg7 arg8 harg8 arg9 harg9 arg10 harg10 arg11 harg11 hcF hcL x0 x1 x2 x3 xs)]
    unfold kernelRun0_C
    dsimp only
    sl_unfold_words
    rw [View.canon_unit_zero (S := S512x1) unitOff2_zero]
    simp only [View.readAt_eq_ld, harg3.read_unread, harg4.read_unread, harg5.read_unread, harg6.read_unread, harg8.read_unread, harg9.read_unread, harg10.read_unread, harg11.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
    rfl
  · dsimp only
    rw [View.read_writes_eq_canon _ _ _ (scover0_C_1 c i arg3 harg3 arg4 harg4 arg5 harg5 arg6 harg6 arg7 harg7 arg8 harg8 arg9 harg9 arg10 harg10 arg11 harg11 hcF hcL x0 x1 x2 x3 xs)]
    unfold kernelRun0_C
    dsimp only
    sl_unfold_words
    rw [View.canon_unit_zero (S := S512x1) unitOff2_zero]
    simp only [View.readAt_eq_ld, harg3.read_unread, harg4.read_unread, harg5.read_unread, harg6.read_unread, harg8.read_unread, harg9.read_unread, harg10.read_unread, harg11.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
    rfl
  · dsimp only
    rw [View.read_writes_eq_canon _ _ _ (scover0_C_2 c i arg3 harg3 arg4 harg4 arg5 harg5 arg6 harg6 arg7 harg7 arg8 harg8 arg9 harg9 arg10 harg10 arg11 harg11 hcF hcL x0 x1 x2 x3 xs)]
    unfold kernelRun0_C
    dsimp only
    sl_unfold_words
    rw [View.canon_unit_zero (S := S512x1024) unitOff2_zero]
    simp only [View.readAt_eq_ld, harg3.read_unread, harg4.read_unread, harg5.read_unread, harg6.read_unread, harg8.read_unread, harg9.read_unread, harg10.read_unread, harg11.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
    rfl
  · rfl

set_option maxHeartbeats 4000000 in
/-- The result block at the last key tile, column by column: the query tile below column 1024, the weighted sum over
    the sum of exponentials from there on. -/
theorem out0_C_apply (c : Dev nD) (i : grid0.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF0 i) (hcL : condL0 i)
    (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16)
    (l : Fin 512) (j : Fin 2048) :
    out0_C c i arg3 harg3 arg4 harg4 arg5 harg5 arg6 harg6 arg7 harg7 arg8 harg8 arg9 harg9 arg10 harg10 arg11 harg11 hcF hcL x0 x1 x2 x3 xs (ix3 (0 : Fin 1) l j)
      = if h : j.val < 1024 then lo0 x0 (ix3 (0 : Fin 1) l ⟨j.val, h⟩)
        else hi0 (upd0 x2 x3 (untup xs)) (ix3 (0 : Fin 1) l ⟨j.val - 1024, by omega⟩) := by
  unfold out0_C
  unfold kernelRun0_C
  dsimp only
  sl_unfold_words
  by_cases h : j.val < 1024
  · rw [dif_pos h]
    refine (View.read_writes_cons_unit_of_not_mem VO0 _ _ _ _ (ix3 (0 : Fin 1) l j) rfl (2 : Fin 3) (Or.inl ?_)).trans ?_
    · exact h
    · refine (View.read_writes_cons_unit_of_mem VO0 _ _ _ _ (ix3 (0 : Fin 1) l j) (ix3 (0 : Fin 1) l ⟨j.val, h⟩) rfl
        (fun a => by match a with
          | ⟨0, _⟩ => exact (Nat.zero_add _).symm
          | ⟨1, _⟩ => exact (Nat.zero_add _).symm
          | ⟨2, _⟩ => exact (Nat.zero_add _).symm)).trans ?_
      simp only [View.readAt_eq_ld, harg3.read_unread, harg4.read_unread, harg5.read_unread, harg6.read_unread, harg8.read_unread, harg9.read_unread, harg10.read_unread, harg11.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
      rfl
  · rw [dif_neg h]
    refine (View.read_writes_cons_unit_of_mem VO0 _ _ _ _ (ix3 (0 : Fin 1) l j) (ix3 (0 : Fin 1) l ⟨j.val - 1024, by omega⟩) rfl
        (fun a => by match a with
          | ⟨0, _⟩ => exact (Nat.zero_add _).symm
          | ⟨1, _⟩ => exact (Nat.zero_add _).symm
          | ⟨2, _⟩ => show j.val = 1024 + (j.val - 1024); omega)).trans ?_
    simp only [View.readAt_eq_ld, harg3.read_unread, harg4.read_unread, harg5.read_unread, harg6.read_unread, harg8.read_unread, harg9.read_unread, harg10.read_unread, harg11.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
    rfl

end Cert.KernelIdeal.Hand

end
-- ==== Proof.KI_Blocks0.lean ====
/-
  Launch 0: its windows' blocks read at coordinates.

  The 128 grid points are the points of the 8 × 4 × 4 grid in row-major order: point `t` is batch `t / 16`, query
  row tile `t / 4 mod 4`, key tile `t mod 4`.  A window's block at a point sits at block index × block size on every
  axis, so entry `(0, l, e)` of the query block is entry `(t / 16, (t / 4 mod 4) · 512 + l, e)` of the first operand,
  of the key block entry `(t / 16, (t mod 4) · 512 + l, e)` of the second, and the two weight rows are whole arrays.
  The result's blocks `[1, 512, 2048]` sit like the query's; written back at the last key tile of each row tile, they
  cover the result: entry `(n, r, j)` lies in the block of the point `16 · n + 4 · (r / 512) + 3`.
-/
import proofs.«165623_j12077448036716_2_alg».proof.Proof.KI_Frame0
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]
variable (V : (c : Dev nD) → (b : Ref sig .tc) → Buf (Elt F) ((c : Thread nD τ).loc b))

/-! ## The block indices at a point, decided once over the grid -/

theorem idx0_0 : ∀ t : Fin cfg0.N, win0_0.index t 0 = t.val / 16 ∧ win0_0.index t 1 = t.val / 4 % 4 ∧ win0_0.index t 2 = 0 :=
  (by decide +kernel : ∀ t : Fin grid0.N, win0_0.index t 0 = t.val / 16 ∧ win0_0.index t 1 = t.val / 4 % 4 ∧ win0_0.index t 2 = 0)
theorem idx0_1 : ∀ t : Fin cfg0.N, win0_1.index t 0 = 0 ∧ win0_1.index t 1 = 0 :=
  (by decide +kernel : ∀ t : Fin grid0.N, win0_1.index t 0 = 0 ∧ win0_1.index t 1 = 0)
theorem idx0_2 : ∀ t : Fin cfg0.N, win0_2.index t 0 = t.val / 16 ∧ win0_2.index t 1 = t.val % 4 ∧ win0_2.index t 2 = 0 :=
  (by decide +kernel : ∀ t : Fin grid0.N, win0_2.index t 0 = t.val / 16 ∧ win0_2.index t 1 = t.val % 4 ∧ win0_2.index t 2 = 0)
theorem idx0_3 : ∀ t : Fin cfg0.N, win0_3.index t 0 = 0 ∧ win0_3.index t 1 = 0 :=
  (by decide +kernel : ∀ t : Fin grid0.N, win0_3.index t 0 = 0 ∧ win0_3.index t 1 = 0)
theorem idx0_4 : ∀ t : Fin cfg0.N, win0_4.index t 0 = t.val / 16 ∧ win0_4.index t 1 = t.val / 4 % 4 ∧ win0_4.index t 2 = 0 :=
  (by decide +kernel : ∀ t : Fin grid0.N, win0_4.index t 0 = t.val / 16 ∧ win0_4.index t 1 = t.val / 4 % 4 ∧ win0_4.index t 2 = 0)

/-! ## A point's coordinates in the arrays -/

/-- The batch of point `t`. -/
def tB0 (t : Fin cfg0.N) : Fin 8 := ⟨t.val / 16, by have := t.isLt; have : cfg0.N = 128 := N_0; omega⟩
/-- Row `l` of point `t`'s query tile, among the 2048 rows. -/
def tRow0 (t : Fin cfg0.N) (l : Fin 512) : Fin 2048 := ⟨t.val / 4 % 4 * 512 + l.val, by omega⟩
/-- Row `l` of point `t`'s key tile, among the 2048 rows. -/
def tKey0 (t : Fin cfg0.N) (l : Fin 512) : Fin 2048 := ⟨t.val % 4 * 512 + l.val, by omega⟩

theorem tB0_val (t : Fin cfg0.N) : (tB0 t).val = t.val / 16 := rfl
theorem tRow0_val (t : Fin cfg0.N) (l : Fin 512) : (tRow0 t l).val = t.val / 4 % 4 * 512 + l.val := rfl
theorem tKey0_val (t : Fin cfg0.N) (l : Fin 512) : (tKey0 t l).val = t.val % 4 * 512 + l.val := rfl

/-! ## The input blocks -/

/-- The query block at `(0, l, e)`. -/
theorem blk0_q (c : Dev nD) (t : Fin cfg0.N) (l : Fin 512) (e : Fin 1024) :
    iblk0 V c 0 t (ix3 (0 : Fin 1) l e)
      = (V c main_arg0 : S8x2048x1024.Idx → Elt F .f32) (ix3 (tB0 t) (tRow0 t l) e) := by
  obtain ⟨e0, e1, e2⟩ := idx0_0 t
  unfold iblk0
  rw [View.read_apply]
  show V c main_arg0 _ = V c main_arg0 _
  congr 1
  funext a
  apply Fin.ext
  match a with
  | ⟨0, _⟩ => show win0_0.index t 0 * 1 + 1 * 0 = t.val / 16; rw [e0]; omega
  | ⟨1, _⟩ => show win0_0.index t 1 * 512 + 1 * l.val = t.val / 4 % 4 * 512 + l.val; rw [e1]; omega
  | ⟨2, _⟩ => show win0_0.index t 2 * 1024 + 1 * e.val = e.val; rw [e2]; omega

/-- The key block at `(0, l, e)`. -/
theorem blk0_k (c : Dev nD) (t : Fin cfg0.N) (l : Fin 512) (e : Fin 1024) :
    iblk0 V c 2 t (ix3 (0 : Fin 1) l e)
      = (V c main_arg1 : S8x2048x1024.Idx → Elt F .f32) (ix3 (tB0 t) (tKey0 t l) e) := by
  obtain ⟨e0, e1, e2⟩ := idx0_2 t
  unfold iblk0
  rw [View.read_apply]
  show V c main_arg1 _ = V c main_arg1 _
  congr 1
  funext a
  apply Fin.ext
  match a with
  | ⟨0, _⟩ => show win0_2.index t 0 * 1 + 1 * 0 = t.val / 16; rw [e0]; omega
  | ⟨1, _⟩ => show win0_2.index t 1 * 512 + 1 * l.val = t.val % 4 * 512 + l.val; rw [e1]; omega
  | ⟨2, _⟩ => show win0_2.index t 2 * 1024 + 1 * e.val = e.val; rw [e2]; omega

/-- The query's weight row is its whole array. -/
theorem blk0_wq (c : Dev nD) (t : Fin cfg0.N) : (iblk0 V c 1 t : S1x1024.Idx → Elt F .f32) = V c main_v0 := by
  obtain ⟨e0, e1⟩ := idx0_1 t
  funext j
  unfold iblk0
  rw [View.read_apply]
  show V c main_v0 _ = V c main_v0 j
  congr 1
  funext a
  apply Fin.ext
  match a with
  | ⟨0, _⟩ => show win0_1.index t 0 * 1 + 1 * (j 0).val = (j 0).val; rw [e0]; omega
  | ⟨1, _⟩ => show win0_1.index t 1 * 1024 + 1 * (j 1).val = (j 1).val; rw [e1]; omega

/-- The key's weight row is its whole array. -/
theorem blk0_wk (c : Dev nD) (t : Fin cfg0.N) : (iblk0 V c 3 t : S1x1024.Idx → Elt F .f32) = V c main_v1 := by
  obtain ⟨e0, e1⟩ := idx0_3 t
  funext j
  unfold iblk0
  rw [View.read_apply]
  show V c main_v1 _ = V c main_v1 j
  congr 1
  funext a
  apply Fin.ext
  match a with
  | ⟨0, _⟩ => show win0_3.index t 0 * 1 + 1 * (j 0).val = (j 0).val; rw [e0]; omega
  | ⟨1, _⟩ => show win0_3.index t 1 * 1024 + 1 * (j 1).val = (j 1).val; rw [e1]; omega

/-- The query tile does not depend on the key tile. -/
theorem blk0_q_congr (c : Dev nD) (t t' : Fin cfg0.N) (h : t.val / 4 = t'.val / 4) :
    (iblk0 V c 0 t : Vec F S1x512x1024 .f32) = iblk0 V c 0 t' := by
  funext j
  obtain ⟨u, l, e, rfl⟩ : ∃ (u : Fin 1) (l : Fin 512) (e : Fin 1024), j = ix3 u l e := ⟨j 0, j 1, j 2, eq_ix3 j⟩
  obtain rfl : u = 0 := Subsingleton.elim _ _
  rw [blk0_q, blk0_q]
  have hB : tB0 t = tB0 t' := Fin.ext (by show t.val / 16 = t'.val / 16; omega)
  have hR : tRow0 t l = tRow0 t' l := Fin.ext (by show t.val / 4 % 4 * 512 + l.val = t'.val / 4 % 4 * 512 + l.val; rw [h])
  rw [hB, hR]

/-! ## The result's blocks -/

/-- A result block read through its rectangle, at `(0, l, j)`. -/
theorem read_out0 (c : Dev nD) (t : Fin cfg0.N) (G : Buf (Elt F) ((cfg0.win 4).arr.view.loc (c : Thread nD τ)))
    (l : Fin 512) (j : Fin 2048) :
    ((cfg0.win 4).blk t).view.read (Elt F) G (ix3 (0 : Fin 1) l j)
      = (G : S8x2048x2048.Idx → Elt F .f32) (ix3 (tB0 t) (tRow0 t l) j) := by
  obtain ⟨e0, e1, e2⟩ := idx0_4 t
  rw [View.read_apply]
  show G _ = G _
  congr 1
  funext a
  apply Fin.ext
  match a with
  | ⟨0, _⟩ => show win0_4.index t 0 * 1 + 1 * 0 = t.val / 16; rw [e0]; omega
  | ⟨1, _⟩ => show win0_4.index t 1 * 512 + 1 * l.val = t.val / 4 % 4 * 512 + l.val; rw [e1]; omega
  | ⟨2, _⟩ => show win0_4.index t 2 * 2048 + 1 * j.val = j.val; rw [e2]; omega

/-- The point that writes back the block holding row `r` of batch `n`: the last key tile of the row's tile. -/
def tOut0 (n : Fin 8) (r : Fin 2048) : Fin cfg0.N :=
  ⟨16 * n.val + 4 * (r.val / 512) + 3, by have hN : grid0.N = 128 := N_0; show _ < grid0.N; omega⟩

theorem tOut0_val (n : Fin 8) (r : Fin 2048) : (tOut0 n r).val = 16 * n.val + 4 * (r.val / 512) + 3 := rfl

theorem cover_out0_at (i : S8x2048x2048.Idx) :
    (cfg0.win 4).flush (tOut0 (i 0) (i 1)) = true ∧ i ∈ ((cfg0.win 4).blk (tOut0 (i 0) (i 1))).view.set := by
  have h0 : (i 0).val < 8 := (i 0).isLt
  have h1 : (i 1).val < 2048 := (i 1).isLt
  have h2 : (i 2).val < 2048 := (i 2).isLt
  have hv : (tOut0 (i 0) (i 1)).val = 16 * (i 0).val + 4 * ((i 1).val / 512) + 3 := rfl
  refine ⟨(flush0_4 _).mpr (by rw [hv]; omega), ?_⟩
  obtain ⟨e0, e1, e2⟩ := idx0_4 (tOut0 (i 0) (i 1))
  show i ∈ ((View.whole main_v2).slice (win0_4.rect (tOut0 (i 0) (i 1)))).set
  rw [View.set_slice_whole, Rect.mem_set_unit]
  intro a
  match a with
  | ⟨0, _⟩ =>
    show win0_4.index (tOut0 (i 0) (i 1)) 0 * 1 ≤ (i 0).val ∧ (i 0).val < win0_4.index (tOut0 (i 0) (i 1)) 0 * 1 + 1
    rw [e0, hv]; omega
  | ⟨1, _⟩ =>
    show win0_4.index (tOut0 (i 0) (i 1)) 1 * 512 ≤ (i 1).val ∧ (i 1).val < win0_4.index (tOut0 (i 0) (i 1)) 1 * 512 + 512
    rw [e1, hv]; omega
  | ⟨2, _⟩ =>
    show win0_4.index (tOut0 (i 0) (i 1)) 2 * 2048 ≤ (i 2).val ∧ (i 2).val < win0_4.index (tOut0 (i 0) (i 1)) 2 * 2048 + 2048
    rw [e2]; omega

/-- Every entry of the result lies in the block of a point that writes its block back. -/
theorem cover_out0 (c : Dev nD) (i : ((cfg0.win 4).arr.view.loc (c : Thread nD τ)).2.ty.Idx) :
    ∃ t : Fin cfg0.N, (cfg0.win 4).flush t = true ∧ i ∈ ((cfg0.win 4).blk t).view.set :=
  ⟨_, cover_out0_at i⟩

end Cert.KernelIdeal.Hand

end
-- ==== Proof.LibKeepdims.lean ====
/-
  Keep-dimension layout operations and row reductions of a matrix, read at an index given by coordinates.
  A row statistic of an [a, b] matrix (a maximum or a sum along the columns) is a vector of length a; kept as a
  column it is cast to [a, 1] and broadcast back over the b columns. Read at (p, c) each step is the identity on
  the row coordinate: the cast reads the vector at p, the broadcast reads the column at (p, 0), and the reductions
  are the fold of max from the start word, and the sum, over the b entries of row p.
-/
import Idealize.ShloMosaic.Lib.ValueIdx
import Idealize.ShloMosaic.Lib.ValueLayout
import Idealize.ShloMosaic.PureOps.Ideal.Laws

namespace Idealize.ShloMosaic.ValueIdx

open Idealize.ShloMosaic

variable {α : Type}

/-- A vector of length `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a one-axis reduction along the columns inserts: row `p`, column `k`. -/
theorem lift_cols {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The maximum along the columns of an `[a, b]` matrix at row `p`: the fold of max, from the start word, over the
    row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have e : (src ∘ h.lift (ix1 p) : Fin b → EReal) = fun k => src (ix2 p k) :=
    funext fun k => congrArg src (lift_cols h p k)
  exact congrArg (fun f : Fin b → EReal => (Finset.univ : Finset (Fin b)).fold max (Ideal.ofBits φ acc) f) e

/-- The sum along the columns of an `[a, b]` matrix at row `p`: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_cols h p k)

end Idealize.ShloMosaic.ValueIdx
-- ==== Proof.LibPlainDot.lean ====
/-
  A plain matrix product read at an entry, on the extended reals.

  For an `m × k` matrix `A` and a `k × n` matrix `B` the product contracted over the shared axis has, at `(a, b)`, the
  value `∑ c, A (a, c) · B (c, b)`. On the extended reals a kernel's matrix unit accumulating into a zero tile and the
  host's product are this same sum: there is no rounding and no order of accumulation to tell them apart.
-/
import Idealize.ShloMosaic.PureOps.Ideal.Laws
import Idealize.ShloMosaic.Lib.ValueIdx
import Idealize.ShloMosaic.Lib.StackMember
import Idealize.ShloMosaic.Lib.ValueLayout

namespace Cert.LibPlainDot

open Idealize.ShloMosaic Idealize.ShloMosaic.ValueIdx

/-- A matrix unit's product into the zero tile is the host's product of the same operands, entry by entry. -/
theorem matmul_zero_eq_dotGeneral {sl sr so : Shape} {φ₁ φ₂ : FTy} (d : DotDims sl sr so) (prec : Option ContractPrecision)
    (A : FVec Ideal sl φ₁) (B : FVec Ideal sr φ₂) (j : so.Idx) :
    FloatOps.matmul d prec A B (constant (F := Ideal) so .f32 0x00000000#32) j = Host.dotGeneral (F := Ideal) d none A B j :=
  (Ideal.matmul_constant_zero_apply d prec A B j).trans (Ideal.dotGeneral_apply d none .single A B j).symm

/-- The plain product into the zero tile, at `(a, b)`, is `∑ c, A (a, c) · B (c, b)`. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (matmul_zero_eq_dotGeneral (DotDims.plain m k n) prec A B (ix2 a b)).trans
    (StackMember.dotGeneral_plain_apply none A B a b)

/-- The plain product with the right operand given transposed: at `(a, b)` it is `∑ c, A (a, c) · B (b, c)`. -/
theorem matmul_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    FloatOps.matmul (DotDims.plain m k n) prec A (transpose ⟨2, ![k, n]⟩ [1, 0] B h)
        (constant (F := Ideal) ⟨2, ![m, n]⟩ .f32 0x00000000#32) (ix2 a b)
      = ∑ c : Fin k, A (ix2 a c) * B (ix2 b c) :=
  (matmul_plain_zero_apply prec A _ a b).trans
    (Finset.sum_congr rfl fun c _ => congrArg (A (ix2 a c) * ·) (transpose_ix2_apply B h c b))

/-- The host's plain product with the right operand given transposed: at `(a, b)` it is `∑ c, A (a, c) · B (b, c)`. -/
theorem dotGeneral_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    Host.dotGeneral (F := Ideal) (DotDims.plain m k n) prec A (transpose ⟨2, ![k, n]⟩ [1, 0] B h) (ix2 a b)
      = ∑ c : Fin k, A (ix2 a c) * B (ix2 b c) :=
  (StackMember.dotGeneral_plain_apply prec A _ a b).trans
    (Finset.sum_congr rfl fun c _ => congrArg (A (ix2 a c) * ·) (transpose_ix2_apply B h c b))

end Cert.LibPlainDot
-- ==== Proof.TileMathA.lean ====
/-
  One key tile's arithmetic, read entry by entry on the extended reals.

  The kernel works on a tile of 512 query rows `l` and, per step, a tile of 512 key rows `p`, both of width 1024.
  The weighted query row is `qs l d = q l d · wq d`.  The matrix unit multiplies it by the transpose of the weighted
  key tile, so the score of query row `l` against key row `p` is `∑ d, qs l d · (k p d · wk d)`.  The step then takes
  the larger of the carried row maximum and the tile's row maximum, rescales the carried sums by the exponential of the
  old maximum minus the new one, and adds the tile's exponentials (for the running sum) and the tile's exponentials
  times the key rows (for the running weighted sum, a second product of the matrix unit).  Changes of float format
  are the identity here, and a product accumulated into a zero tile is the plain sum over the contracted axis.
-/
import proofs.«165623_j12077448036716_2_alg».proof.Proof.Spec
import proofs.«165623_j12077448036716_2_alg».proof.Proof.Step
import proofs.«165623_j12077448036716_2_alg».proof.Proof.LibKeepdims
import proofs.«165623_j12077448036716_2_alg».proof.Proof.LibPlainDot
import proofs.«165623_j12077448036716_2_alg».proof.Proof.LibFoldMax
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tile

open Cert.KernelIdeal Cert.KernelIdeal.Gen Cert.KernelIdeal.Hand Idealize.ShloMosaic Idealize.ShloMosaic.ValueIdx

/-- The exponential of a vector, read at an index. -/
theorem exp_apply {s : Shape} {φ : FTy} (a : FVec Ideal s φ) (i : s.Idx) : exp a i = Ideal.exp (a i) := rfl

/-! ## The result block's two halves -/

/-- The left half of the result block is the query tile: a cast to a matrix and back. -/
theorem pay3_eq (q : Vec Ideal S1x512x1024 .f32) : k0_pay3 q = q := by
  unfold k0_pay3
  exact shapeCast_shapeCast q _ _

/-- The right half at `(l, e)`: the weighted sum at `(l, e)` over the sum of exponentials of row `l`. -/
theorem pay4_apply (acc : Vec Ideal S512x1024 .f32) (sm : Vec Ideal S512x1 .f32) (l : Fin 512) (e : Fin 1024) :
    k0_pay4 acc sm (ix3 (0 : Fin 1) l e) = Ideal.div (acc (ix2 l e)) (sm (ix2 l (0 : Fin 1))) := by
  unfold k0_pay4
  refine (shapeCast_ab_1ab_apply _ _ (0 : Fin 1) l e).trans ?_
  refine (divf_apply _ _ _).trans ?_
  exact congrArg (Ideal.div (acc (ix2 l e))) (broadcastTo_a1_ab_apply sm _ l e)

/-! ## The carried buffers as the first key tile resets them -/

theorem pay5_apply (l : Fin 512) (u : Fin 1) : k0_pay5 (F := Ideal) (ix2 l u) = Ideal.ofBits .f32 0xFF800000#32 := by
  unfold k0_pay5
  exact congrFun (shapeCast_self _ _) _

theorem pay6_apply (l : Fin 512) (u : Fin 1) : k0_pay6 (F := Ideal) (ix2 l u) = 0 := by
  unfold k0_pay6
  exact (congrFun (shapeCast_self _ _) _).trans Ideal.ofBits_zero_f32

theorem pay7_apply (l : Fin 512) (e : Fin 1024) : k0_pay7 (F := Ideal) (ix2 l e) = 0 := by
  unfold k0_pay7
  exact (congrFun (shapeCast_self _ _) _).trans Ideal.ofBits_zero_f32

/-- The weighted query tile at `(l, d)`: the query entry times the weight of column `d`. -/
theorem pay8_apply (q : Vec Ideal S1x512x1024 .f32) (wq : Vec Ideal S1x1024 .f32) (l : Fin 512) (d : Fin 1024) :
    k0_pay8 q wq (ix2 l d) = q (ix3 (0 : Fin 1) l d) * wq (ix2 (0 : Fin 1) d) := by
  unfold k0_pay8
  refine (congrFun (shapeCast_self _ _) (ix2 l d)).trans ?_
  refine (truncf_apply (ψ := .bf16) _ bitsLt_bf16_f32 _).trans ?_
  refine (mulf_apply _ _ _).trans ?_
  refine congrArg₂ (· * ·) (shapeCast_1ab_ab_apply q _ l d) ?_
  refine (broadcastTo_1b_ab_apply _ _ l d).trans ?_
  exact congrFun (shapeCast_self wq _) _

/-! ## One key tile folded in -/

/-- The score tile at `(l, p)`: the weighted query row `l` against the weighted key row `p`. -/
theorem pay10_apply (qs : Vec Ideal S512x1024 .bf16) (k : Vec Ideal S1x512x1024 .f32) (wk : Vec Ideal S1x1024 .f32)
    (l p : Fin 512) :
    k0_pay10 qs k wk (ix2 l p)
      = ∑ d : Fin 1024, qs (ix2 l d) * (k (ix3 (0 : Fin 1) p d) * wk (ix2 (0 : Fin 1) d)) := by
  unfold k0_pay10 k0_pay9
  refine (Cert.LibPlainDot.matmul_plain_transposed_apply none qs _ _ l p).trans ?_
  refine Finset.sum_congr rfl fun d _ => congrArg (qs (ix2 l d) * ·) ?_
  refine (truncf_apply (ψ := .bf16) _ bitsLt_bf16_f32 _).trans ?_
  refine (mulf_apply _ _ _).trans ?_
  refine congrArg₂ (· * ·) (shapeCast_1ab_ab_apply k _ p d) ?_
  refine (broadcastTo_1b_ab_apply _ _ p d).trans ?_
  exact congrFun (shapeCast_self wk _) _

/-- The new row maximum: the larger of the carried one and the largest score of the row in this tile. -/
theorem pay11_apply (qs : Vec Ideal S512x1024 .bf16) (k : Vec Ideal S1x512x1024 .f32) (wk : Vec Ideal S1x1024 .f32)
    (mx : Vec Ideal S512x1 .f32) (l : Fin 512) (u : Fin 1) :
    k0_pay11 qs k wk mx (ix2 l u)
      = max (mx (ix2 l u)) ((Finset.univ : Finset (Fin 512)).fold max ⊥ fun p => k0_pay10 qs k wk (ix2 l p)) := by
  unfold k0_pay11
  refine (maximumf_apply _ _ _).trans ?_
  refine congrArg (max (mx (ix2 l u))) ?_
  refine (shapeCast_a_a1_apply _ _ l u).trans ?_
  refine (rowMax_apply (k0_pay10 qs k wk) _ _ _ _ l).trans ?_
  exact congrArg (fun b : EReal => (Finset.univ : Finset (Fin 512)).fold max b fun p => k0_pay10 qs k wk (ix2 l p))
    Cert.FoldMax.neg_inf_f32

/-- The rescale factor of the carried sums: the exponential of the old maximum minus the new one. -/
theorem pay12_apply (qs : Vec Ideal S512x1024 .bf16) (k : Vec Ideal S1x512x1024 .f32) (wk : Vec Ideal S1x1024 .f32)
    (mx : Vec Ideal S512x1 .f32) (l : Fin 512) (u : Fin 1) :
    k0_pay12 qs k wk mx (ix2 l u) = Ideal.exp (mx (ix2 l u) - k0_pay11 qs k wk mx (ix2 l u)) := by
  unfold k0_pay12
  rfl

/-- The tile's exponentials: of each score minus the new maximum of its row. -/
theorem pay13_apply (qs : Vec Ideal S512x1024 .bf16) (k : Vec Ideal S1x512x1024 .f32) (wk : Vec Ideal S1x1024 .f32)
    (mx : Vec Ideal S512x1 .f32) (l p : Fin 512) :
    k0_pay13 qs k wk mx (ix2 l p)
      = Ideal.exp (k0_pay10 qs k wk (ix2 l p) - k0_pay11 qs k wk mx (ix2 l (0 : Fin 1))) := by
  unfold k0_pay13
  refine (exp_apply _ _).trans ?_
  refine congrArg Ideal.exp ?_
  refine (subf_apply _ _ _).trans ?_
  exact congrArg (k0_pay10 qs k wk (ix2 l p) - ·) (broadcastTo_a1_ab_apply _ _ l p)

/-- The new sum of exponentials: the carried one rescaled, plus the tile's exponentials of the row. -/
theorem pay14_apply (qs : Vec Ideal S512x1024 .bf16) (k : Vec Ideal S1x512x1024 .f32) (wk : Vec Ideal S1x1024 .f32)
    (mx sm : Vec Ideal S512x1 .f32) (l : Fin 512) (u : Fin 1) :
    k0_pay14 qs k wk mx sm (ix2 l u)
      = k0_pay12 qs k wk mx (ix2 l u) * sm (ix2 l u) + ∑ p : Fin 512, k0_pay13 qs k wk mx (ix2 l p) := by
  unfold k0_pay14
  refine (congrFun (shapeCast_self _ _) _).trans ?_
  refine (addf_apply _ _ _).trans ?_
  refine congrArg₂ (· + ·) (mulf_apply _ _ _) ?_
  refine (shapeCast_a_a1_apply _ _ l u).trans ?_
  exact rowSum_apply (k0_pay13 qs k wk mx) _ _ _ _ l

/-- The tile's exponentials times the key tile: at `(l, e)` the sum over the tile's rows `p`. -/
theorem pay15_apply (qs : Vec Ideal S512x1024 .bf16) (k : Vec Ideal S1x512x1024 .f32) (wk : Vec Ideal S1x1024 .f32)
    (mx : Vec Ideal S512x1 .f32) (l : Fin 512) (e : Fin 1024) :
    k0_pay15 qs k wk mx (ix2 l e)
      = ∑ p : Fin 512, k0_pay13 qs k wk mx (ix2 l p) * k (ix3 (0 : Fin 1) p e) := by
  unfold k0_pay15 k0_pay9
  refine (Cert.LibPlainDot.matmul_plain_zero_apply none _ _ l e).trans ?_
  refine Finset.sum_congr rfl fun p _ => ?_
  exact congrArg (k0_pay13 qs k wk mx (ix2 l p) * ·) (shapeCast_1ab_ab_apply k _ p e)

/-- The new weighted sum: the carried one rescaled, plus the tile's contribution. -/
theorem pay1_apply (f : FVec Ideal S512x1 .f32) (t : FVec Ideal S512x1024 .f32) (acc : Vec Ideal S512x1024 .f32)
    (l : Fin 512) (e : Fin 1024) :
    k0_pay1 f t acc (ix2 l e) = f (ix2 l (0 : Fin 1)) * acc (ix2 l e) + t (ix2 l e) := by
  unfold k0_pay1
  refine (congrFun (shapeCast_self _ _) _).trans ?_
  refine (addf_apply _ _ _).trans ?_
  refine congrArg (· + t (ix2 l e)) ?_
  refine (mulf_apply _ _ _).trans ?_
  exact congrArg (· * acc (ix2 l e)) (broadcastTo_a1_ab_apply f _ l e)

/-- The stored maximum is the new maximum. -/
theorem pay2_eq (v : FVec Ideal S512x1 .f32) : k0_pay2 v = v := by
  unfold k0_pay2
  exact shapeCast_self _ _

/-! ## The carried buffers of a row, before and after a key tile

For a query row `l`: the carried maximum `mx l`, the carried sum of exponentials `sm l`, and for a column `e` the
carried weighted sum `acc l e`.  The score of `l` against row `p` of the key tile `k` is `tileScore`. -/

/-- The score of query row `l` (already weighted) against row `p` of a key tile (weighted here). -/
def tileScore (qs : Vec Ideal S512x1024 .bf16) (k : Vec Ideal S1x512x1024 .f32) (wk : Vec Ideal S1x1024 .f32)
    (l p : Fin 512) : EReal :=
  ∑ d : Fin 1024, qs (ix2 l d) * (k (ix3 (0 : Fin 1) p d) * wk (ix2 (0 : Fin 1) d))

theorem init0_mx (q : Vec Ideal S1x512x1024 .f32) (wq : Vec Ideal S1x1024 .f32) (l : Fin 512) :
    (init0 q wq).mx (ix2 l (0 : Fin 1)) = ⊥ :=
  (pay5_apply l 0).trans Cert.FoldMax.neg_inf_f32

theorem init0_sm (q : Vec Ideal S1x512x1024 .f32) (wq : Vec Ideal S1x1024 .f32) (l : Fin 512) :
    (init0 q wq).sm (ix2 l (0 : Fin 1)) = 0 :=
  pay6_apply l 0

theorem init0_acc (q : Vec Ideal S1x512x1024 .f32) (wq : Vec Ideal S1x1024 .f32) (l : Fin 512) (e : Fin 1024) :
    (init0 q wq).acc (ix2 l e) = 0 :=
  pay7_apply l e

theorem init0_qs (q : Vec Ideal S1x512x1024 .f32) (wq : Vec Ideal S1x1024 .f32) (l : Fin 512) (d : Fin 1024) :
    (init0 q wq).qs (ix2 l d) = q (ix3 (0 : Fin 1) l d) * wq (ix2 (0 : Fin 1) d) :=
  pay8_apply q wq l d

theorem upd0_qs (k : Vec Ideal S1x512x1024 .f32) (wk : Vec Ideal S1x1024 .f32) (s : St Ideal) :
    (upd0 k wk s).qs = s.qs := rfl

/-- The new maximum of row `l`. -/
theorem upd0_mx (k : Vec Ideal S1x512x1024 .f32) (wk : Vec Ideal S1x1024 .f32) (s : St Ideal) (l : Fin 512) :
    (upd0 k wk s).mx (ix2 l (0 : Fin 1))
      = max (s.mx (ix2 l (0 : Fin 1))) ((Finset.univ : Finset (Fin 512)).fold max ⊥ fun p => tileScore s.qs k wk l p) := by
  show k0_pay2 (k0_pay11 s.qs k wk s.mx) (ix2 l (0 : Fin 1)) = _
  rw [pay2_eq, pay11_apply]
  refine congrArg (max (s.mx (ix2 l (0 : Fin 1)))) ?_
  exact congrArg (fun g : Fin 512 → EReal => (Finset.univ : Finset (Fin 512)).fold max ⊥ g)
    (funext fun p => pay10_apply s.qs k wk l p)

/-- The new sum of exponentials of row `l`. -/
theorem upd0_sm (k : Vec Ideal S1x512x1024 .f32) (wk : Vec Ideal S1x1024 .f32) (s : St Ideal) (l : Fin 512) :
    (upd0 k wk s).sm (ix2 l (0 : Fin 1))
      = Ideal.exp (s.mx (ix2 l (0 : Fin 1)) - (upd0 k wk s).mx (ix2 l (0 : Fin 1))) * s.sm (ix2 l (0 : Fin 1))
        + ∑ p : Fin 512, Ideal.exp (tileScore s.qs k wk l p - (upd0 k wk s).mx (ix2 l (0 : Fin 1))) := by
  have hm : (upd0 k wk s).mx = k0_pay11 s.qs k wk s.mx := by
    show k0_pay2 (k0_pay11 s.qs k wk s.mx) = _
    exact pay2_eq _
  rw [hm]
  show k0_pay14 s.qs k wk s.mx s.sm (ix2 l (0 : Fin 1)) = _
  rw [pay14_apply, pay12_apply]
  refine congrArg (_ + ·) (Finset.sum_congr rfl fun p _ => ?_)
  rw [pay13_apply, pay10_apply]
  rfl

/-- The new weighted sum of row `l` at column `e`. -/
theorem upd0_acc (k : Vec Ideal S1x512x1024 .f32) (wk : Vec Ideal S1x1024 .f32) (s : St Ideal) (l : Fin 512)
    (e : Fin 1024) :
    (upd0 k wk s).acc (ix2 l e)
      = Ideal.exp (s.mx (ix2 l (0 : Fin 1)) - (upd0 k wk s).mx (ix2 l (0 : Fin 1))) * s.acc (ix2 l e)
        + ∑ p : Fin 512, Ideal.exp (tileScore s.qs k wk l p - (upd0 k wk s).mx (ix2 l (0 : Fin 1)))
            * k (ix3 (0 : Fin 1) p e) := by
  have hm : (upd0 k wk s).mx = k0_pay11 s.qs k wk s.mx := by
    show k0_pay2 (k0_pay11 s.qs k wk s.mx) = _
    exact pay2_eq _
  rw [hm]
  show k0_pay1 (k0_pay12 s.qs k wk s.mx) (k0_pay15 s.qs k wk s.mx) s.acc (ix2 l e) = _
  rw [pay1_apply, pay12_apply, pay15_apply]
  refine congrArg (_ + ·) (Finset.sum_congr rfl fun p _ => ?_)
  rw [pay13_apply, pay10_apply]
  rfl

/-- The result block's right half of row `l` at column `e`. -/
theorem hi0_apply (s : St Ideal) (l : Fin 512) (e : Fin 1024) :
    hi0 s (ix3 (0 : Fin 1) l e) = Ideal.div (s.acc (ix2 l e)) (s.sm (ix2 l (0 : Fin 1))) :=
  pay4_apply s.acc s.sm l e

/-- The result block's left half is the query tile. -/
theorem lo0_apply (q : Vec Ideal S1x512x1024 .f32) (l : Fin 512) (e : Fin 1024) :
    lo0 q (ix3 (0 : Fin 1) l e) = q (ix3 (0 : Fin 1) l e) :=
  congrFun (pay3_eq q) _

end Cert.KernelIdeal.Tile

end
-- ==== Proof.LibERealCoe.lean ====
/-
  The reals inside the extended reals.

  The inclusion of the real numbers into the extended reals is an order embedding and an additive map on the reals, so
  it commutes with finite sums, with `min` and with `max`: an expression built from real entries by these operations may
  be computed in the reals and included afterwards.
-/
import Mathlib.Data.EReal.Operations
import Mathlib.Algebra.BigOperators.Fin

namespace Cert.LibERealCoe

/-- The inclusion of the reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with `min`. -/
theorem coe_min (a b : ℝ) : ((min a b : ℝ) : EReal) = min (a : EReal) (b : EReal) :=
  (EReal.coe_strictMono.monotone).map_min

/-- The inclusion of the reals commutes with `max`. -/
theorem coe_max (a b : ℝ) : ((max a b : ℝ) : EReal) = max (a : EReal) (b : EReal) :=
  (EReal.coe_strictMono.monotone).map_max

end Cert.LibERealCoe
-- ==== Proof.TileMathB.lean ====
/-
  The one-pass softmax with weights, over finite sets of rows.

  A row `r` has a real score `x r` and a real weight `c r`.  A one-pass softmax carries, for the rows `t` seen so far,
  the maximum `M` of their scores, the sum `S = ∑ exp (x r − M)` and the weighted sum `A = ∑ exp (x r − M) · c r`.
  Meeting a new set `u` of rows it replaces `M` by `M' = max M (max over u)`, and `S`, `A` by
  `exp (M − M') · S + ∑ over u of exp (x r − M')` and `exp (M − M') · A + ∑ over u of exp (x r − M') · c r`.
  Because `exp (x − M) · exp (M − M') = exp (x − M')` over the reals, the new triple is the triple of `t ∪ u`.  Before any
  row is seen the maximum is `⊥` and both sums are `0`; the rescale factor is then multiplied by `0`, so its value
  does not matter.  At the end `A / S = ∑ (exp (x r − M) / S) · c r`: every term is real and `S` is a positive real.
-/
import Mathlib.Data.EReal.Operations
import Mathlib.Data.Finset.Lattice.Fold
import Mathlib.Algebra.BigOperators.Fin
import Mathlib.Analysis.SpecialFunctions.Exp
import Mathlib.Tactic.Ring
import Idealize.ShloMosaic.PureOps.Ideal
import proofs.«165623_j12077448036716_2_alg».proof.Proof.LibERealCoe

noncomputable section

namespace Cert.KernelIdeal.Online

open Idealize.ShloMosaic
open scoped BigOperators

variable {ρ : Type} [DecidableEq ρ]

/-- The exponential of a difference of two reals. -/
theorem exp_coe_sub (a b : ℝ) : Ideal.exp ((a : EReal) - (b : EReal)) = ((Real.exp (a - b) : ℝ) : EReal) := by
  rw [← EReal.coe_sub, Ideal.exp_coe]

/-- The largest of finitely many reals, over a nonempty set, is a real. -/
theorem sup_coe_real (t : Finset ρ) (ht : t.Nonempty) (x : ρ → ℝ) :
    ∃ m : ℝ, t.sup (fun r => (x r : EReal)) = (m : EReal) := by
  obtain ⟨i, -, hi⟩ := Finset.exists_mem_eq_sup t ht fun r => (x r : EReal)
  exact ⟨x i, hi⟩

/-- A product of two reals, taken in the extended reals, is a real. -/
theorem exists_real_mul {a b : EReal} (ha : ∃ y : ℝ, a = (y : EReal)) (hb : ∃ y : ℝ, b = (y : EReal)) :
    ∃ y : ℝ, a * b = (y : EReal) := by
  obtain ⟨y, rfl⟩ := ha
  obtain ⟨z, rfl⟩ := hb
  exact ⟨y * z, (EReal.coe_mul y z).symm⟩

/-- A finite sum of reals, taken in the extended reals, is a real. -/
theorem exists_real_sum {ι : Type} (s : Finset ι) (f : ι → EReal) (hf : ∀ i, ∃ y : ℝ, f i = (y : EReal)) :
    ∃ y : ℝ, ∑ i ∈ s, f i = (y : EReal) := by
  choose g hg using hf
  exact ⟨∑ i ∈ s, g i, by rw [Cert.LibERealCoe.coe_sum]; exact Finset.sum_congr rfl fun i _ => hg i⟩

/-- Changing the reference of a weighted sum of exponentials from `M` to a real `m'`: multiply by `exp (M − m')`.
    The old reference is a real as soon as there is a row; with no row both sides are `0`. -/
theorem rescale_weighted (x c : ρ → ℝ) (t : Finset ρ) (M : EReal) (hM : t.Nonempty → ∃ m : ℝ, M = (m : EReal))
    (m' : ℝ) :
    Ideal.exp (M - (m' : EReal)) * ∑ r ∈ t, Ideal.exp ((x r : EReal) - M) * (c r : EReal)
      = ∑ r ∈ t, Ideal.exp ((x r : EReal) - (m' : EReal)) * (c r : EReal) := by
  rcases t.eq_empty_or_nonempty with rfl | ht
  · simp
  · obtain ⟨m, rfl⟩ := hM ht
    have h1 : ∀ (a : ℝ) (r : ρ),
        Ideal.exp ((x r : EReal) - (a : EReal)) * (c r : EReal) = ((Real.exp (x r - a) * c r : ℝ) : EReal) :=
      fun a r => by rw [exp_coe_sub, EReal.coe_mul]
    simp only [h1]
    rw [exp_coe_sub, ← Cert.LibERealCoe.coe_sum, ← Cert.LibERealCoe.coe_sum, ← EReal.coe_mul, Finset.mul_sum]
    refine congrArg (fun z : ℝ => (z : EReal)) (Finset.sum_congr rfl fun r _ => ?_)
    have e : m - m' + (x r - m) = x r - m' := by ring
    rw [← mul_assoc, ← Real.exp_add, e]

/-- The same for the plain sum of exponentials. -/
theorem rescale_sum (x : ρ → ℝ) (t : Finset ρ) (M : EReal) (hM : t.Nonempty → ∃ m : ℝ, M = (m : EReal)) (m' : ℝ) :
    Ideal.exp (M - (m' : EReal)) * ∑ r ∈ t, Ideal.exp ((x r : EReal) - M)
      = ∑ r ∈ t, Ideal.exp ((x r : EReal) - (m' : EReal)) := by
  have h := rescale_weighted x (fun _ => 1) t M hM m'
  simpa only [EReal.coe_one, mul_one] using h

/-- The triple a one-pass softmax carries after the rows `t`: their largest score, the sum of the exponentials of
    the scores relative to it, and the sum of those exponentials times the rows' weights. -/
structure Carried (x c : ρ → ℝ) (t : Finset ρ) (M S A : EReal) : Prop where
  max_eq : M = t.sup fun r => (x r : EReal)
  sum_eq : S = ∑ r ∈ t, Ideal.exp ((x r : EReal) - M)
  acc_eq : A = ∑ r ∈ t, Ideal.exp ((x r : EReal) - M) * (c r : EReal)

/-- Before any row: no maximum, empty sums. -/
theorem Carried.empty (x c : ρ → ℝ) : Carried x c ∅ ⊥ 0 0 :=
  ⟨by simp, by simp, by simp⟩

/-- With at least one row the carried maximum is a real. -/
theorem Carried.max_real {x c : ρ → ℝ} {t : Finset ρ} {M S A : EReal} (h : Carried x c t M S A) (ht : t.Nonempty) :
    ∃ m : ℝ, M = (m : EReal) := by
  obtain ⟨m, hm⟩ := sup_coe_real t ht x
  exact ⟨m, h.max_eq.trans hm⟩

/-- **One step of the one-pass softmax.**  From the triple of the rows `t`, a nonempty set `u` of new rows gives the
    triple of `t ∪ u`. -/
theorem Carried.step {x c : ρ → ℝ} {t u : Finset ρ} {M S A M' S' A' : EReal} (h : Carried x c t M S A)
    (hu : u.Nonempty) (hd : Disjoint t u)
    (hM' : M' = max M (u.sup fun r => (x r : EReal)))
    (hS' : S' = Ideal.exp (M - M') * S + ∑ r ∈ u, Ideal.exp ((x r : EReal) - M'))
    (hA' : A' = Ideal.exp (M - M') * A + ∑ r ∈ u, Ideal.exp ((x r : EReal) - M') * (c r : EReal)) :
    Carried x c (t ∪ u) M' S' A' := by
  have e : M' = (t ∪ u).sup fun r => (x r : EReal) := by rw [hM', h.max_eq, Finset.sup_union]
  obtain ⟨m', hm'⟩ := sup_coe_real (t ∪ u) (hu.mono Finset.subset_union_right) x
  have hr : M' = (m' : EReal) := e.trans hm'
  refine ⟨e, ?_, ?_⟩
  · rw [hS', h.sum_eq, Finset.sum_union hd, hr, rescale_sum x t M (fun ht => h.max_real ht) m']
  · rw [hA', h.acc_eq, Finset.sum_union hd, hr, rescale_weighted x c t M (fun ht => h.max_real ht) m']

/-- **The quotient at the end.**  With at least one row, the weighted sum over the sum of exponentials is the sum
    of the softmax weights times the rows' weights. -/
theorem Carried.div_eq {x c : ρ → ℝ} {t : Finset ρ} {M S A : EReal} (h : Carried x c t M S A) (ht : t.Nonempty) :
    Ideal.div A S
      = ∑ r ∈ t, Ideal.div (Ideal.exp ((x r : EReal) - M)) (∑ r' ∈ t, Ideal.exp ((x r' : EReal) - M))
          * (c r : EReal) := by
  obtain ⟨m, rfl⟩ := h.max_real ht
  have hS : S = ((∑ r ∈ t, Real.exp (x r - m) : ℝ) : EReal) := by
    rw [h.sum_eq, Cert.LibERealCoe.coe_sum]
    exact Finset.sum_congr rfl fun r _ => exp_coe_sub _ _
  have hA : A = ((∑ r ∈ t, Real.exp (x r - m) * c r : ℝ) : EReal) := by
    rw [h.acc_eq, Cert.LibERealCoe.coe_sum]
    exact Finset.sum_congr rfl fun r _ => by rw [exp_coe_sub, EReal.coe_mul]
  have hpos : (0 : ℝ) < ∑ r ∈ t, Real.exp (x r - m) := Finset.sum_pos (fun r _ => Real.exp_pos _) ht
  rw [← h.sum_eq, hS, hA, Ideal.div_coe hpos.ne', ← EReal.coe_mul, Finset.sum_mul, Cert.LibERealCoe.coe_sum]
  refine Finset.sum_congr rfl fun r _ => ?_
  rw [Ideal.div_coe hpos.ne', exp_coe_sub, ← EReal.coe_mul, ← EReal.coe_mul]
  exact congrArg (fun z : ℝ => (z : EReal)) (by ring)

end Cert.KernelIdeal.Online

end
-- ==== Proof.TileMath.lean ====
/-
  Four key tiles in a row: the kernel's carried buffers are a one-pass softmax with weights.

  Fix a query row `l` and a column `e`.  The 2048 key rows are the rows of four tiles of 512, row `p` of tile `i` being
  key row `512 · i + p`.  The score of `l` against key row `r` is `∑ d, (q l d · wq d) · (key r d · wk d)`, a real number
  when every entry is real, and the weight of key row `r` is its entry `key r e`.  Each key tile folded into the carried
  buffers is one step of the one-pass softmax over the tile's 512 rows; after the four tiles the rows seen are all
  2048, and the result block's right half, the weighted sum over the sum of exponentials, is the softmax over all key
  rows applied to column `e` of the keys.
-/
import proofs.«165623_j12077448036716_2_alg».proof.Proof.TileMathA
import proofs.«165623_j12077448036716_2_alg».proof.Proof.TileMathB

noncomputable section

namespace Cert.KernelIdeal.Tile

open Cert.KernelIdeal Cert.KernelIdeal.Hand Cert.KernelIdeal.Online Idealize.ShloMosaic Idealize.ShloMosaic.ValueIdx

/-- The key rows of four tiles read as one matrix of 2048 rows: row `r` is row `r mod 512` of tile `r / 512`. -/
def keyRow (K : Fin 4 → Vec Ideal S1x512x1024 .f32) (r : Fin 2048) (e : Fin 1024) : EReal :=
  K ⟨r.val / 512, by omega⟩ (ix3 (0 : Fin 1) (⟨r.val % 512, Nat.mod_lt _ (by decide)⟩ : Fin 512) e)

/-- Row `p` of tile `i`, among the 2048 key rows. -/
def row (i : Fin 4) (p : Fin 512) : Fin 2048 := ⟨512 * i.val + p.val, by omega⟩

theorem row_injective (i : Fin 4) : Function.Injective (row i) := fun p p' h => by
  have h' : 512 * i.val + p.val = 512 * i.val + p'.val := congrArg Fin.val h
  exact Fin.ext (by omega)

/-- Key row `512 · i + p` is row `p` of tile `i`. -/
theorem keyRow_row (K : Fin 4 → Vec Ideal S1x512x1024 .f32) (i : Fin 4) (p : Fin 512) (e : Fin 1024) :
    keyRow K (row i p) e = K i (ix3 (0 : Fin 1) p e) := by
  unfold keyRow
  have h1 : (⟨(row i p).val / 512, by omega⟩ : Fin 4) = i :=
    Fin.ext (by show (512 * i.val + p.val) / 512 = i.val; omega)
  have h2 : (⟨(row i p).val % 512, Nat.mod_lt _ (by decide)⟩ : Fin 512) = p :=
    Fin.ext (by show (512 * i.val + p.val) % 512 = p.val; omega)
  rw [h1, h2]

/-- The rows of tile `i`. -/
def rows (i : Fin 4) : Finset (Fin 2048) := Finset.univ.image (row i)

theorem mem_rows {i : Fin 4} {r : Fin 2048} : r ∈ rows i ↔ r.val / 512 = i.val := by
  unfold rows
  rw [Finset.mem_image]
  constructor
  · rintro ⟨p, -, rfl⟩
    show (512 * i.val + p.val) / 512 = i.val
    omega
  · intro h
    refine ⟨⟨r.val % 512, Nat.mod_lt _ (by decide)⟩, Finset.mem_univ _, Fin.ext ?_⟩
    show 512 * i.val + r.val % 512 = r.val
    omega

theorem rows_nonempty (i : Fin 4) : (rows i).Nonempty := Finset.univ_nonempty.image _

/-- **One key tile is one step of the one-pass softmax** over the tile's rows: if the carried buffers of row `l` (at
    column `e`) are the triple of the key rows `t`, and the key tile's rows are the new rows `ρ p`, then the updated
    buffers are the triple of `t` and the new rows. -/
theorem carried_upd0 (k : Vec Ideal S1x512x1024 .f32) (wk : Vec Ideal S1x1024 .f32) (s : St Ideal) (l : Fin 512)
    (e : Fin 1024) (x c : Fin 2048 → ℝ) (t : Finset (Fin 2048)) (ρ : Fin 512 → Fin 2048) (hρ : Function.Injective ρ)
    (hx : ∀ p, tileScore s.qs k wk l p = (x (ρ p) : EReal)) (hc : ∀ p, k (ix3 (0 : Fin 1) p e) = (c (ρ p) : EReal))
    (hd : Disjoint t (Finset.univ.image ρ))
    (h : Carried x c t (s.mx (ix2 l (0 : Fin 1))) (s.sm (ix2 l (0 : Fin 1))) (s.acc (ix2 l e))) :
    Carried x c (t ∪ Finset.univ.image ρ) ((upd0 k wk s).mx (ix2 l (0 : Fin 1)))
      ((upd0 k wk s).sm (ix2 l (0 : Fin 1))) ((upd0 k wk s).acc (ix2 l e)) := by
  refine h.step (Finset.univ_nonempty.image ρ) hd ?_ ?_ ?_
  · rw [upd0_mx, Finset.sup_image]
    simp only [hx]
    rfl
  · rw [upd0_sm, Finset.sum_image hρ.injOn]
    simp only [hx]
  · rw [upd0_acc, Finset.sum_image hρ.injOn]
    simp only [hx, hc]

theorem rows_disjoint {i j : Fin 4} (h : i ≠ j) : Disjoint (rows i) (rows j) := by
  rw [Finset.disjoint_left]
  intro r h1 h2
  rw [mem_rows] at h1 h2
  exact h (Fin.ext (h1.symm.trans h2))

/-- The four tiles' rows are all the key rows. -/
theorem rows_cover : ∅ ∪ rows 0 ∪ rows 1 ∪ rows 2 ∪ rows 3 = (Finset.univ : Finset (Fin 2048)) := by
  refine Finset.eq_univ_iff_forall.2 fun r => ?_
  simp only [Finset.mem_union, mem_rows]
  have hr := r.isLt
  have h4 : r.val / 512 = 0 ∨ r.val / 512 = 1 ∨ r.val / 512 = 2 ∨ r.val / 512 = 3 := by omega
  rcases h4 with h | h | h | h
  · exact Or.inl (Or.inl (Or.inl (Or.inr h)))
  · exact Or.inl (Or.inl (Or.inr h))
  · exact Or.inl (Or.inr h)
  · exact Or.inr h

/-- **Four key tiles.**  With real entries everywhere, the result block's right half after the four key tiles is, at
    row `l` and column `e`, the softmax over all 2048 key rows of the scores of `l`, applied to column `e` of the keys. -/
theorem hi0_four_tiles (q : Vec Ideal S1x512x1024 .f32) (wq wk : Vec Ideal S1x1024 .f32)
    (K : Fin 4 → Vec Ideal S1x512x1024 .f32)
    (hq : ∀ i, ∃ x : ℝ, q i = (x : EReal)) (hwq : ∀ i, ∃ x : ℝ, wq i = (x : EReal))
    (hwk : ∀ i, ∃ x : ℝ, wk i = (x : EReal)) (hK : ∀ j i, ∃ x : ℝ, K j i = (x : EReal))
    (l : Fin 512) (e : Fin 1024) :
    hi0 (upd0 (K 3) wk (upd0 (K 2) wk (upd0 (K 1) wk (upd0 (K 0) wk (init0 q wq))))) (ix3 (0 : Fin 1) l e)
      = ∑ r : Fin 2048, Cert.Spec.softmax (fun r' => ∑ d : Fin 1024,
          (q (ix3 (0 : Fin 1) l d) * wq (ix2 (0 : Fin 1) d)) * (keyRow K r' d * wk (ix2 (0 : Fin 1) d))) r
          * keyRow K r e := by
  -- every score and every key entry is a real number
  have hsc : ∀ r : Fin 2048, ∃ y : ℝ, (∑ d : Fin 1024,
      (q (ix3 (0 : Fin 1) l d) * wq (ix2 (0 : Fin 1) d)) * (keyRow K r d * wk (ix2 (0 : Fin 1) d))) = (y : EReal) :=
    fun r => exists_real_sum _ _ fun d =>
      exists_real_mul (exists_real_mul (hq _) (hwq _)) (exists_real_mul (hK _ _) (hwk _))
  choose x hx using hsc
  have hkr : ∀ r : Fin 2048, ∃ y : ℝ, keyRow K r e = (y : EReal) := fun r => hK _ _
  choose c hc using hkr
  -- a tile's scores and key entries are those of its rows among the 2048
  have hqs : ∀ s : St Ideal, s.qs = (init0 q wq).qs → ∀ (i : Fin 4) (p : Fin 512),
      tileScore s.qs (K i) wk l p = (x (row i p) : EReal) := by
    intro s hs i p
    rw [← hx, hs]
    unfold tileScore
    refine Finset.sum_congr rfl fun d _ => ?_
    rw [init0_qs, keyRow_row]
  have hcs : ∀ (i : Fin 4) (p : Fin 512), K i (ix3 (0 : Fin 1) p e) = (c (row i p) : EReal) := fun i p => by
    rw [← hc, keyRow_row]
  -- the four steps
  have c0 : Carried x c ∅ ((init0 q wq).mx (ix2 l (0 : Fin 1))) ((init0 q wq).sm (ix2 l (0 : Fin 1)))
      ((init0 q wq).acc (ix2 l e)) := by
    rw [init0_mx, init0_sm, init0_acc]
    exact Carried.empty x c
  have d1 : Disjoint (∅ : Finset (Fin 2048)) (rows 0) := Finset.disjoint_empty_left _
  have d2 : Disjoint (∅ ∪ rows 0) (rows 1) := Finset.disjoint_union_left.2 ⟨Finset.disjoint_empty_left _, rows_disjoint (by decide)⟩
  have d3 : Disjoint (∅ ∪ rows 0 ∪ rows 1) (rows 2) :=
    Finset.disjoint_union_left.2 ⟨Finset.disjoint_union_left.2 ⟨Finset.disjoint_empty_left _, rows_disjoint (by decide)⟩, rows_disjoint (by decide)⟩
  have d4 : Disjoint (∅ ∪ rows 0 ∪ rows 1 ∪ rows 2) (rows 3) :=
    Finset.disjoint_union_left.2 ⟨Finset.disjoint_union_left.2 ⟨Finset.disjoint_union_left.2
      ⟨Finset.disjoint_empty_left _, rows_disjoint (by decide)⟩, rows_disjoint (by decide)⟩, rows_disjoint (by decide)⟩
  have c1 := carried_upd0 (K 0) wk (init0 q wq) l e x c _ (row 0) (row_injective 0) (hqs _ rfl 0) (hcs 0) d1 c0
  have c2 := carried_upd0 (K 1) wk (upd0 (K 0) wk (init0 q wq)) l e x c _ (row 1) (row_injective 1)
    (hqs _ rfl 1) (hcs 1) d2 c1
  have c3 := carried_upd0 (K 2) wk (upd0 (K 1) wk (upd0 (K 0) wk (init0 q wq))) l e x c _ (row 2) (row_injective 2)
    (hqs _ rfl 2) (hcs 2) d3 c2
  have c4 := carried_upd0 (K 3) wk (upd0 (K 2) wk (upd0 (K 1) wk (upd0 (K 0) wk (init0 q wq)))) l e x c _ (row 3)
    (row_injective 3) (hqs _ rfl 3) (hcs 3) d4 c3
  replace c4 : Carried x c (∅ ∪ rows 0 ∪ rows 1 ∪ rows 2 ∪ rows 3) _ _ _ := c4
  rw [rows_cover] at c4
  -- the quotient
  rw [hi0_apply, c4.div_eq Finset.univ_nonempty]
  refine Finset.sum_congr rfl fun r _ => ?_
  have hs : (fun r' : Fin 2048 => ∑ d : Fin 1024,
      (q (ix3 (0 : Fin 1) l d) * wq (ix2 (0 : Fin 1) d)) * (keyRow K r' d * wk (ix2 (0 : Fin 1) d)))
      = fun r' => (x r' : EReal) := funext hx
  rw [hs, hc]
  unfold Cert.Spec.softmax Cert.Spec.rowMax
  rw [c4.max_eq]
  rfl

end Cert.KernelIdeal.Tile

end
-- ==== Proof.KI_Value0.lean ====
/-
  Launch 0: what its result array holds.  Along the four key tiles of one row tile the carried buffers go through
  the reset and four updates; at the last one the written-back block is the query tile beside the quotient of the
  weighted sum by the sum of exponentials, which — the inputs being real numbers — is the softmax-weighted average
  of the key rows: the block of the specification.  The written-back blocks tile the array.
-/
import proofs.«165623_j12077448036716_2_alg».proof.Proof.KI_Entry
import proofs.«165623_j12077448036716_2_alg».proof.Proof.KI_Pieces0
import proofs.«165623_j12077448036716_2_alg».proof.Proof.KI_Blocks0
import proofs.«165623_j12077448036716_2_alg».proof.Proof.TileMath

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Tile

section Chain

variable (V : (c : Dev nD) → (b : Ref sig .tc) → Buf (Elt Ideal) ((c : Thread nD τ).loc b))

/-- One step of the recursion at a last key tile, -/
theorem outs0_succ_C (c : Dev nD) (n : ℕ) (hn : n + 1 < cfg0.N) (h0 : ¬(n + 1) % 4 = 0) (h3 : (n + 1) % 4 = 3) :
    outsAt0 V c (n + 1) hn = (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcondF0 ⟨n + 1, hn⟩).mp h)) ((hcondL0 ⟨n + 1, hn⟩).mpr h3) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2,
      sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcondF0 ⟨n + 1, hn⟩).mp h)) ((hcondL0 ⟨n + 1, hn⟩).mpr h3) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2) :=
  (dif_neg h0).trans ((dif_pos h3).trans rfl)
/-- at a middle one, -/
theorem outs0_succ_B (c : Dev nD) (n : ℕ) (hn : n + 1 < cfg0.N) (h0 : ¬(n + 1) % 4 = 0) (h3 : ¬(n + 1) % 4 = 3) :
    outsAt0 V c (n + 1) hn = (VO0.read (Elt Ideal) VO0.junk, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcondF0 ⟨n + 1, hn⟩).mp h)) (fun h => h3 ((hcondL0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2) :=
  (dif_neg h0).trans ((dif_neg h3).trans rfl)

/-- The carried buffers after a first key tile: the reset, then that tile folded in. -/
theorem st0_first (c : Dev nD) (n : ℕ) (hn : n < cfg0.N) (h0 : n % 4 = 0) :
    untup (outsAt0 V c n hn).2 = upd0 (iblk0 V c 2 ⟨n, hn⟩) (iblk0 V c 3 ⟨n, hn⟩) (init0 (iblk0 V c 0 ⟨n, hn⟩) (iblk0 V c 1 ⟨n, hn⟩)) := by
  rw [outsAt0_A V c ⟨n, hn⟩ h0]
  dsimp only
  rw [sout0_A_eq]
  rfl
/-- After a middle key tile: that tile folded into what the point before left. -/
theorem st0_mid (c : Dev nD) (n : ℕ) (hn : n + 1 < cfg0.N) (h0 : ¬(n + 1) % 4 = 0) (h3 : ¬(n + 1) % 4 = 3) :
    untup (outsAt0 V c (n + 1) hn).2 = upd0 (iblk0 V c 2 ⟨n + 1, hn⟩) (iblk0 V c 3 ⟨n + 1, hn⟩) (untup (outsAt0 V c n (Nat.lt_of_succ_lt hn)).2) := by
  rw [outs0_succ_B V c n hn h0 h3]
  dsimp only
  rw [sout0_B_eq]
  rfl
/-- The result block at a last key tile, entry by entry. -/
theorem blk0_last (c : Dev nD) (n : ℕ) (hn : n + 1 < cfg0.N) (h0 : ¬(n + 1) % 4 = 0) (h3 : (n + 1) % 4 = 3) (l : Fin 512) (j : Fin 2048) :
    (outsAt0 V c (n + 1) hn).1 (ix3 (0 : Fin 1) l j)
      = if h : j.val < 1024 then lo0 (iblk0 V c 0 ⟨n + 1, hn⟩) (ix3 (0 : Fin 1) l ⟨j.val, h⟩)
        else hi0 (upd0 (iblk0 V c 2 ⟨n + 1, hn⟩) (iblk0 V c 3 ⟨n + 1, hn⟩) (untup (outsAt0 V c n (Nat.lt_of_succ_lt hn)).2)) (ix3 (0 : Fin 1) l ⟨j.val - 1024, by omega⟩) := by
  rw [outs0_succ_C V c n hn h0 h3]
  dsimp only
  exact out0_C_apply _ _ _ _ _ _ _ _ _ _ _ _ _ _ _ _ _ _ _ _ _ _ _ _ _ _ _ l j

/-- The four key tiles of a row tile composed: the result block at the last one. -/
theorem blk0_four (c : Dev nD) (n : ℕ) (hn : n + 3 < cfg0.N) (h0 : n % 4 = 0) (l : Fin 512) (j : Fin 2048) :
    (outsAt0 V c (n + 3) hn).1 (ix3 (0 : Fin 1) l j)
      = if h : j.val < 1024 then lo0 (iblk0 V c 0 ⟨n + 3, hn⟩) (ix3 (0 : Fin 1) l ⟨j.val, h⟩)
        else hi0 (upd0 (iblk0 V c 2 ⟨n + 3, hn⟩) (iblk0 V c 3 ⟨n + 3, hn⟩)
              (upd0 (iblk0 V c 2 ⟨n + 2, by omega⟩) (iblk0 V c 3 ⟨n + 2, by omega⟩)
                (upd0 (iblk0 V c 2 ⟨n + 1, by omega⟩) (iblk0 V c 3 ⟨n + 1, by omega⟩)
                  (upd0 (iblk0 V c 2 ⟨n, by omega⟩) (iblk0 V c 3 ⟨n, by omega⟩)
                    (init0 (iblk0 V c 0 ⟨n, by omega⟩) (iblk0 V c 1 ⟨n, by omega⟩))))))
            (ix3 (0 : Fin 1) l ⟨j.val - 1024, by omega⟩) := by
  rw [blk0_last V c (n + 2) hn (by omega) (by omega) l j,
    st0_mid V c (n + 1) (by omega) (by omega) (by omega), st0_mid V c n (by omega) (by omega) (by omega), st0_first V c n (by omega) h0]

end Chain

/-! ## Against the specification -/

section Final

variable (m : (ℓ : Loc nD τ sig) → Buf (Elt Ideal) ℓ) (ρ : Dev nD → PrngReg)

/-- The specification's result for this launch, as the result array's contents. -/
def G0 (c : Dev nD) : Buf (Elt Ideal) ((cfg0.win 4).arr.view.loc (c : Thread nD τ)) :=
  Cert.Spec.asOut (Cert.Spec.outA (Cert.Spec.arrOf (m ((c : Thread nD τ).loc main_arg0))) (Cert.Spec.arrOf (m ((c : Thread nD τ).loc main_arg1)))
    (Cert.Spec.rowOf (m ((c : Thread nD τ).loc main_arg2))) (Cert.Spec.rowOf (m ((c : Thread nD τ).loc main_arg3))))

variable (hfin : ∀ c : Dev nD, (∀ i, ∃ x : ℝ, m ((c : Thread nD τ).loc main_arg0) i = (x : EReal)) ∧ (∀ i, ∃ x : ℝ, m ((c : Thread nD τ).loc main_arg1) i = (x : EReal))
  ∧ (∀ i, ∃ x : ℝ, m ((c : Thread nD τ).loc main_arg2) i = (x : EReal)) ∧ (∀ i, ∃ x : ℝ, m ((c : Thread nD τ).loc main_arg3) i = (x : EReal)))

include hfin in
/-- What a last key tile writes back is the specification's block. -/
theorem flushed0_eq (c : Dev nD) (t : Fin cfg0.N) (hf : (cfg0.win 4).flush t = true) :
    (dat0 (V1 m ρ) c).flushed 4 t = ((cfg0.win 4).blk t).view.read (Elt Ideal) (G0 m c) := by
  have h3 : t.val % 4 = 3 := (flush0_4 t).mp hf
  have hN : cfg0.N = 128 := N_0
  obtain ⟨n, hn, rfl⟩ : ∃ (n : ℕ) (hn : n + 3 < cfg0.N), t = ⟨n + 3, hn⟩ := ⟨t.val - 3, by have := t.isLt; omega, Fin.ext (by simp only []; omega)⟩
  have h0 : n % 4 = 0 := by simp only [] at h3; omega
  funext y
  obtain ⟨u, l, j, rfl⟩ : ∃ (u : Fin 1) (l : Fin 512) (j : Fin 2048), y = ix3 u l j := ⟨y 0, y 1, y 2, eq_ix3 y⟩
  obtain rfl : u = 0 := Subsingleton.elim _ _
  show (cfg0.win 4).cut (grid0.coords ⟨n + 3, hn⟩) ((dat0 (V1 m ρ) c).after 4 ⟨n + 3, hn⟩) (ix3 (0 : Fin 1) l j) = _
  rw [after0_4]
  refine (blk0_four (V1 m ρ) c n hn h0 l j).trans ?_
  rw [read_out0]
  show _ = Cert.Spec.outA (Cert.Spec.arrOf (m ((c : Thread nD τ).loc main_arg0))) (Cert.Spec.arrOf (m ((c : Thread nD τ).loc main_arg1))) (Cert.Spec.rowOf (m ((c : Thread nD τ).loc main_arg2))) (Cert.Spec.rowOf (m ((c : Thread nD τ).loc main_arg3))) (tB0 ⟨n + 3, hn⟩) (tRow0 ⟨n + 3, hn⟩ l) j
  unfold Cert.Spec.outA
  by_cases hj : j.val < 1024
  · rw [dif_pos hj, dif_pos hj]
    rw [lo0_apply, blk0_q, V1_arg0]
    rfl
  · rw [dif_neg hj, dif_neg hj]
    rw [blk0_wk (V1 m ρ) c ⟨n + 3, hn⟩, blk0_wk (V1 m ρ) c ⟨n + 2, by omega⟩, blk0_wk (V1 m ρ) c ⟨n + 1, by omega⟩,
      blk0_wk (V1 m ρ) c ⟨n, by omega⟩, blk0_wq (V1 m ρ) c ⟨n, by omega⟩]
    have hB : ∀ (k : ℕ) (hk : n + k < cfg0.N), k < 4 → tB0 ⟨n + k, hk⟩ = tB0 ⟨n + 3, hn⟩ := fun k hk h4 =>
      Fin.ext (by rw [tB0_val, tB0_val]; simp only []; omega)
    have hqe : ∀ d : Fin 1024, (iblk0 (V1 m ρ) c 0 ⟨n, by omega⟩ : Vec Ideal S1x512x1024 .f32) (ix3 (0 : Fin 1) l d) = (Cert.Spec.arrOf (m ((c : Thread nD τ).loc main_arg0))) (tB0 ⟨n + 3, hn⟩) (tRow0 ⟨n + 3, hn⟩ l) d := fun d => by
      rw [blk0_q, V1_arg0, show tB0 (⟨n, by omega⟩ : Fin cfg0.N) = tB0 ⟨n + 3, hn⟩ from hB 0 (by omega) (by omega),
        show tRow0 (⟨n, by omega⟩ : Fin cfg0.N) l = tRow0 ⟨n + 3, hn⟩ l from Fin.ext (by rw [tRow0_val, tRow0_val]; simp only []; omega)]
      rfl
    have hwqe : ∀ d : Fin 1024, (V1 m ρ c main_v0 : S1x1024.Idx → Elt Ideal .f32) (ix2 (0 : Fin 1) d) = (Cert.Spec.rowOf (m ((c : Thread nD τ).loc main_arg2))) d := fun d => V1_v0_apply m ρ c d
    have hwke : ∀ d : Fin 1024, (V1 m ρ c main_v1 : S1x1024.Idx → Elt Ideal .f32) (ix2 (0 : Fin 1) d) = (Cert.Spec.rowOf (m ((c : Thread nD τ).loc main_arg3))) d := fun d => V1_v1_apply m ρ c d
    have hke : ∀ (r : Fin 2048) (d : Fin 1024), keyRow (fun k : Fin 4 => (iblk0 (V1 m ρ) c 2 ⟨n + k.val, by have := k.isLt; omega⟩ : Vec Ideal S1x512x1024 .f32)) r d
        = (Cert.Spec.arrOf (m ((c : Thread nD τ).loc main_arg1))) (tB0 ⟨n + 3, hn⟩) r d := fun r d => by
      have hr := r.isLt
      unfold keyRow
      dsimp only
      rw [blk0_k, V1_arg1, show tB0 (⟨n + r.val / 512, by omega⟩ : Fin cfg0.N) = tB0 ⟨n + 3, hn⟩ from hB (r.val / 512) (by omega) (by omega),
        show tKey0 (⟨n + r.val / 512, by omega⟩ : Fin cfg0.N) ⟨r.val % 512, Nat.mod_lt _ (by decide)⟩ = r from Fin.ext (by rw [tKey0_val]; simp only []; omega)]
      rfl
    refine (hi0_four_tiles (iblk0 (V1 m ρ) c 0 ⟨n, by omega⟩) (V1 m ρ c main_v0) (V1 m ρ c main_v1)
      (fun k : Fin 4 => (iblk0 (V1 m ρ) c 2 ⟨n + k.val, by have := k.isLt; omega⟩ : Vec Ideal S1x512x1024 .f32)) ?_ ?_ ?_ ?_ l ⟨j.val - 1024, by omega⟩).trans ?_
    · intro i
      obtain ⟨a, p, d, rfl⟩ : ∃ (a : Fin 1) (p : Fin 512) (d : Fin 1024), i = ix3 a p d := ⟨i 0, i 1, i 2, eq_ix3 i⟩
      obtain rfl : a = 0 := Subsingleton.elim _ _
      rw [blk0_q, V1_arg0]; exact (hfin c).1 _
    · intro i
      obtain ⟨a, d, rfl⟩ : ∃ (a : Fin 1) (d : Fin 1024), i = ix2 a d := ⟨i 0, i 1, eq_ix2 i⟩
      obtain rfl : a = 0 := Subsingleton.elim _ _
      rw [hwqe]; exact (hfin c).2.2.1 _
    · intro i
      obtain ⟨a, d, rfl⟩ : ∃ (a : Fin 1) (d : Fin 1024), i = ix2 a d := ⟨i 0, i 1, eq_ix2 i⟩
      obtain rfl : a = 0 := Subsingleton.elim _ _
      rw [hwke]; exact (hfin c).2.2.2 _
    · intro k i
      obtain ⟨a, p, d, rfl⟩ : ∃ (a : Fin 1) (p : Fin 512) (d : Fin 1024), i = ix3 a p d := ⟨i 0, i 1, i 2, eq_ix3 i⟩
      obtain rfl : a = 0 := Subsingleton.elim _ _
      rw [blk0_k, V1_arg1]; exact (hfin c).2.1 _
    · simp only [hqe, hwqe, hwke, hke]
      unfold Cert.Spec.ctxA Cert.Spec.score
      rfl

include hfin in
/-- The written-back blocks tile the result array: it ends holding the specification's result. -/
theorem final0 (c : Dev nD) : (dat0 (V1 m ρ) c).arrAt 4 cfg0.N = G0 m c :=
  (dat0 (V1 m ρ) c).arrAt_eq_of_cover 4 (G0 m c) (fun t hf => flushed0_eq m ρ hfin c t hf) (cover_out0 c)

end Final

end Cert.KernelIdeal.Hand

end
-- ==== Proof.KI_Pieces1.lean ====
/-
  Launch 1: what each run of the body leaves in the carried buffers and in the result block, as the step
  functions of `Step.lean`.

  At the first key tile of a row tile three of the four carried buffers are stored whole twice — reset, then updated —
  and the later store wins; the loads in between read the reset values back, and the fourth buffer (the weighted
  query tile) is stored once. So the four end at `upd1 k wk (init1 q wq)`. At a later key tile each of the first
  three is stored whole once, over what the tile before left, and the weighted query tile is only read:
  `upd1 k wk s`. At the last key tile the result block is stored as two halves side by side along the last axis:
  the columns below 1024 hold the query tile, the others the weighted sum over the sum of exponentials, both read
  from the buffers just updated.
-/
import proofs.«165623_j12077448036716_2_alg».proof.Proof.KI_Frame1
import proofs.«165623_j12077448036716_2_alg».proof.Proof.Step
import proofs.«165623_j12077448036716_2_alg».proof.Proof.KI_Pieces0
import Idealize.ShloMosaic.Lib.Pipeline.Value
import Idealize.ShloMosaic.Lib.WritesUnit
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

set_option maxHeartbeats 4000000 in
/-- The first key tile: reset, then one update. -/
theorem sout1_A_eq (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : condF1 i) (hcL : ¬condL1 i)
    (x0 : Vec F S1x512x1024 .f32) (x1 : Vec F S1x1024 .f32) (x2 : Vec F S1x512x1024 .f32) (x3 : Vec F S1x1024 .f32) :
    sout1_A c i arg3 harg3 arg4 harg4 arg5 harg5 arg6 harg6 arg7 harg7 arg8 harg8 arg9 harg9 arg10 harg10 arg11 harg11 hcF hcL x0 x1 x2 x3 = tup (upd1 x2 x3 (init1 x0 x1)) := by
  unfold sout1_A
  refine Prod.ext ?_ (Prod.ext ?_ (Prod.ext ?_ ?_))
  · dsimp only
    rw [View.read_writes_eq_canon _ _ _ (scover1_A_0 c i arg3 harg3 arg4 harg4 arg5 harg5 arg6 harg6 arg7 harg7 arg8 harg8 arg9 harg9 arg10 harg10 arg11 harg11 hcF hcL x0 x1 x2 x3)]
    unfold kernelRun1_A
    dsimp only
    sl_unfold_words
    rw [View.canon_cons_unit_zero (S := S512x1) unitOff2_zero]
    simp only [View.readAt_eq_ld, harg3.read_unread, harg4.read_unread, harg5.read_unread, harg6.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
    rfl
  · dsimp only
    rw [View.read_writes_eq_canon _ _ _ (scover1_A_1 c i arg3 harg3 arg4 harg4 arg5 harg5 arg6 harg6 arg7 harg7 arg8 harg8 arg9 harg9 arg10 harg10 arg11 harg11 hcF hcL x0 x1 x2 x3)]
    unfold kernelRun1_A
    dsimp only
    sl_unfold_words
    rw [View.canon_cons_unit_zero (S := S512x1) unitOff2_zero]
    simp only [View.readAt_eq_ld, harg3.read_unread, harg4.read_unread, harg5.read_unread, harg6.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
    rfl
  · dsimp only
    rw [View.read_writes_eq_canon _ _ _ (scover1_A_2 c i arg3 harg3 arg4 harg4 arg5 harg5 arg6 harg6 arg7 harg7 arg8 harg8 arg9 harg9 arg10 harg10 arg11 harg11 hcF hcL x0 x1 x2 x3)]
    unfold kernelRun1_A
    dsimp only
    sl_unfold_words
    rw [View.canon_cons_unit_zero (S := S512x1024) unitOff2_zero]
    simp only [View.readAt_eq_ld, harg3.read_unread, harg4.read_unread, harg5.read_unread, harg6.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
    rfl
  · dsimp only
    rw [View.read_writes_eq_canon _ _ _ (scover1_A_3 c i arg3 harg3 arg4 harg4 arg5 harg5 arg6 harg6 arg7 harg7 arg8 harg8 arg9 harg9 arg10 harg10 arg11 harg11 hcF hcL x0 x1 x2 x3)]
    unfold kernelRun1_A
    dsimp only
    sl_unfold_words
    rw [View.canon_unit_zero (S := S512x1024) unitOff2_zero]
    simp only [View.readAt_eq_ld, harg3.read_unread, harg4.read_unread, harg5.read_unread, harg6.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
    rfl

set_option maxHeartbeats 4000000 in
/-- A middle key tile: one update of what the tile before left. -/
theorem sout1_B_eq (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : ¬condL1 i)
    (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) :
    sout1_B c i arg3 harg3 arg4 harg4 arg5 harg5 arg6 harg6 arg7 harg7 arg8 harg8 arg9 harg9 arg10 harg10 arg11 harg11 hcF hcL x0 x1 x2 x3 xs = tup (upd1 x2 x3 (untup xs)) := by
  unfold sout1_B
  refine Prod.ext ?_ (Prod.ext ?_ (Prod.ext ?_ ?_))
  · dsimp only
    rw [View.read_writes_eq_canon _ _ _ (scover1_B_0 c i arg3 harg3 arg4 harg4 arg5 harg5 arg6 harg6 arg7 harg7 arg8 harg8 arg9 harg9 arg10 harg10 arg11 harg11 hcF hcL x0 x1 x2 x3 xs)]
    unfold kernelRun1_B
    dsimp only
    sl_unfold_words
    rw [View.canon_unit_zero (S := S512x1) unitOff2_zero]
    simp only [View.readAt_eq_ld, harg3.read_unread, harg4.read_unread, harg5.read_unread, harg6.read_unread, harg8.read_unread, harg9.read_unread, harg10.read_unread, harg11.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
    rfl
  · dsimp only
    rw [View.read_writes_eq_canon _ _ _ (scover1_B_1 c i arg3 harg3 arg4 harg4 arg5 harg5 arg6 harg6 arg7 harg7 arg8 harg8 arg9 harg9 arg10 harg10 arg11 harg11 hcF hcL x0 x1 x2 x3 xs)]
    unfold kernelRun1_B
    dsimp only
    sl_unfold_words
    rw [View.canon_unit_zero (S := S512x1) unitOff2_zero]
    simp only [View.readAt_eq_ld, harg3.read_unread, harg4.read_unread, harg5.read_unread, harg6.read_unread, harg8.read_unread, harg9.read_unread, harg10.read_unread, harg11.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
    rfl
  · dsimp only
    rw [View.read_writes_eq_canon _ _ _ (scover1_B_2 c i arg3 harg3 arg4 harg4 arg5 harg5 arg6 harg6 arg7 harg7 arg8 harg8 arg9 harg9 arg10 harg10 arg11 harg11 hcF hcL x0 x1 x2 x3 xs)]
    unfold kernelRun1_B
    dsimp only
    sl_unfold_words
    rw [View.canon_unit_zero (S := S512x1024) unitOff2_zero]
    simp only [View.readAt_eq_ld, harg3.read_unread, harg4.read_unread, harg5.read_unread, harg6.read_unread, harg8.read_unread, harg9.read_unread, harg10.read_unread, harg11.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
    rfl
  · rfl

set_option maxHeartbeats 4000000 in
/-- The last key tile: the same update. -/
theorem sout1_C_eq (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : condL1 i)
    (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16) :
    sout1_C c i arg3 harg3 arg4 harg4 arg5 harg5 arg6 harg6 arg7 harg7 arg8 harg8 arg9 harg9 arg10 harg10 arg11 harg11 hcF hcL x0 x1 x2 x3 xs = tup (upd1 x2 x3 (untup xs)) := by
  unfold sout1_C
  refine Prod.ext ?_ (Prod.ext ?_ (Prod.ext ?_ ?_))
  · dsimp only
    rw [View.read_writes_eq_canon _ _ _ (scover1_C_0 c i arg3 harg3 arg4 harg4 arg5 harg5 arg6 harg6 arg7 harg7 arg8 harg8 arg9 harg9 arg10 harg10 arg11 harg11 hcF hcL x0 x1 x2 x3 xs)]
    unfold kernelRun1_C
    dsimp only
    sl_unfold_words
    rw [View.canon_unit_zero (S := S512x1) unitOff2_zero]
    simp only [View.readAt_eq_ld, harg3.read_unread, harg4.read_unread, harg5.read_unread, harg6.read_unread, harg8.read_unread, harg9.read_unread, harg10.read_unread, harg11.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
    rfl
  · dsimp only
    rw [View.read_writes_eq_canon _ _ _ (scover1_C_1 c i arg3 harg3 arg4 harg4 arg5 harg5 arg6 harg6 arg7 harg7 arg8 harg8 arg9 harg9 arg10 harg10 arg11 harg11 hcF hcL x0 x1 x2 x3 xs)]
    unfold kernelRun1_C
    dsimp only
    sl_unfold_words
    rw [View.canon_unit_zero (S := S512x1) unitOff2_zero]
    simp only [View.readAt_eq_ld, harg3.read_unread, harg4.read_unread, harg5.read_unread, harg6.read_unread, harg8.read_unread, harg9.read_unread, harg10.read_unread, harg11.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
    rfl
  · dsimp only
    rw [View.read_writes_eq_canon _ _ _ (scover1_C_2 c i arg3 harg3 arg4 harg4 arg5 harg5 arg6 harg6 arg7 harg7 arg8 harg8 arg9 harg9 arg10 harg10 arg11 harg11 hcF hcL x0 x1 x2 x3 xs)]
    unfold kernelRun1_C
    dsimp only
    sl_unfold_words
    rw [View.canon_unit_zero (S := S512x1024) unitOff2_zero]
    simp only [View.readAt_eq_ld, harg3.read_unread, harg4.read_unread, harg5.read_unread, harg6.read_unread, harg8.read_unread, harg9.read_unread, harg10.read_unread, harg11.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
    rfl
  · rfl

set_option maxHeartbeats 4000000 in
/-- The result block at the last key tile, column by column: the query tile below column 1024, the weighted sum over
    the sum of exponentials from there on. -/
theorem out1_C_apply (c : Dev nD) (i : grid1.Coords) (arg3 : Memref sig .tc .vmem S1x512x1024 .f32) (harg3 : arg3.IsWhole) (arg4 : Memref sig .tc .vmem S1x1024 .f32) (harg4 : arg4.IsWhole) (arg5 : Memref sig .tc .vmem S1x512x1024 .f32) (harg5 : arg5.IsWhole) (arg6 : Memref sig .tc .vmem S1x1024 .f32) (harg6 : arg6.IsWhole) (arg7 : Memref sig .tc .vmem S1x512x2048 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hcF : ¬condF1 i) (hcL : condL1 i)
    (x0 : Vec F S1x512x1024 .f32) (x1 : Vec F S1x1024 .f32) (x2 : Vec F S1x512x1024 .f32) (x3 : Vec F S1x1024 .f32) (xs : Vec F S512x1 .f32 × Vec F S512x1 .f32 × Vec F S512x1024 .f32 × Vec F S512x1024 .bf16)
    (l : Fin 512) (j : Fin 2048) :
    out1_C c i arg3 harg3 arg4 harg4 arg5 harg5 arg6 harg6 arg7 harg7 arg8 harg8 arg9 harg9 arg10 harg10 arg11 harg11 hcF hcL x0 x1 x2 x3 xs (ix3 (0 : Fin 1) l j)
      = if h : j.val < 1024 then lo1 x0 (ix3 (0 : Fin 1) l ⟨j.val, h⟩)
        else hi1 (upd1 x2 x3 (untup xs)) (ix3 (0 : Fin 1) l ⟨j.val - 1024, by omega⟩) := by
  unfold out1_C
  unfold kernelRun1_C
  dsimp only
  sl_unfold_words
  by_cases h : j.val < 1024
  · rw [dif_pos h]
    refine (View.read_writes_cons_unit_of_not_mem VO1 _ _ _ _ (ix3 (0 : Fin 1) l j) rfl (2 : Fin 3) (Or.inl ?_)).trans ?_
    · exact h
    · refine (View.read_writes_cons_unit_of_mem VO1 _ _ _ _ (ix3 (0 : Fin 1) l j) (ix3 (0 : Fin 1) l ⟨j.val, h⟩) rfl
        (fun a => by match a with
          | ⟨0, _⟩ => exact (Nat.zero_add _).symm
          | ⟨1, _⟩ => exact (Nat.zero_add _).symm
          | ⟨2, _⟩ => exact (Nat.zero_add _).symm)).trans ?_
      simp only [View.readAt_eq_ld, harg3.read_unread, harg4.read_unread, harg5.read_unread, harg6.read_unread, harg8.read_unread, harg9.read_unread, harg10.read_unread, harg11.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
      rfl
  · rw [dif_neg h]
    refine (View.read_writes_cons_unit_of_mem VO1 _ _ _ _ (ix3 (0 : Fin 1) l j) (ix3 (0 : Fin 1) l ⟨j.val - 1024, by omega⟩) rfl
        (fun a => by match a with
          | ⟨0, _⟩ => exact (Nat.zero_add _).symm
          | ⟨1, _⟩ => exact (Nat.zero_add _).symm
          | ⟨2, _⟩ => show j.val = 1024 + (j.val - 1024); omega)).trans ?_
    simp only [View.readAt_eq_ld, harg3.read_unread, harg4.read_unread, harg5.read_unread, harg6.read_unread, harg8.read_unread, harg9.read_unread, harg10.read_unread, harg11.read_unread, View.ld_unit_zero (S := S1x512x1024) unitOff3_zero, View.ld_unit_zero (S := S1x1024) unitOff2_zero, View.ld_unit_zero (S := S512x1) unitOff2_zero, View.ld_unit_zero (S := S512x1024) unitOff2_zero, View.readCov_unit_zero (S := S512x1024) _ unitOff2_zero, View.readCov_unit_zero (S := S512x1) _ unitOff2_zero]
    rfl

end Cert.KernelIdeal.Hand

end
-- ==== Proof.KI_Blocks1.lean ====
/-
  Launch 1: its windows' blocks read at coordinates.

  The 128 grid points are the points of the 8 × 4 × 4 grid in row-major order: point `t` is batch `t / 16`, query
  row tile `t / 4 mod 4`, key tile `t mod 4`.  A window's block at a point sits at block index × block size on every
  axis, so entry `(0, l, e)` of the query block is entry `(t / 16, (t / 4 mod 4) · 512 + l, e)` of the second operand,
  of the key block entry `(t / 16, (t mod 4) · 512 + l, e)` of the first, and the two weight rows are whole arrays.
  The result's blocks `[1, 512, 2048]` sit like the query's; written back at the last key tile of each row tile, they
  cover the result: entry `(n, r, j)` lies in the block of the point `16 · n + 4 · (r / 512) + 3`.
-/
import proofs.«165623_j12077448036716_2_alg».proof.Proof.KI_Frame1
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]
variable (V : (c : Dev nD) → (b : Ref sig .tc) → Buf (Elt F) ((c : Thread nD τ).loc b))

/-! ## The block indices at a point, decided once over the grid -/

theorem idx1_0 : ∀ t : Fin cfg1.N, win1_0.index t 0 = t.val / 16 ∧ win1_0.index t 1 = t.val / 4 % 4 ∧ win1_0.index t 2 = 0 :=
  (by decide +kernel : ∀ t : Fin grid1.N, win1_0.index t 0 = t.val / 16 ∧ win1_0.index t 1 = t.val / 4 % 4 ∧ win1_0.index t 2 = 0)
theorem idx1_1 : ∀ t : Fin cfg1.N, win1_1.index t 0 = 0 ∧ win1_1.index t 1 = 0 :=
  (by decide +kernel : ∀ t : Fin grid1.N, win1_1.index t 0 = 0 ∧ win1_1.index t 1 = 0)
theorem idx1_2 : ∀ t : Fin cfg1.N, win1_2.index t 0 = t.val / 16 ∧ win1_2.index t 1 = t.val % 4 ∧ win1_2.index t 2 = 0 :=
  (by decide +kernel : ∀ t : Fin grid1.N, win1_2.index t 0 = t.val / 16 ∧ win1_2.index t 1 = t.val % 4 ∧ win1_2.index t 2 = 0)
theorem idx1_3 : ∀ t : Fin cfg1.N, win1_3.index t 0 = 0 ∧ win1_3.index t 1 = 0 :=
  (by decide +kernel : ∀ t : Fin grid1.N, win1_3.index t 0 = 0 ∧ win1_3.index t 1 = 0)
theorem idx1_4 : ∀ t : Fin cfg1.N, win1_4.index t 0 = t.val / 16 ∧ win1_4.index t 1 = t.val / 4 % 4 ∧ win1_4.index t 2 = 0 :=
  (by decide +kernel : ∀ t : Fin grid1.N, win1_4.index t 0 = t.val / 16 ∧ win1_4.index t 1 = t.val / 4 % 4 ∧ win1_4.index t 2 = 0)

/-! ## A point's coordinates in the arrays -/

/-- The batch of point `t`. -/
def tB1 (t : Fin cfg1.N) : Fin 8 := ⟨t.val / 16, by have := t.isLt; have : cfg1.N = 128 := N_1; omega⟩
/-- Row `l` of point `t`'s query tile, among the 2048 rows. -/
def tRow1 (t : Fin cfg1.N) (l : Fin 512) : Fin 2048 := ⟨t.val / 4 % 4 * 512 + l.val, by omega⟩
/-- Row `l` of point `t`'s key tile, among the 2048 rows. -/
def tKey1 (t : Fin cfg1.N) (l : Fin 512) : Fin 2048 := ⟨t.val % 4 * 512 + l.val, by omega⟩

theorem tB1_val (t : Fin cfg1.N) : (tB1 t).val = t.val / 16 := rfl
theorem tRow1_val (t : Fin cfg1.N) (l : Fin 512) : (tRow1 t l).val = t.val / 4 % 4 * 512 + l.val := rfl
theorem tKey1_val (t : Fin cfg1.N) (l : Fin 512) : (tKey1 t l).val = t.val % 4 * 512 + l.val := rfl

/-! ## The input blocks -/

/-- The query block at `(0, l, e)`. -/
theorem blk1_q (c : Dev nD) (t : Fin cfg1.N) (l : Fin 512) (e : Fin 1024) :
    iblk1 V c 0 t (ix3 (0 : Fin 1) l e)
      = (V c main_arg1 : S8x2048x1024.Idx → Elt F .f32) (ix3 (tB1 t) (tRow1 t l) e) := by
  obtain ⟨e0, e1, e2⟩ := idx1_0 t
  unfold iblk1
  rw [View.read_apply]
  show V c main_arg1 _ = V c main_arg1 _
  congr 1
  funext a
  apply Fin.ext
  match a with
  | ⟨0, _⟩ => show win1_0.index t 0 * 1 + 1 * 0 = t.val / 16; rw [e0]; omega
  | ⟨1, _⟩ => show win1_0.index t 1 * 512 + 1 * l.val = t.val / 4 % 4 * 512 + l.val; rw [e1]; omega
  | ⟨2, _⟩ => show win1_0.index t 2 * 1024 + 1 * e.val = e.val; rw [e2]; omega

/-- The key block at `(0, l, e)`. -/
theorem blk1_k (c : Dev nD) (t : Fin cfg1.N) (l : Fin 512) (e : Fin 1024) :
    iblk1 V c 2 t (ix3 (0 : Fin 1) l e)
      = (V c main_arg0 : S8x2048x1024.Idx → Elt F .f32) (ix3 (tB1 t) (tKey1 t l) e) := by
  obtain ⟨e0, e1, e2⟩ := idx1_2 t
  unfold iblk1
  rw [View.read_apply]
  show V c main_arg0 _ = V c main_arg0 _
  congr 1
  funext a
  apply Fin.ext
  match a with
  | ⟨0, _⟩ => show win1_2.index t 0 * 1 + 1 * 0 = t.val / 16; rw [e0]; omega
  | ⟨1, _⟩ => show win1_2.index t 1 * 512 + 1 * l.val = t.val % 4 * 512 + l.val; rw [e1]; omega
  | ⟨2, _⟩ => show win1_2.index t 2 * 1024 + 1 * e.val = e.val; rw [e2]; omega

/-- The query's weight row is its whole array. -/
theorem blk1_wq (c : Dev nD) (t : Fin cfg1.N) : (iblk1 V c 1 t : S1x1024.Idx → Elt F .f32) = V c main_v1 := by
  obtain ⟨e0, e1⟩ := idx1_1 t
  funext j
  unfold iblk1
  rw [View.read_apply]
  show V c main_v1 _ = V c main_v1 j
  congr 1
  funext a
  apply Fin.ext
  match a with
  | ⟨0, _⟩ => show win1_1.index t 0 * 1 + 1 * (j 0).val = (j 0).val; rw [e0]; omega
  | ⟨1, _⟩ => show win1_1.index t 1 * 1024 + 1 * (j 1).val = (j 1).val; rw [e1]; omega

/-- The key's weight row is its whole array. -/
theorem blk1_wk (c : Dev nD) (t : Fin cfg1.N) : (iblk1 V c 3 t : S1x1024.Idx → Elt F .f32) = V c main_v0 := by
  obtain ⟨e0, e1⟩ := idx1_3 t
  funext j
  unfold iblk1
  rw [View.read_apply]
  show V c main_v0 _ = V c main_v0 j
  congr 1
  funext a
  apply Fin.ext
  match a with
  | ⟨0, _⟩ => show win1_3.index t 0 * 1 + 1 * (j 0).val = (j 0).val; rw [e0]; omega
  | ⟨1, _⟩ => show win1_3.index t 1 * 1024 + 1 * (j 1).val = (j 1).val; rw [e1]; omega

/-- The query tile does not depend on the key tile. -/
theorem blk1_q_congr (c : Dev nD) (t t' : Fin cfg1.N) (h : t.val / 4 = t'.val / 4) :
    (iblk1 V c 0 t : Vec F S1x512x1024 .f32) = iblk1 V c 0 t' := by
  funext j
  obtain ⟨u, l, e, rfl⟩ : ∃ (u : Fin 1) (l : Fin 512) (e : Fin 1024), j = ix3 u l e := ⟨j 0, j 1, j 2, eq_ix3 j⟩
  obtain rfl : u = 0 := Subsingleton.elim _ _
  rw [blk1_q, blk1_q]
  have hB : tB1 t = tB1 t' := Fin.ext (by show t.val / 16 = t'.val / 16; omega)
  have hR : tRow1 t l = tRow1 t' l := Fin.ext (by show t.val / 4 % 4 * 512 + l.val = t'.val / 4 % 4 * 512 + l.val; rw [h])
  rw [hB, hR]

/-! ## The result's blocks -/

/-- A result block read through its rectangle, at `(0, l, j)`. -/
theorem read_out1 (c : Dev nD) (t : Fin cfg1.N) (G : Buf (Elt F) ((cfg1.win 4).arr.view.loc (c : Thread nD τ)))
    (l : Fin 512) (j : Fin 2048) :
    ((cfg1.win 4).blk t).view.read (Elt F) G (ix3 (0 : Fin 1) l j)
      = (G : S8x2048x2048.Idx → Elt F .f32) (ix3 (tB1 t) (tRow1 t l) j) := by
  obtain ⟨e0, e1, e2⟩ := idx1_4 t
  rw [View.read_apply]
  show G _ = G _
  congr 1
  funext a
  apply Fin.ext
  match a with
  | ⟨0, _⟩ => show win1_4.index t 0 * 1 + 1 * 0 = t.val / 16; rw [e0]; omega
  | ⟨1, _⟩ => show win1_4.index t 1 * 512 + 1 * l.val = t.val / 4 % 4 * 512 + l.val; rw [e1]; omega
  | ⟨2, _⟩ => show win1_4.index t 2 * 2048 + 1 * j.val = j.val; rw [e2]; omega

/-- The point that writes back the block holding row `r` of batch `n`: the last key tile of the row's tile. -/
def tOut1 (n : Fin 8) (r : Fin 2048) : Fin cfg1.N :=
  ⟨16 * n.val + 4 * (r.val / 512) + 3, by have hN : grid1.N = 128 := N_1; show _ < grid1.N; omega⟩

theorem tOut1_val (n : Fin 8) (r : Fin 2048) : (tOut1 n r).val = 16 * n.val + 4 * (r.val / 512) + 3 := rfl

theorem cover_out1_at (i : S8x2048x2048.Idx) :
    (cfg1.win 4).flush (tOut1 (i 0) (i 1)) = true ∧ i ∈ ((cfg1.win 4).blk (tOut1 (i 0) (i 1))).view.set := by
  have h0 : (i 0).val < 8 := (i 0).isLt
  have h1 : (i 1).val < 2048 := (i 1).isLt
  have h2 : (i 2).val < 2048 := (i 2).isLt
  have hv : (tOut1 (i 0) (i 1)).val = 16 * (i 0).val + 4 * ((i 1).val / 512) + 3 := rfl
  refine ⟨(flush1_4 _).mpr (by rw [hv]; omega), ?_⟩
  obtain ⟨e0, e1, e2⟩ := idx1_4 (tOut1 (i 0) (i 1))
  show i ∈ ((View.whole main_v3).slice (win1_4.rect (tOut1 (i 0) (i 1)))).set
  rw [View.set_slice_whole, Rect.mem_set_unit]
  intro a
  match a with
  | ⟨0, _⟩ =>
    show win1_4.index (tOut1 (i 0) (i 1)) 0 * 1 ≤ (i 0).val ∧ (i 0).val < win1_4.index (tOut1 (i 0) (i 1)) 0 * 1 + 1
    rw [e0, hv]; omega
  | ⟨1, _⟩ =>
    show win1_4.index (tOut1 (i 0) (i 1)) 1 * 512 ≤ (i 1).val ∧ (i 1).val < win1_4.index (tOut1 (i 0) (i 1)) 1 * 512 + 512
    rw [e1, hv]; omega
  | ⟨2, _⟩ =>
    show win1_4.index (tOut1 (i 0) (i 1)) 2 * 2048 ≤ (i 2).val ∧ (i 2).val < win1_4.index (tOut1 (i 0) (i 1)) 2 * 2048 + 2048
    rw [e2]; omega

/-- Every entry of the result lies in the block of a point that writes its block back. -/
theorem cover_out1 (c : Dev nD) (i : ((cfg1.win 4).arr.view.loc (c : Thread nD τ)).2.ty.Idx) :
    ∃ t : Fin cfg1.N, (cfg1.win 4).flush t = true ∧ i ∈ ((cfg1.win 4).blk t).view.set :=
  ⟨_, cover_out1_at i⟩

end Cert.KernelIdeal.Hand

end
-- ==== Proof.KI_Value1.lean ====
/-
  Launch 1: what its result array holds.  Along the four key tiles of one row tile the carried buffers go through
  the reset and four updates; at the last one the written-back block is the query tile beside the quotient of the
  weighted sum by the sum of exponentials, which — the inputs being real numbers — is the softmax-weighted average
  of the key rows: the block of the specification.  The written-back blocks tile the array.
-/
import proofs.«165623_j12077448036716_2_alg».proof.Proof.KI_Entry
import proofs.«165623_j12077448036716_2_alg».proof.Proof.KI_Pieces1
import proofs.«165623_j12077448036716_2_alg».proof.Proof.KI_Blocks1
import proofs.«165623_j12077448036716_2_alg».proof.Proof.TileMath

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Tile

section Chain

variable (V : (c : Dev nD) → (b : Ref sig .tc) → Buf (Elt Ideal) ((c : Thread nD τ).loc b))

/-- One step of the recursion at a last key tile, -/
theorem outs1_succ_C (c : Dev nD) (n : ℕ) (hn : n + 1 < cfg1.N) (h0 : ¬(n + 1) % 4 = 0) (h3 : (n + 1) % 4 = 3) :
    outsAt1 V c (n + 1) hn = (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (fun h => h0 ((hcondF1 ⟨n + 1, hn⟩).mp h)) ((hcondL1 ⟨n + 1, hn⟩).mpr h3) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2,
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (fun h => h0 ((hcondF1 ⟨n + 1, hn⟩).mp h)) ((hcondL1 ⟨n + 1, hn⟩).mpr h3) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2) :=
  (dif_neg h0).trans ((dif_pos h3).trans rfl)
/-- at a middle one, -/
theorem outs1_succ_B (c : Dev nD) (n : ℕ) (hn : n + 1 < cfg1.N) (h0 : ¬(n + 1) % 4 = 0) (h3 : ¬(n + 1) % 4 = 3) :
    outsAt1 V c (n + 1) hn = (VO1.read (Elt Ideal) VO1.junk, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) scM1_3 (Memref.isWhole_whole _) (fun h => h0 ((hcondF1 ⟨n + 1, hn⟩).mp h)) (fun h => h3 ((hcondL1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2) :=
  (dif_neg h0).trans ((dif_neg h3).trans rfl)

/-- The carried buffers after a first key tile: the reset, then that tile folded in. -/
theorem st1_first (c : Dev nD) (n : ℕ) (hn : n < cfg1.N) (h0 : n % 4 = 0) :
    untup (outsAt1 V c n hn).2 = upd1 (iblk1 V c 2 ⟨n, hn⟩) (iblk1 V c 3 ⟨n, hn⟩) (init1 (iblk1 V c 0 ⟨n, hn⟩) (iblk1 V c 1 ⟨n, hn⟩)) := by
  rw [outsAt1_A V c ⟨n, hn⟩ h0]
  dsimp only
  rw [sout1_A_eq]
  rfl
/-- After a middle key tile: that tile folded into what the point before left. -/
theorem st1_mid (c : Dev nD) (n : ℕ) (hn : n + 1 < cfg1.N) (h0 : ¬(n + 1) % 4 = 0) (h3 : ¬(n + 1) % 4 = 3) :
    untup (outsAt1 V c (n + 1) hn).2 = upd1 (iblk1 V c 2 ⟨n + 1, hn⟩) (iblk1 V c 3 ⟨n + 1, hn⟩) (untup (outsAt1 V c n (Nat.lt_of_succ_lt hn)).2) := by
  rw [outs1_succ_B V c n hn h0 h3]
  dsimp only
  rw [sout1_B_eq]
  rfl
/-- The result block at a last key tile, entry by entry. -/
theorem blk1_last (c : Dev nD) (n : ℕ) (hn : n + 1 < cfg1.N) (h0 : ¬(n + 1) % 4 = 0) (h3 : (n + 1) % 4 = 3) (l : Fin 512) (j : Fin 2048) :
    (outsAt1 V c (n + 1) hn).1 (ix3 (0 : Fin 1) l j)
      = if h : j.val < 1024 then lo1 (iblk1 V c 0 ⟨n + 1, hn⟩) (ix3 (0 : Fin 1) l ⟨j.val, h⟩)
        else hi1 (upd1 (iblk1 V c 2 ⟨n + 1, hn⟩) (iblk1 V c 3 ⟨n + 1, hn⟩) (untup (outsAt1 V c n (Nat.lt_of_succ_lt hn)).2)) (ix3 (0 : Fin 1) l ⟨j.val - 1024, by omega⟩) := by
  rw [outs1_succ_C V c n hn h0 h3]
  dsimp only
  exact out1_C_apply _ _ _ _ _ _ _ _ _ _ _ _ _ _ _ _ _ _ _ _ _ _ _ _ _ _ _ l j

/-- The four key tiles of a row tile composed: the result block at the last one. -/
theorem blk1_four (c : Dev nD) (n : ℕ) (hn : n + 3 < cfg1.N) (h0 : n % 4 = 0) (l : Fin 512) (j : Fin 2048) :
    (outsAt1 V c (n + 3) hn).1 (ix3 (0 : Fin 1) l j)
      = if h : j.val < 1024 then lo1 (iblk1 V c 0 ⟨n + 3, hn⟩) (ix3 (0 : Fin 1) l ⟨j.val, h⟩)
        else hi1 (upd1 (iblk1 V c 2 ⟨n + 3, hn⟩) (iblk1 V c 3 ⟨n + 3, hn⟩)
              (upd1 (iblk1 V c 2 ⟨n + 2, by omega⟩) (iblk1 V c 3 ⟨n + 2, by omega⟩)
                (upd1 (iblk1 V c 2 ⟨n + 1, by omega⟩) (iblk1 V c 3 ⟨n + 1, by omega⟩)
                  (upd1 (iblk1 V c 2 ⟨n, by omega⟩) (iblk1 V c 3 ⟨n, by omega⟩)
                    (init1 (iblk1 V c 0 ⟨n, by omega⟩) (iblk1 V c 1 ⟨n, by omega⟩))))))
            (ix3 (0 : Fin 1) l ⟨j.val - 1024, by omega⟩) := by
  rw [blk1_last V c (n + 2) hn (by omega) (by omega) l j,
    st1_mid V c (n + 1) (by omega) (by omega) (by omega), st1_mid V c n (by omega) (by omega) (by omega), st1_first V c n (by omega) h0]

end Chain

/-! ## Against the specification -/

section Final

variable (m : (ℓ : Loc nD τ sig) → Buf (Elt Ideal) ℓ) (ρ : Dev nD → PrngReg)

/-- The specification's result for this launch, as the result array's contents. -/
def G1 (c : Dev nD) : Buf (Elt Ideal) ((cfg1.win 4).arr.view.loc (c : Thread nD τ)) :=
  Cert.Spec.asOut (Cert.Spec.outB (Cert.Spec.arrOf (m ((c : Thread nD τ).loc main_arg0))) (Cert.Spec.arrOf (m ((c : Thread nD τ).loc main_arg1)))
    (Cert.Spec.rowOf (m ((c : Thread nD τ).loc main_arg2))) (Cert.Spec.rowOf (m ((c : Thread nD τ).loc main_arg3))))

variable (hfin : ∀ c : Dev nD, (∀ i, ∃ x : ℝ, m ((c : Thread nD τ).loc main_arg0) i = (x : EReal)) ∧ (∀ i, ∃ x : ℝ, m ((c : Thread nD τ).loc main_arg1) i = (x : EReal))
  ∧ (∀ i, ∃ x : ℝ, m ((c : Thread nD τ).loc main_arg2) i = (x : EReal)) ∧ (∀ i, ∃ x : ℝ, m ((c : Thread nD τ).loc main_arg3) i = (x : EReal)))

include hfin in
/-- What a last key tile writes back is the specification's block. -/
theorem flushed1_eq (c : Dev nD) (t : Fin cfg1.N) (hf : (cfg1.win 4).flush t = true) :
    (dat1 (V2 m ρ) c).flushed 4 t = ((cfg1.win 4).blk t).view.read (Elt Ideal) (G1 m c) := by
  have h3 : t.val % 4 = 3 := (flush1_4 t).mp hf
  have hN : cfg1.N = 128 := N_1
  obtain ⟨n, hn, rfl⟩ : ∃ (n : ℕ) (hn : n + 3 < cfg1.N), t = ⟨n + 3, hn⟩ := ⟨t.val - 3, by have := t.isLt; omega, Fin.ext (by simp only []; omega)⟩
  have h0 : n % 4 = 0 := by simp only [] at h3; omega
  funext y
  obtain ⟨u, l, j, rfl⟩ : ∃ (u : Fin 1) (l : Fin 512) (j : Fin 2048), y = ix3 u l j := ⟨y 0, y 1, y 2, eq_ix3 y⟩
  obtain rfl : u = 0 := Subsingleton.elim _ _
  show (cfg1.win 4).cut (grid1.coords ⟨n + 3, hn⟩) ((dat1 (V2 m ρ) c).after 4 ⟨n + 3, hn⟩) (ix3 (0 : Fin 1) l j) = _
  rw [after1_4]
  refine (blk1_four (V2 m ρ) c n hn h0 l j).trans ?_
  rw [read_out1]
  show _ = Cert.Spec.outB (Cert.Spec.arrOf (m ((c : Thread nD τ).loc main_arg0))) (Cert.Spec.arrOf (m ((c : Thread nD τ).loc main_arg1))) (Cert.Spec.rowOf (m ((c : Thread nD τ).loc main_arg2))) (Cert.Spec.rowOf (m ((c : Thread nD τ).loc main_arg3))) (tB1 ⟨n + 3, hn⟩) (tRow1 ⟨n + 3, hn⟩ l) j
  unfold Cert.Spec.outB
  by_cases hj : j.val < 1024
  · rw [dif_pos hj, dif_pos hj]
    simp only [lo1_eq]
    rw [lo0_apply, blk1_q, V2_arg1]
    rfl
  · rw [dif_neg hj, dif_neg hj]
    simp only [init1_eq, upd1_eq, hi1_eq]
    rw [blk1_wk (V2 m ρ) c ⟨n + 3, hn⟩, blk1_wk (V2 m ρ) c ⟨n + 2, by omega⟩, blk1_wk (V2 m ρ) c ⟨n + 1, by omega⟩,
      blk1_wk (V2 m ρ) c ⟨n, by omega⟩, blk1_wq (V2 m ρ) c ⟨n, by omega⟩]
    have hB : ∀ (k : ℕ) (hk : n + k < cfg1.N), k < 4 → tB1 ⟨n + k, hk⟩ = tB1 ⟨n + 3, hn⟩ := fun k hk h4 =>
      Fin.ext (by rw [tB1_val, tB1_val]; simp only []; omega)
    have hqe : ∀ d : Fin 1024, (iblk1 (V2 m ρ) c 0 ⟨n, by omega⟩ : Vec Ideal S1x512x1024 .f32) (ix3 (0 : Fin 1) l d) = (Cert.Spec.arrOf (m ((c : Thread nD τ).loc main_arg1))) (tB1 ⟨n + 3, hn⟩) (tRow1 ⟨n + 3, hn⟩ l) d := fun d => by
      rw [blk1_q, V2_arg1, show tB1 (⟨n, by omega⟩ : Fin cfg1.N) = tB1 ⟨n + 3, hn⟩ from hB 0 (by omega) (by omega),
        show tRow1 (⟨n, by omega⟩ : Fin cfg1.N) l = tRow1 ⟨n + 3, hn⟩ l from Fin.ext (by rw [tRow1_val, tRow1_val]; simp only []; omega)]
      rfl
    have hwqe : ∀ d : Fin 1024, (V2 m ρ c main_v1 : S1x1024.Idx → Elt Ideal .f32) (ix2 (0 : Fin 1) d) = (Cert.Spec.rowOf (m ((c : Thread nD τ).loc main_arg3))) d := fun d => (congrFun (V2_v1 m ρ c) _).trans (V1_v1_apply m ρ c d)
    have hwke : ∀ d : Fin 1024, (V2 m ρ c main_v0 : S1x1024.Idx → Elt Ideal .f32) (ix2 (0 : Fin 1) d) = (Cert.Spec.rowOf (m ((c : Thread nD τ).loc main_arg2))) d := fun d => (congrFun (V2_v0 m ρ c) _).trans (V1_v0_apply m ρ c d)
    have hke : ∀ (r : Fin 2048) (d : Fin 1024), keyRow (fun k : Fin 4 => (iblk1 (V2 m ρ) c 2 ⟨n + k.val, by have := k.isLt; omega⟩ : Vec Ideal S1x512x1024 .f32)) r d
        = (Cert.Spec.arrOf (m ((c : Thread nD τ).loc main_arg0))) (tB1 ⟨n + 3, hn⟩) r d := fun r d => by
      have hr := r.isLt
      unfold keyRow
      dsimp only
      rw [blk1_k, V2_arg0, show tB1 (⟨n + r.val / 512, by omega⟩ : Fin cfg1.N) = tB1 ⟨n + 3, hn⟩ from hB (r.val / 512) (by omega) (by omega),
        show tKey1 (⟨n + r.val / 512, by omega⟩ : Fin cfg1.N) ⟨r.val % 512, Nat.mod_lt _ (by decide)⟩ = r from Fin.ext (by rw [tKey1_val]; simp only []; omega)]
      rfl
    refine (hi0_four_tiles (iblk1 (V2 m ρ) c 0 ⟨n, by omega⟩) (V2 m ρ c main_v1) (V2 m ρ c main_v0)
      (fun k : Fin 4 => (iblk1 (V2 m ρ) c 2 ⟨n + k.val, by have := k.isLt; omega⟩ : Vec Ideal S1x512x1024 .f32)) ?_ ?_ ?_ ?_ l ⟨j.val - 1024, by omega⟩).trans ?_
    · intro i
      obtain ⟨a, p, d, rfl⟩ : ∃ (a : Fin 1) (p : Fin 512) (d : Fin 1024), i = ix3 a p d := ⟨i 0, i 1, i 2, eq_ix3 i⟩
      obtain rfl : a = 0 := Subsingleton.elim _ _
      rw [blk1_q, V2_arg1]; exact (hfin c).2.1 _
    · intro i
      obtain ⟨a, d, rfl⟩ : ∃ (a : Fin 1) (d : Fin 1024), i = ix2 a d := ⟨i 0, i 1, eq_ix2 i⟩
      obtain rfl : a = 0 := Subsingleton.elim _ _
      rw [hwqe]; exact (hfin c).2.2.2 _
    · intro i
      obtain ⟨a, d, rfl⟩ : ∃ (a : Fin 1) (d : Fin 1024), i = ix2 a d := ⟨i 0, i 1, eq_ix2 i⟩
      obtain rfl : a = 0 := Subsingleton.elim _ _
      rw [hwke]; exact (hfin c).2.2.1 _
    · intro k i
      obtain ⟨a, p, d, rfl⟩ : ∃ (a : Fin 1) (p : Fin 512) (d : Fin 1024), i = ix3 a p d := ⟨i 0, i 1, i 2, eq_ix3 i⟩
      obtain rfl : a = 0 := Subsingleton.elim _ _
      rw [blk1_k, V2_arg0]; exact (hfin c).1 _
    · simp only [hqe, hwqe, hwke, hke]
      unfold Cert.Spec.ctxB Cert.Spec.score
      have hcomm : ∀ (r' : Fin 2048) (d : Fin 1024), ((Cert.Spec.arrOf (m ((c : Thread nD τ).loc main_arg1))) (tB1 ⟨n + 3, hn⟩) (tRow1 ⟨n + 3, hn⟩ l) d * (Cert.Spec.rowOf (m ((c : Thread nD τ).loc main_arg3))) d) * ((Cert.Spec.arrOf (m ((c : Thread nD τ).loc main_arg0))) (tB1 ⟨n + 3, hn⟩) r' d * (Cert.Spec.rowOf (m ((c : Thread nD τ).loc main_arg2))) d)
          = ((Cert.Spec.arrOf (m ((c : Thread nD τ).loc main_arg0))) (tB1 ⟨n + 3, hn⟩) r' d * (Cert.Spec.rowOf (m ((c : Thread nD τ).loc main_arg2))) d) * ((Cert.Spec.arrOf (m ((c : Thread nD τ).loc main_arg1))) (tB1 ⟨n + 3, hn⟩) (tRow1 ⟨n + 3, hn⟩ l) d * (Cert.Spec.rowOf (m ((c : Thread nD τ).loc main_arg3))) d) := fun _ _ => mul_comm _ _
      simp only [hcomm]

include hfin in
/-- The written-back blocks tile the result array: it ends holding the specification's result. -/
theorem final1 (c : Dev nD) : (dat1 (V2 m ρ) c).arrAt 4 cfg1.N = G1 m c :=
  (dat1 (V2 m ρ) c).arrAt_eq_of_cover 4 (G1 m c) (fun t hf => flushed1_eq m ρ hfin c t hf) (cover_out1 c)

end Final

end Cert.KernelIdeal.Hand

end
-- ==== Proof.KI_Finite.lean ====
/-
  Under the precondition every entry of the four inputs is a real number.

  The precondition is the conjunction, over the four input arrays, of "every entry's absolute value is below `+∞`",
  each conjunct an `and`-reduction of the entrywise comparison over all axes. On the extended reals the absolute value
  is `max x (−x)`, which is `⊤` exactly at the two infinities, so an entry that passes the comparison is neither `⊥`
  nor `⊤`: it is a real.
-/
import proofs.«165623_j12077448036716_2_alg».proof.Defs
import proofs.«165623_j12077448036716_2_alg».proof.Proof.Gen.Pre_finite_inputs
import Idealize.ShloMosaic.Lib.ReduceAll
import Idealize.ShloMosaic.Lib.ValueIdx
import Idealize.ShloMosaic.Lib.Pipeline.Value

noncomputable section

namespace Cert.KernelIdeal.Finite

open Idealize.ShloMosaic Idealize.SL.Sem Idealize.ShloMosaic.ValueIdx

/-- The scalar shape has one index. -/
local instance : Subsingleton (⟨0, ![]⟩ : Shape).Idx := ⟨fun a b => funext fun d => d.elim0⟩

/-- The f32 pattern of plus infinity denotes the greatest extended real. -/
theorem pos_inf_f32 : Ideal.ofBits .f32 0x7F800000#32 = (⊤ : EReal) := by simp [Ideal.ofBits, Ideal.ieee]

/-- An extended real whose absolute value `max x (−x)` is below `⊤` is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One conjunct of the precondition, for an array of any shape: if the `and`-reduction over all axes of
    "`|x| < +∞`, entry by entry" is 1, every entry of `x` is a real. -/
theorem all_real_of_all_abs_lt {s : Shape} {axes : List (Fin s.rank)} (x : FVec Ideal s .f32)
    (hb : (⟨0, ![]⟩ : Shape).BroadcastsInDim s (![] : Fin 0 → Fin s.rank)) (hr : s.ReducesTo axes ⟨0, ![]⟩)
    (hS : 0 < (⟨0, ![]⟩ : Shape).numel) (init : IVec ⟨0, ![]⟩ 1) (j : (⟨0, ![]⟩ : Shape).Idx)
    (e : Host.reduce IntOp.andi
          (cmpf .olt (Host.absf x) (broadcastInDim s ![] hb (constant (F := Ideal) ⟨0, ![]⟩ .f32 0x7F800000#32)))
          init hr hS j = 1#1) (i : s.Idx) :
    ∃ r : ℝ, x i = (r : EReal) := by
  have h1 := Host.reduce_andi_all _ init hr hS j e i
  rw [cmpf_apply, broadcastInDim_apply _ hb _ i ix0 (fun a => a.elim0), constant_apply, pos_inf_f32] at h1
  refine real_of_abs_lt_top (x i) ?_
  have h2 : BitVec.ofBool (decide (max (x i) (-(x i)) < ⊤)) = 1#1 := h1
  have h3 : decide (max (x i) (-(x i)) < ⊤) = true := by
    cases hd : decide (max (x i) (-(x i)) < ⊤)
    · rw [hd] at h2; exact absurd h2 (by decide)
    · rfl
  exact of_decide_eq_true h3

/-- Under the precondition every entry of each of the four input arrays, on every device, is a real number. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
    ∧ (∀ i, ∃ x : ℝ, m ((c.tc : Thread Cert.KernelIdeal.nD Cert.KernelIdeal.τ).loc Cert.KernelIdeal.main_arg1) i = (x : EReal))
    ∧ (∀ i, ∃ x : ℝ, m ((c.tc : Thread Cert.KernelIdeal.nD Cert.KernelIdeal.τ).loc Cert.KernelIdeal.main_arg2) i = (x : EReal))
    ∧ (∀ i, ∃ x : ℝ, m ((c.tc : Thread Cert.KernelIdeal.nD Cert.KernelIdeal.τ).loc Cert.KernelIdeal.main_arg3) i = (x : EReal)) := by
  have h0 := congrFun (h c) ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨all_real_of_all_abs_lt _ _ _ _ _ _ h0', all_real_of_all_abs_lt _ _ _ _ _ _ h1,
    all_real_of_all_abs_lt _ _ _ _ _ _ h2, all_real_of_all_abs_lt _ _ _ _ _ _ h3⟩

end Cert.KernelIdeal.Finite
end
-- ==== Proof.lean ====
/-
  The certificate of a two-launch cross-context kernel against its jnp reference.

  The kernel computes, per batch and per tile of 512 query rows, the softmax-weighted average of the other operand's
  rows in one pass over four tiles of 512 key rows, carrying a running row maximum, a running sum of exponentials
  and a running weighted sum, and writes the query tile beside the quotient of the last two; it is launched twice,
  with the operands exchanged.  The reference forms all the scores, takes the softmax along one axis and then the
  other, multiplies and concatenates.  Read on the extended reals the two agree when the inputs are real numbers:
  the running quantities are the maximum and the sums over all key rows (rescaling by exp of the maximum's change
  cancels), and a quotient of finite sums with a positive real denominator is the sum of the quotients.

  The three frames: each launch is run once per control case of the body (first, middle, last key tile) at a
  symbolic grid point, the four carried buffers' contents stated point by point; the reference is host operations only.
  The idealization rewrote nothing, so the preservation claim is trivial.
-/
import proofs.«165623_j12077448036716_2_alg».proof.Defs
import proofs.«165623_j12077448036716_2_alg».proof.Proof.Gen.Kernel
import proofs.«165623_j12077448036716_2_alg».proof.Proof.Gen.KernelIdeal
import proofs.«165623_j12077448036716_2_alg».proof.Proof.Gen.ReferenceIdeal
import proofs.«165623_j12077448036716_2_alg».proof.Proof.Gen.Pre_finite_inputs
import proofs.«165623_j12077448036716_2_alg».proof.Proof.K_Run
import proofs.«165623_j12077448036716_2_alg».proof.Proof.KI_Run
import proofs.«165623_j12077448036716_2_alg».proof.Proof.RefSpec
import proofs.«165623_j12077448036716_2_alg».proof.Proof.KI_Value0
import proofs.«165623_j12077448036716_2_alg».proof.Proof.KI_Value1
import proofs.«165623_j12077448036716_2_alg».proof.Proof.KI_Finite
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.RefValue.run_frame m ρ
theorem preserves : Cert.preserves_Kernel_KernelIdeal := trivial

/-- Both idealized programs, run from memories agreeing on the arguments, end with the specification's two results:
    the kernel by its two launches' written-back blocks (the inputs real numbers, by the precondition), the reference
    by reading its host operations index by index. -/
theorem algebraic : Cert.algebraic_KernelIdeal_ReferenceIdeal := by
  intro m ρ m' ρ' hpre hagree
  have hfin := fun c => Cert.KernelIdeal.Finite.finite_of_pre m hpre c
  refine ⟨fun c => Cert.KernelIdeal.Hand.G0 m c, fun c => Cert.KernelIdeal.Hand.G1 m c, ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v2 (by decide))).trans
        ((Cert.KernelIdeal.Hand.W3_main_v2 m ρ c).trans (Cert.KernelIdeal.Hand.final0 m ρ hfin c)),
      (h c _ (Cert.KernelIdeal.Hand.mem_uc Cert.KernelIdeal.main_v3 (by decide))).trans
        ((Cert.KernelIdeal.Hand.W3_main_v3 m ρ c).trans (Cert.KernelIdeal.Hand.final1 m ρ hfin c)),
      (h c _ (Cert.KernelIdeal.Hand.mem_uc Cert.KernelIdeal.main_arg0 (by decide))).trans (Cert.KernelIdeal.Hand.W3_main_arg0 m ρ c),
      (h c _ (Cert.KernelIdeal.Hand.mem_uc Cert.KernelIdeal.main_arg1 (by decide))).trans (Cert.KernelIdeal.Hand.W3_main_arg1 m ρ c),
      (h c _ (Cert.KernelIdeal.Hand.mem_uc Cert.KernelIdeal.main_arg2 (by decide))).trans (Cert.KernelIdeal.Hand.W3_main_arg2 m ρ c),
      (h c _ (Cert.KernelIdeal.Hand.mem_uc Cert.KernelIdeal.main_arg3 (by decide))).trans (Cert.KernelIdeal.Hand.W3_main_arg3 m ρ c)⟩
  · refine (θ_run Cert.ReferenceIdeal.defs _ _).mono (fun r h c => ?_) (Cert.ReferenceIdeal.RefValue.run_spec m' ρ')
    obtain ⟨h1, h2, h3, h4, h5, h6⟩ := h c
    refine ⟨h1.trans ?_, h2.trans ?_, h3, h4, h5, h6⟩
    · rw [(hagree c).1, (hagree c).2.1, (hagree c).2.2.1, (hagree c).2.2.2]; rfl
    · rw [(hagree c).1, (hagree c).2.1, (hagree c).2.2.1, (hagree c).2.2.2]; rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
